-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64x16 : Shape := ⟨4, ![32, 2048, 64, 16]⟩
abbrev S64x16 : Shape := ⟨2, ![64, 16]⟩
abbrev S_ : Shape := ⟨0, ![]⟩

class Facts : Prop where
  bcast_S_S32x2048x64x16 : S_.BroadcastsInDim S32x2048x64x16 (![] : Fin 0 → Fin S32x2048x64x16.rank)
  reducesTo_S32x2048x64x16_S_d0_1_2_3 : S32x2048x64x16.ReducesTo [0, 1, 2, 3] S_
  h_S_ : 0 < S_.numel
  bcast_S_S64x16 : S_.BroadcastsInDim S64x16 (![] : Fin 0 → Fin S64x16.rank)
  reducesTo_S64x16_S_d0_1 : S64x16.ReducesTo [0, 1] S_

variable [Facts]

def fn {F : FTy → Type} [FloatOps F] (main_arg0 : FVec F S32x2048x64x16 .f32) (main_arg1 : FVec F S64x16 .f32) : IVec S_ 1 :=
  let main_v0 : FVec F S32x2048x64x16 .f32 := Host.absf main_arg0
  let main_cst : FVec F S_ .f32 := constant S_ .f32 0x7F800000#32
  let main_v1 : FVec F S32x2048x64x16 .f32 := broadcastInDim S32x2048x64x16 ![] bcast_S_S32x2048x64x16 main_cst
  let main_v2 : IVec S32x2048x64x16 1 := cmpf .olt main_v0 main_v1
  let main_c : IVec S_ 1 := constantI S_ 1 1#1
  let main_v3 : IVec S_ 1 := (fun x v => Host.reduce IntOp.andi x v reducesTo_S32x2048x64x16_S_d0_1_2_3 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  main_v8
-- ==== Kernel.lean ====
abbrev S32x2048x64x16 : Shape := ⟨4, ![32, 2048, 64, 16]⟩
abbrev S64x16 : Shape := ⟨2, ![64, 16]⟩
abbrev S_ : Shape := ⟨0, ![]⟩
abbrev S32x2048x64 : Shape := ⟨3, ![32, 2048, 64]⟩
abbrev S32x64x16 : Shape := ⟨3, ![32, 64, 16]⟩
abbrev S8x32x64x16 : Shape := ⟨4, ![8, 32, 64, 16]⟩
abbrev S8x32x64 : Shape := ⟨3, ![8, 32, 64]⟩
abbrev S8x64x16 : Shape := ⟨3, ![8, 64, 16]⟩
abbrev S8x32 : Shape := ⟨2, ![8, 32]⟩
abbrev S8x32x1 : Shape := ⟨3, ![8, 32, 1]⟩
abbrev S8x32x64x1 : Shape := ⟨4, ![8, 32, 64, 1]⟩
abbrev S1x64x16 : Shape := ⟨3, ![1, 64, 16]⟩
abbrev S32x64 : Shape := ⟨2, ![32, 64]⟩
abbrev S32x64x1 : Shape := ⟨3, ![32, 64, 1]⟩
abbrev S8x1x64x16 : Shape := ⟨4, ![8, 1, 64, 16]⟩

abbrev nBuf : Space → Nat
  | .hbm => 66
  | .vmem => 37
  | .smem => 0
  | _ => 0

abbrev bufTy : (tb : Table) → Fin (tcTables nBuf tb) → BufTy
  | .hbm, ⟨0, _⟩ => ⟨S32x2048x64x16, .f32⟩
  | .hbm, ⟨1, _⟩ => ⟨S64x16, .f32⟩
  | .hbm, ⟨2, _⟩ => ⟨S_, .f32⟩
  | .hbm, ⟨3, _⟩ => ⟨S32x2048x64, .f32⟩
  | .hbm, ⟨4, _⟩ => ⟨S32x64x16, .f32⟩
  | .hbm, ⟨5, _⟩ => ⟨S1x64x16, .f32⟩
  | .hbm, ⟨6, _⟩ => ⟨S32x64x16, .f32⟩
  | .hbm, ⟨7, _⟩ => ⟨S32x64x16, .f32⟩
  | .hbm, ⟨8, _⟩ => ⟨S32x64x16, .f32⟩
  | .hbm, ⟨9, _⟩ => ⟨S_, .f32⟩
  | .hbm, ⟨10, _⟩ => ⟨S32x64, .f32⟩
  | .hbm, ⟨11, _⟩ => ⟨S32x64x1, .f32⟩
  | .hbm, ⟨12, _⟩ => ⟨S_, .f32⟩
  | .hbm, ⟨13, _⟩ => ⟨S32x64x1, .f32⟩
  | .hbm, ⟨14, _⟩ => ⟨S32x64x1, .f32⟩
  | .hbm, ⟨15, _⟩ => ⟨S32x64x1, .f32⟩
  | .hbm, ⟨16, _⟩ => ⟨S32x64x16, .f32⟩
  | .hbm, ⟨17, _⟩ => ⟨S32x64x16, .f32⟩
  | .hbm, ⟨18, _⟩ => ⟨S_, .f32⟩
  | .hbm, ⟨19, _⟩ => ⟨S32x64x1, .f32⟩
  | .hbm, ⟨20, _⟩ => ⟨S32x64x1, .f32⟩
  | .hbm, ⟨21, _⟩ => ⟨S32x64x1, .f32⟩
  | .hbm, ⟨22, _⟩ => ⟨S32x64x16, .f32⟩
  | .hbm, ⟨23, _⟩ => ⟨S32x64x16, .f32⟩
  | .hbm, ⟨24, _⟩ => ⟨S32x2048x64, .f32⟩
  | .hbm, ⟨25, _⟩ => ⟨S32x64x16, .f32⟩
  | .hbm, ⟨26, _⟩ => ⟨S1x64x16, .f32⟩
  | .hbm, ⟨27, _⟩ => ⟨S32x64x16, .f32⟩
  | .hbm, ⟨28, _⟩ => ⟨S32x64x16, .f32⟩
  | .hbm, ⟨29, _⟩ => ⟨S32x64x16, .f32⟩
  | .hbm, ⟨30, _⟩ => ⟨S_, .f32⟩
  | .hbm, ⟨31, _⟩ => ⟨S32x64, .f32⟩
  | .hbm, ⟨32, _⟩ => ⟨S32x64x1, .f32⟩
  | .hbm, ⟨33, _⟩ => ⟨S_, .f32⟩
  | .hbm, ⟨34, _⟩ => ⟨S32x64x1, .f32⟩
  | .hbm, ⟨35, _⟩ => ⟨S32x64x1, .f32⟩
  | .hbm, ⟨36, _⟩ => ⟨S32x64x1, .f32⟩
  | .hbm, ⟨37, _⟩ => ⟨S32x64x16, .f32⟩
  | .hbm, ⟨38, _⟩ => ⟨S32x64x16, .f32⟩
  | .hbm, ⟨39, _⟩ => ⟨S_, .f32⟩
  | .hbm, ⟨40, _⟩ => ⟨S32x64x1, .f32⟩
  | .hbm, ⟨41, _⟩ => ⟨S32x64x1, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x2048x64, .f32⟩
  | .hbm, ⟨46, _⟩ => ⟨S32x64x16, .f32⟩
  | .hbm, ⟨47, _⟩ => ⟨S1x64x16, .f32⟩
  | .hbm, ⟨48, _⟩ => ⟨S32x64x16, .f32⟩
  | .hbm, ⟨49, _⟩ => ⟨S32x64x16, .f32⟩
  | .hbm, ⟨50, _⟩ => ⟨S32x64x16, .f32⟩
  | .hbm, ⟨51, _⟩ => ⟨S_, .f32⟩
  | .hbm, ⟨52, _⟩ => ⟨S32x64, .f32⟩
  | .hbm, ⟨53, _⟩ => ⟨S32x64x1, .f32⟩
  | .hbm, ⟨54, _⟩ => ⟨S_, .f32⟩
  | .hbm, ⟨55, _⟩ => ⟨S32x64x1, .f32⟩
  | .hbm, ⟨56, _⟩ => ⟨S32x64x1, .f32⟩
  | .hbm, ⟨57, _⟩ => ⟨S32x64x1, .f32⟩
  | .hbm, ⟨58, _⟩ => ⟨S32x64x16, .f32⟩
  | .hbm, ⟨59, _⟩ => ⟨S32x64x16, .f32⟩
  | .hbm, ⟨60, _⟩ => ⟨S_, .f32⟩
  | .hbm, ⟨61, _⟩ => ⟨S32x64x1, .f32⟩
  | .hbm, ⟨62, _⟩ => ⟨S32x64x1, .f32⟩
  | .hbm, ⟨63, _⟩ => ⟨S32x64x1, .f32⟩
  | .hbm, ⟨64, _⟩ => ⟨S32x64x16, .f32⟩
  | .hbm, ⟨65, _⟩ => ⟨S32x64x16, .f32⟩
  | .local _ .vmem, ⟨0, _⟩ => ⟨S8x32x64x16, .f32⟩
  | .local _ .vmem, ⟨1, _⟩ => ⟨S8x32x64x16, .f32⟩
  | .local _ .vmem, ⟨2, _⟩ => ⟨S8x32x64, .f32⟩
  | .local _ .vmem, ⟨3, _⟩ => ⟨S8x32x64, .f32⟩
  | .local _ .vmem, ⟨4, _⟩ => ⟨S8x64x16, .f32⟩
  | .local _ .vmem, ⟨5, _⟩ => ⟨S8x64x16, .f32⟩
  | .local _ .vmem, ⟨6, _⟩ => ⟨S8x64x16, .f32⟩
  | .local _ .vmem, ⟨7, _⟩ => ⟨S8x32x64x16, .f32⟩
  | .local _ .vmem, ⟨8, _⟩ => ⟨S8x32x64x16, .f32⟩
  | .local _ .vmem, ⟨9, _⟩ => ⟨S8x64x16, .f32⟩
  | .local _ .vmem, ⟨10, _⟩ => ⟨S8x64x16, .f32⟩
  | .local _ .vmem, ⟨11, _⟩ => ⟨S8x32x64, .f32⟩
  | .local _ .vmem, ⟨12, _⟩ => ⟨S8x32x64, .f32⟩
  | .local _ .vmem, ⟨13, _⟩ => ⟨S8x32x64, .f32⟩
  | .local _ .vmem, ⟨14, _⟩ => ⟨S8x32x64, .f32⟩
  | .local _ .vmem, ⟨15, _⟩ => ⟨S8x32x64x16, .f32⟩
  | .local _ .vmem, ⟨16, _⟩ => ⟨S8x32x64x16, .f32⟩
  | .local _ .vmem, ⟨17, _⟩ => ⟨S8x32x64, .f32⟩
  | .local _ .vmem, ⟨18, _⟩ => ⟨S8x32x64, .f32⟩
  | .local _ .vmem, ⟨19, _⟩ => ⟨S8x64x16, .f32⟩
  | .local _ .vmem, ⟨20, _⟩ => ⟨S8x64x16, .f32⟩
  | .local _ .vmem, ⟨21, _⟩ => ⟨S8x64x16, .f32⟩
  | .local _ .vmem, ⟨22, _⟩ => ⟨S8x32x64x16, .f32⟩
  | .local _ .vmem, ⟨23, _⟩ => ⟨S8x32x64x16, .f32⟩
  | .local _ .vmem, ⟨24, _⟩ => ⟨S8x64x16, .f32⟩
  | .local _ .vmem, ⟨25, _⟩ => ⟨S8x64x16, .f32⟩
  | .local _ .vmem, ⟨26, _⟩ => ⟨S8x32x64, .f32⟩
  | .local _ .vmem, ⟨27, _⟩ => ⟨S8x32x64, .f32⟩
  | .local _ .vmem, ⟨28, _⟩ => ⟨S8x32x64, .f32⟩
  | .local _ .vmem, ⟨29, _⟩ => ⟨S8x32x64, .f32⟩
  | .local _ .vmem, ⟨30, _⟩ => ⟨S8x32x64x16, .f32⟩
  | .local _ .vmem, ⟨31, _⟩ => ⟨S8x32x64x16, .f32⟩
  | .local _ .vmem, ⟨32, _⟩ => ⟨S8x32x64, .f32⟩
  | .local _ .vmem, ⟨33, _⟩ => ⟨S8x32x64, .f32⟩
  | .local _ .vmem, ⟨34, _⟩ => ⟨S8x64x16, .f32⟩
  | .local _ .vmem, ⟨35, _⟩ => ⟨S8x64x16, .f32⟩
  | .local _ .vmem, ⟨36, _⟩ => ⟨S8x64x16, .f32⟩
  | _, _ => ⟨S32x2048x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_8 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg1 : BitVec 32 := BitVec.ofNat 32 (i 1).val
  let c63_i32 : BitVec 32 := 63#32
  let v26 : BitVec 1 := Scalar.cmpi .eq arg1 c63_i32
  let v27 : BitVec 32 := Scalar.extui v26
  let c0_i32_16 : BitVec 32 := 0#32
  let v28 : BitVec 1 := Scalar.cmpi .ne v27 c0_i32_16
  v28

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 64], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x32x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x32x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x32x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 64], ![false, false]⟩

def k2_cond2 (i : grid2.Coords) : BitVec 1 :=
  let arg1 : BitVec 32 := BitVec.ofNat 32 (i 1).val
  let c63_i32 : BitVec 32 := 63#32
  let v26 : BitVec 1 := Scalar.cmpi .eq arg1 c63_i32
  let v27 : BitVec 32 := Scalar.extui v26
  let c0_i32_16 : BitVec 32 := 0#32
  let v28 : BitVec 1 := Scalar.cmpi .ne v27 c0_i32_16
  v28

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x32x64x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x32x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S8x64x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 64], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S8x32x64x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S8x64x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S8x32x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S8x32x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![4, 64], ![false, false]⟩

def k4_cond2 (i : grid4.Coords) : BitVec 1 :=
  let arg1 : BitVec 32 := BitVec.ofNat 32 (i 1).val
  let c63_i32 : BitVec 32 := 63#32
  let v26 : BitVec 1 := Scalar.cmpi .eq arg1 c63_i32
  let v27 : BitVec 32 := Scalar.extui v26
  let c0_i32_16 : BitVec 32 := 0#32
  let v28 : BitVec 1 := Scalar.cmpi .ne v27 c0_i32_16
  v28

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S8x32x64x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S8x32x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S8x64x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  bcast_S_S32x2048x64 : S_.BroadcastsInDim S32x2048x64 (![] : Fin 0 → Fin S32x2048x64.rank)
  inb_S8x64x16_S8x64x16_0_0_0 : ∀ a, (![0, 0, 0] : Fin 3 → Nat) a + S8x64x16.size a ≤ S8x64x16.size a
  h_S8x64x16 : 0 < S8x64x16.numel
  shapeCasts_S8x64x16_S8x64x16 : S8x64x16.ShapeCasts S8x64x16
  inb_S8x32x64_S8x32x64_0_0_0 : ∀ a, (![0, 0, 0] : Fin 3 → Nat) a + S8x32x64.size a ≤ S8x32x64.size a
  h_S8x32x64 : 0 < S8x32x64.numel
  shapeCasts_S8x32x64_S8x32x64 : S8x32x64.ShapeCasts S8x32x64
  reduces_S8x32x64_S8x32 : S8x32x64.Reduces [2] S8x32
  shapeCasts_S8x32_S8x32x1 : S8x32.ShapeCasts S8x32x1
  broadcasts_S8x32x1_S8x32x64 : S8x32x1.Broadcasts S8x32x64
  inb_S8x32x64x16_S8x32x64x16_0_0_0_0 : ∀ a, (![0, 0, 0, 0] : Fin 4 → Nat) a + S8x32x64x16.size a ≤ S8x32x64x16.size a
  h_S8x32x64x16 : 0 < S8x32x64x16.numel
  shapeCasts_S8x32x64_S8x32x64x1 : S8x32x64.ShapeCasts S8x32x64x1
  broadcasts_S8x32x64x1_S8x32x64x16 : S8x32x64x1.Broadcasts S8x32x64x16
  reduces_S8x32x64x16_S8x64x16 : S8x32x64x16.Reduces [1] S8x64x16
  bcast_S64x16_S1x64x16_1_2 : S64x16.BroadcastsInDim S1x64x16 (![1, 2] : Fin 2 → Fin S1x64x16.rank)
  bcast_S1x64x16_S32x64x16_0_1_2 : S1x64x16.BroadcastsInDim S32x64x16 (![0, 1, 2] : Fin 3 → Fin S32x64x16.rank)
  reducesTo_S32x64x16_S32x64_d2 : S32x64x16.ReducesTo [2] S32x64
  h_S_ : 0 < S_.numel
  bcast_S32x64_S32x64x1_0_1 : S32x64.BroadcastsInDim S32x64x1 (![0, 1] : Fin 2 → Fin S32x64x1.rank)
  bcast_S_S32x64x1 : S_.BroadcastsInDim S32x64x1 (![] : Fin 0 → Fin S32x64x1.rank)
  bcast_S32x64x1_S32x64x16_0_1_2 : S32x64x1.BroadcastsInDim S32x64x16 (![0, 1, 2] : Fin 3 → Fin S32x64x16.rank)
  shapeCasts_S8x64x16_S8x1x64x16 : S8x64x16.ShapeCasts S8x1x64x16
  broadcasts_S8x1x64x16_S8x32x64x16 : S8x1x64x16.Broadcasts S8x32x64x16
  reduces_S8x32x64x16_S8x32x64 : S8x32x64x16.Reduces [3] S8x32x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x64x16.size a ≤ S32x2048x64x16.size a
  hwx0_0 : ∀ i : grid0.Coords, EltTy.bits .f32 = 32 ∨ (Rect.block (s := S32x2048x64x16) S8x32x64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x64.size a ≤ S32x2048x64.size a
  hwx0_1 : ∀ i : grid0.Coords, EltTy.bits .f32 = 32 ∨ (Rect.block (s := S32x2048x64) S8x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x16.size a ≤ S32x64x16.size a
  hwx0_2 : ∀ i : grid0.Coords, EltTy.bits .f32 = 32 ∨ (Rect.block (s := S32x64x16) S8x64x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x64x16.size a ≤ S32x2048x64x16.size a
  hwx1_0 : ∀ i : grid1.Coords, EltTy.bits .f32 = 32 ∨ (Rect.block (s := S32x2048x64x16) S8x32x64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x64x16.size a ≤ S32x64x16.size a
  hwx1_1 : ∀ i : grid1.Coords, EltTy.bits .f32 = 32 ∨ (Rect.block (s := S32x64x16) S8x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x32x64.size a ≤ S32x2048x64.size a
  hwx1_2 : ∀ i : grid1.Coords, EltTy.bits .f32 = 32 ∨ (Rect.block (s := S32x2048x64) S8x32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x32x64.size a ≤ S32x2048x64.size a
  hwx1_3 : ∀ i : grid1.Coords, EltTy.bits .f32 = 32 ∨ (Rect.block (s := S32x2048x64) S8x32x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x32x64x16.size a ≤ S32x2048x64x16.size a
  hwx2_0 : ∀ i : grid2.Coords, EltTy.bits .f32 = 32 ∨ (Rect.block (s := S32x2048x64x16) S8x32x64x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x32x64.size a ≤ S32x2048x64.size a
  hwx2_1 : ∀ i : grid2.Coords, EltTy.bits .f32 = 32 ∨ (Rect.block (s := S32x2048x64) S8x32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x64x16.size a ≤ S32x64x16.size a
  hwx2_2 : ∀ i : grid2.Coords, EltTy.bits .f32 = 32 ∨ (Rect.block (s := S32x64x16) S8x64x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x32x64x16.size a ≤ S32x2048x64x16.size a
  hwx3_0 : ∀ i : grid3.Coords, EltTy.bits .f32 = 32 ∨ (Rect.block (s := S32x2048x64x16) S8x32x64x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x64x16.size a ≤ S32x64x16.size a
  hwx3_1 : ∀ i : grid3.Coords, EltTy.bits .f32 = 32 ∨ (Rect.block (s := S32x64x16) S8x64x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x32x64.size a ≤ S32x2048x64.size a
  hwx3_2 : ∀ i : grid3.Coords, EltTy.bits .f32 = 32 ∨ (Rect.block (s := S32x2048x64) S8x32x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x32x64.size a ≤ S32x2048x64.size a
  hwx3_3 : ∀ i : grid3.Coords, EltTy.bits .f32 = 32 ∨ (Rect.block (s := S32x2048x64) S8x32x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x32x64x16.size a ≤ S32x2048x64x16.size a
  hwx4_0 : ∀ i : grid4.Coords, EltTy.bits .f32 = 32 ∨ (Rect.block (s := S32x2048x64x16) S8x32x64x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x32x64.size a ≤ S32x2048x64.size a
  hwx4_1 : ∀ i : grid4.Coords, EltTy.bits .f32 = 32 ∨ (Rect.block (s := S32x2048x64) S8x32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x64x16.size a ≤ S32x64x16.size a
  hwx4_2 : ∀ i : grid4.Coords, EltTy.bits .f32 = 32 ∨ (Rect.block (s := S32x64x16) S8x64x16.size (cc4_transform_2 i) (hinb4_2 i)).WholeWords (EltTy.packing .f32)

variable [Facts₀]

abbrev win0_0 : Pipeline.Window sig grid0 :=
  Pipeline.Window.ofSpec (Memref.whole main_arg0) S8x32x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x64x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x32x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S8x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x32x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S8x32x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S8x32x64x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S8x32x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S8x64x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg0) S8x32x64x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S8x64x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S8x32x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S8x32x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S8x32x64x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S8x32x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S8x64x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S32x2048x64x16 : Shape := ⟨4, ![32, 2048, 64, 16]⟩
abbrev S64x16 : Shape := ⟨2, ![64, 16]⟩
abbrev S_ : Shape := ⟨0, ![]⟩
abbrev S32x2048x16 : Shape := ⟨3, ![32, 2048, 16]⟩
abbrev S32x2048x1x16 : Shape := ⟨4, ![32, 2048, 1, 16]⟩
abbrev S32x64x16 : Shape := ⟨3, ![32, 64, 16]⟩
abbrev S32x1x64x16 : Shape := ⟨4, ![32, 1, 64, 16]⟩
abbrev S1x1x64x16 : Shape := ⟨4, ![1, 1, 64, 16]⟩
abbrev S32x1x64 : Shape := ⟨3, ![32, 1, 64]⟩
abbrev S32x1x64x1 : Shape := ⟨4, ![32, 1, 64, 1]⟩
abbrev S32x2048x64 : Shape := ⟨3, ![32, 2048, 64]⟩
abbrev S32x2048x64x1 : Shape := ⟨4, ![32, 2048, 64, 1]⟩

abbrev nBuf : Space → Nat
  | .hbm => 131
  | .vmem => 0
  | .smem => 0
  | _ => 0

abbrev hbmTy0_0 (i : Nat) : BufTy := match i % 128 with
  | 0 => ⟨S32x2048x64x16, .f32⟩
  | 1 => ⟨S64x16, .f32⟩
  | 2 => ⟨S_, .f32⟩
  | 3 => ⟨S32x2048x64x16, .f32⟩
  | 4 => ⟨S_, .f32⟩
  | 5 => ⟨S32x2048x16, .f32⟩
  | 6 => ⟨S_, .f32⟩
  | 7 => ⟨S32x2048x16, .f32⟩
  | 8 => ⟨S32x2048x16, .f32⟩
  | 9 => ⟨S32x2048x1x16, .f32⟩
  | 10 => ⟨S32x2048x64x16, .f32⟩
  | 11 => ⟨S32x2048x64x16, .f32⟩
  | 12 => ⟨S32x2048x64x16, .f32⟩
  | 13 => ⟨S_, .f32⟩
  | 14 => ⟨S32x2048x16, .f32⟩
  | 15 => ⟨S32x2048x1x16, .f32⟩
  | 16 => ⟨S32x2048x64x16, .f32⟩
  | 17 => ⟨S32x2048x64x16, .f32⟩
  | 18 => ⟨S32x2048x64x16, .f32⟩
  | 19 => ⟨S_, .f32⟩
  | 20 => ⟨S32x64x16, .f32⟩
  | 21 => ⟨S32x1x64x16, .f32⟩
  | 22 => ⟨S1x1x64x16, .f32⟩
  | 23 => ⟨S32x1x64x16, .f32⟩
  | 24 => ⟨S32x1x64x16, .f32⟩
  | 25 => ⟨S32x1x64x16, .f32⟩
  | 26 => ⟨S_, .f32⟩
  | 27 => ⟨S32x1x64, .f32⟩
  | 28 => ⟨S32x1x64x1, .f32⟩
  | 29 => ⟨S_, .f32⟩
  | 30 => ⟨S32x1x64x1, .f32⟩
  | 31 => ⟨S32x1x64x1, .f32⟩
  | 32 => ⟨S32x1x64x1, .f32⟩
  | 33 => ⟨S32x1x64x16, .f32⟩
  | 34 => ⟨S32x1x64x16, .f32⟩
  | 35 => ⟨S_, .f32⟩
  | 36 => ⟨S32x1x64x1, .f32⟩
  | 37 => ⟨S32x1x64x1, .f32⟩
  | 38 => ⟨S32x1x64x1, .f32⟩
  | 39 => ⟨S32x1x64x16, .f32⟩
  | 40 => ⟨S32x1x64x16, .f32⟩
  | 41 => ⟨S32x2048x64x16, .f32⟩
  | 42 => ⟨S32x2048x64x16, .f32⟩
  | 43 => ⟨S_, .f32⟩
  | 44 => ⟨S32x2048x64, .f32⟩
  | 45 => ⟨S32x2048x64x1, .f32⟩
  | 46 => ⟨S32x2048x64x16, .f32⟩
  | 47 => ⟨S32x2048x64x16, .f32⟩
  | 48 => ⟨S_, .f32⟩
  | 49 => ⟨S32x2048x16, .f32⟩
  | 50 => ⟨S_, .f32⟩
  | 51 => ⟨S32x2048x16, .f32⟩
  | 52 => ⟨S32x2048x16, .f32⟩
  | 53 => ⟨S32x2048x1x16, .f32⟩
  | 54 => ⟨S32x2048x64x16, .f32⟩
  | 55 => ⟨S32x2048x64x16, .f32⟩
  | 56 => ⟨S32x2048x64x16, .f32⟩
  | 57 => ⟨S_, .f32⟩
  | 58 => ⟨S32x2048x16, .f32⟩
  | 59 => ⟨S32x2048x1x16, .f32⟩
  | 60 => ⟨S32x2048x64x16, .f32⟩
  | 61 => ⟨S32x2048x64x16, .f32⟩
  | 62 => ⟨S32x2048x64x16, .f32⟩
  | 63 => ⟨S_, .f32⟩
  | 64 => ⟨S32x64x16, .f32⟩
  | 65 => ⟨S32x1x64x16, .f32⟩
  | 66 => ⟨S1x1x64x16, .f32⟩
  | 67 => ⟨S32x1x64x16, .f32⟩
  | 68 => ⟨S32x1x64x16, .f32⟩
  | 69 => ⟨S32x1x64x16, .f32⟩
  | 70 => ⟨S_, .f32⟩
  | 71 => ⟨S32x1x64, .f32⟩
  | 72 => ⟨S32x1x64x1, .f32⟩
  | 73 => ⟨S_, .f32⟩
  | 74 => ⟨S32x1x64x1, .f32⟩
  | 75 => ⟨S32x1x64x1, .f32⟩
  | 76 => ⟨S32x1x64x1, .f32⟩
  | 77 => ⟨S32x1x64x16, .f32⟩
  | 78 => ⟨S32x1x64x16, .f32⟩
  | 79 => ⟨S_, .f32⟩
  | 80 => ⟨S32x1x64x1, .f32⟩
  | 81 => ⟨S32x1x64x1, .f32⟩
  | 82 => ⟨S32x1x64x1, .f32⟩
  | 83 => ⟨S32x1x64x16, .f32⟩
  | 84 => ⟨S32x1x64x16, .f32⟩
  | 85 => ⟨S32x2048x64x16, .f32⟩
  | 86 => ⟨S32x2048x64x16, .f32⟩
  | 87 => ⟨S_, .f32⟩
  | 88 => ⟨S32x2048x64, .f32⟩
  | 89 => ⟨S32x2048x64x1, .f32⟩
  | 90 => ⟨S32x2048x64x16, .f32⟩
  | 91 => ⟨S32x2048x64x16, .f32⟩
  | 92 => ⟨S_, .f32⟩
  | 93 => ⟨S32x2048x16, .f32⟩
  | 94 => ⟨S_, .f32⟩
  | 95 => ⟨S32x2048x16, .f32⟩
  | 96 => ⟨S32x2048x16, .f32⟩
  | 97 => ⟨S32x2048x1x16, .f32⟩
  | 98 => ⟨S32x2048x64x16, .f32⟩
  | 99 => ⟨S32x2048x64x16, .f32⟩
  | 100 => ⟨S32x2048x64x16, .f32⟩
  | 101 => ⟨S_, .f32⟩
  | 102 => ⟨S32x2048x16, .f32⟩
  | 103 => ⟨S32x2048x1x16, .f32⟩
  | 104 => ⟨S32x2048x64x16, .f32⟩
  | 105 => ⟨S32x2048x64x16, .f32⟩
  | 106 => ⟨S32x2048x64x16, .f32⟩
  | 107 => ⟨S_, .f32⟩
  | 108 => ⟨S32x64x16, .f32⟩
  | 109 => ⟨S32x1x64x16, .f32⟩
  | 110 => ⟨S1x1x64x16, .f32⟩
  | 111 => ⟨S32x1x64x16, .f32⟩
  | 112 => ⟨S32x1x64x16, .f32⟩
  | 113 => ⟨S32x1x64x16, .f32⟩
  | 114 => ⟨S_, .f32⟩
  | 115 => ⟨S32x1x64, .f32⟩
  | 116 => ⟨S32x1x64x1, .f32⟩
  | 117 => ⟨S_, .f32⟩
  | 118 => ⟨S32x1x64x1, .f32⟩
  | 119 => ⟨S32x1x64x1, .f32⟩
  | 120 => ⟨S32x1x64x1, .f32⟩
  | 121 => ⟨S32x1x64x16, .f32⟩
  | 122 => ⟨S32x1x64x16, .f32⟩
  | 123 => ⟨S_, .f32⟩
  | 124 => ⟨S32x1x64x1, .f32⟩
  | 125 => ⟨S32x1x64x1, .f32⟩
  | 126 => ⟨S32x1x64x1, .f32⟩
  | 127 => ⟨S32x1x64x16, .f32⟩
  | _ => ⟨S32x2048x64x16, .f32⟩

abbrev hbmTy0_1 (i : Nat) : BufTy := match i % 128 with
  | 0 => ⟨S32x1x64x16, .f32⟩
  | 1 => ⟨S_, .f32⟩
  | 2 => ⟨S32x64x16, .f32⟩
  | _ => ⟨S32x2048x64x16, .f32⟩

abbrev hbmTy (i : Nat) : BufTy := match i / 128 with
  | 0 => hbmTy0_0 i
  | 1 => hbmTy0_1 i
  | _ => ⟨S32x2048x64x16, .f32⟩

abbrev bufTy : (tb : Table) → Fin (tcTables nBuf tb) → BufTy
  | .hbm, ⟨i, _⟩ => hbmTy i
  | _, _ => ⟨S32x2048x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_11 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_14 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_15 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_16 : Ref sig .tc := ⟨.hbm, 92, rfl⟩
abbrev main_v73 : Ref sig .tc := ⟨.hbm, 93, rfl⟩
abbrev main_cst_17 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_18 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_19 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_20 : Ref sig .tc := ⟨.hbm, 114, rfl⟩
abbrev main_v91 : Ref sig .tc := ⟨.hbm, 115, rfl⟩
abbrev main_v92 : Ref sig .tc := ⟨.hbm, 116, rfl⟩
abbrev main_cst_21 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_22 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_23 : Ref sig .tc := ⟨.hbm, 129, rfl⟩
abbrev main_v103 : Ref sig .tc := ⟨.hbm, 130, rfl⟩

abbrev nD : Nat := 1
abbrev τ : Topo := Topo.v7x

variable {F : FTy → Type} [FloatOps F]

class Facts₀ : Prop where
  bcast_S_S32x2048x64x16 : S_.BroadcastsInDim S32x2048x64x16 (![] : Fin 0 → Fin S32x2048x64x16.rank)
  reducesTo_S32x2048x64x16_S32x2048x16_d2 : S32x2048x64x16.ReducesTo [2] S32x2048x16
  h_S_ : 0 < S_.numel
  bcast_S_S32x2048x16 : S_.BroadcastsInDim S32x2048x16 (![] : Fin 0 → Fin S32x2048x16.rank)
  bcast_S32x2048x16_S32x2048x1x16_0_1_3 : S32x2048x16.BroadcastsInDim S32x2048x1x16 (![0, 1, 3] : Fin 3 → Fin S32x2048x1x16.rank)
  bcast_S32x2048x1x16_S32x2048x64x16_0_1_2_3 : S32x2048x1x16.BroadcastsInDim S32x2048x64x16 (![0, 1, 2, 3] : Fin 4 → Fin S32x2048x64x16.rank)
  reducesTo_S32x2048x64x16_S32x64x16_d1 : S32x2048x64x16.ReducesTo [1] S32x64x16
  bcast_S32x64x16_S32x1x64x16_0_2_3 : S32x64x16.BroadcastsInDim S32x1x64x16 (![0, 2, 3] : Fin 3 → Fin S32x1x64x16.rank)
  bcast_S64x16_S1x1x64x16_2_3 : S64x16.BroadcastsInDim S1x1x64x16 (![2, 3] : Fin 2 → Fin S1x1x64x16.rank)
  bcast_S1x1x64x16_S32x1x64x16_0_1_2_3 : S1x1x64x16.BroadcastsInDim S32x1x64x16 (![0, 1, 2, 3] : Fin 4 → Fin S32x1x64x16.rank)
  reducesTo_S32x1x64x16_S32x1x64_d3 : S32x1x64x16.ReducesTo [3] S32x1x64
  bcast_S32x1x64_S32x1x64x1_0_1_2 : S32x1x64.BroadcastsInDim S32x1x64x1 (![0, 1, 2] : Fin 3 → Fin S32x1x64x1.rank)
  bcast_S_S32x1x64x1 : S_.BroadcastsInDim S32x1x64x1 (![] : Fin 0 → Fin S32x1x64x1.rank)
  bcast_S32x1x64x1_S32x1x64x16_0_1_2_3 : S32x1x64x1.BroadcastsInDim S32x1x64x16 (![0, 1, 2, 3] : Fin 4 → Fin S32x1x64x16.rank)
  bcast_S32x1x64x16_S32x2048x64x16_0_1_2_3 : S32x1x64x16.BroadcastsInDim S32x2048x64x16 (![0, 1, 2, 3] : Fin 4 → Fin S32x2048x64x16.rank)
  reducesTo_S32x2048x64x16_S32x2048x64_d3 : S32x2048x64x16.ReducesTo [3] S32x2048x64
  bcast_S32x2048x64_S32x2048x64x1_0_1_2 : S32x2048x64.BroadcastsInDim S32x2048x64x1 (![0, 1, 2] : Fin 3 → Fin S32x2048x64x1.rank)
  bcast_S32x2048x64x1_S32x2048x64x16_0_1_2_3 : S32x2048x64x1.BroadcastsInDim S32x2048x64x16 (![0, 1, 2, 3] : Fin 4 → Fin S32x2048x64x16.rank)
  reducesTo_S32x1x64x16_S32x64x16_d1 : S32x1x64x16.ReducesTo [1] S32x64x16

variable [Facts₀]

class Facts : Prop extends Facts₀ where

variable [Facts]
-- ==== Proof.K.Acc0Defs.lean ====
/-
  The first weighted-sum region (the first pallas_call: agreements = softmax of the logits block, the inputs block times the
  agreements summed over the block's 32 input capsules, accumulated in a scratch over the 64 grid steps of a batch block and
  stored into the output block at the last of them): what the scratch holds after each grid point, and the region's proof
  data.  Grid point t = 64·i + j handles batch block i (8 samples) and input-capsule block j (32 capsules).
-/
import proofs.«130725_j52982716563714_2_alg».proof.Proof.LaunchKernel
import proofs.«130725_j52982716563714_2_alg».proof.Proof.Gen.Kernel.Skeleton
import proofs.«130725_j52982716563714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator as a whole memref. -/
abbrev scM0 : Memref sig .tc .vmem S8x64x16 .f32 := Memref.whole cc0_scratch0

/-- What the scratch accumulator holds after the body at position `n`: the point's partial sum added to zero at the first
    step of a batch block (n ≡ 0 mod 64), else to what the point before left. -/
def accAt0 (c : Dev nD) : (n : ℕ) → n < cfg0.N → Vec F S8x64x16 .f32
  | 0, hn => k0_pay2 (iblk0 V c 1 ⟨0, hn⟩) (iblk0 V c 0 ⟨0, hn⟩) (k0_pay1 (F := F))
  | n + 1, hn => k0_pay2 (iblk0 V c 1 ⟨n + 1, hn⟩) (iblk0 V c 0 ⟨n + 1, hn⟩)
      (if (n + 1) % 64 = 0 then (k0_pay1 (F := F)) else accAt0 c n (Nat.lt_of_succ_lt hn))

/-- The region's invariant before position `n`: before the first point the class's (every scoped buffer at anything, the
    generator register at some state); afterwards the scratch accumulator at what the point before left, the other scoped
    buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r))

/-- The proof data of the region on core `c`: the arrays as the region finds them; after the body at point `t` each input's
    buffer at its block and the output's at the accumulator's contents; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

end Cert.Kernel.Hand

end
-- ==== Proof.K.Acc0Body.lean ====
/-
  The first weighted-sum region: the body's triple at every grid point against the region's proof data.  The body has two
  conditions on the grid's second coordinate j (j = 0: zero the accumulator first; j = 63: copy the accumulator into the
  output block at the end), so a point is a first step (the accumulator ends at the block's partial sum added to zero), a
  middle step (added to what the point before left) or a last step (the same, and the output block ends at the
  accumulator's contents).  Every load and store is of a whole buffer, so a stored-then-loaded buffer reads back as stored.
-/
import proofs.«130725_j52982716563714_2_alg».proof.Proof.K.Acc0Defs
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions -/

/-- The body's first condition (it zeroes the accumulator): the grid's second coordinate is zero. -/
abbrev cond0_0 (i : grid0.Coords) : Prop := (Scalar.cmpi .ne (Scalar.extui (Scalar.cmpi .eq (BitVec.ofNat 32 (i 1).val) 0#32)) 0#32) = 1#1
/-- The body's second condition (it copies the accumulator into the output block): the grid's second coordinate is 63. -/
abbrev cond0_1 (i : grid0.Coords) : Prop := k0_cond2 i = 1#1

/-- The first holds at the points ≡ 0 (mod 64): decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)
/-- The second holds at the points ≡ 63 (mod 64): decided over the grid. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Whole-buffer loads and stores -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The whole rectangle of the accumulator's shape, of the logits block's and of the inputs block's. -/
abbrev rS0 : Rect S8x64x16 := Rect.unit (s := S8x64x16) ![0, 0, 0] S8x64x16.size inb_S8x64x16_S8x64x16_0_0_0
abbrev rL0 : Rect S8x32x64 := Rect.unit (s := S8x32x64) ![0, 0, 0] S8x32x64.size inb_S8x32x64_S8x32x64_0_0_0
abbrev rI0 : Rect S8x32x64x16 := Rect.unit (s := S8x32x64x16) ![0, 0, 0, 0] S8x32x64x16.size inb_S8x32x64x16_S8x32x64x16_0_0_0_0

/-- A load through the whole rectangle reads the buffer's contents. -/
theorem readAt_rS0 {sg : RefSig} {κ : Kind} {sp : Space} (v : View sg κ sp S8x64x16 .f32) (f : v.ty.Contents (Elt F)) :
    v.readAt (Elt F) rS0.toLoadRect f = v.read (Elt F) f :=
  (View.readAt_eq_ld v f rS0).trans (View.ld_unit_zero (S := S8x64x16) hz3 inb_S8x64x16_S8x64x16_0_0_0 _)
theorem readAt_rL0 {sg : RefSig} {κ : Kind} {sp : Space} (v : View sg κ sp S8x32x64 .f32) (f : v.ty.Contents (Elt F)) :
    v.readAt (Elt F) rL0.toLoadRect f = v.read (Elt F) f :=
  (View.readAt_eq_ld v f rL0).trans (View.ld_unit_zero (S := S8x32x64) hz3 inb_S8x32x64_S8x32x64_0_0_0 _)
theorem readAt_rI0 {sg : RefSig} {κ : Kind} {sp : Space} (v : View sg κ sp S8x32x64x16 .f32) (f : v.ty.Contents (Elt F)) :
    v.readAt (Elt F) rI0.toLoadRect f = v.read (Elt F) f :=
  (View.readAt_eq_ld v f rI0).trans (View.ld_unit_zero (S := S8x32x64x16) hz4 inb_S8x32x64x16_S8x32x64x16_0_0_0_0 _)

/-- A store through the whole rectangle, last, covers the buffer. -/
theorem cover_rS0 (w : Vec F S8x64x16 .f32) (L : List (View.Piece (Elt F) S8x64x16 .f32)) (y : S8x64x16.Idx) :
    ∃ p ∈ ((⟨rS0, w⟩ : View.Piece (Elt F) S8x64x16 .f32) :: L), y ∈ p.1.set :=
  ⟨_, List.mem_cons_self, View.mem_set_unit_zero (S := S8x64x16) hz3 inb_S8x64x16_S8x64x16_0_0_0 y⟩

/-- What a buffer of the accumulator's shape reads after stores the last of which is whole: that store's payload. -/
theorem read_writes_rS0 {sg : RefSig} {κ : Kind} {sp : Space} (v : View sg κ sp S8x64x16 .f32) (f : v.ty.Contents (Elt F))
    (w : Vec F S8x64x16 .f32) (L : List (View.Piece (Elt F) S8x64x16 .f32)) :
    v.read (Elt F) (v.writes (Elt F) f ((⟨rS0, w⟩ : View.Piece (Elt F) S8x64x16 .f32) :: L)) = w :=
  (View.read_writes_eq_canon v f _ (cover_rS0 w L)).trans (View.canon_cons_unit_zero (S := S8x64x16) hz3 inb_S8x64x16_S8x64x16_0_0_0 w L)

/-- A whole load after stores the last of which is whole reads that store's payload. -/
theorem readCov_rS0 {sg : RefSig} {κ : Kind} {sp : Space} (v : View sg κ sp S8x64x16 .f32)
    (w : Vec F S8x64x16 .f32) (L : List (View.Piece (Elt F) S8x64x16 .f32)) :
    v.readCov ((⟨rS0, w⟩ : View.Piece (Elt F) S8x64x16 .f32) :: L) rS0.toLoadRect = w :=
  (View.readCov_eq_canon_ld v _ rS0 (cover_rS0 w L)).trans
    ((congrArg (fun X => View.ld X rS0) (View.canon_cons_unit_zero (S := S8x64x16) hz3 inb_S8x64x16_S8x64x16_0_0_0 w L)).trans
      (View.ld_unit_zero (S := S8x64x16) hz3 inb_S8x64x16_S8x64x16_0_0_0 w))

set_option maxHeartbeats 4000000 in
/-- A first step (the first condition holds, the second does not): the accumulator is zeroed, then the block's partial sum is added to it; the output block is untouched. -/
theorem sound_kernel0_A (c : Dev nD) (E : Set ℕ) (i : grid0.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : cond0_0 i) (hc1 : ¬cond0_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x1 x0 (k0_pay1 (F := F)))) -∗ K ⟨⟩))
      ⊢ wp frame (wpE (defs₀ (F := F)) Variants.none c none) E (cc0__output_accum_kernel i arg2 harg2 arg3 harg3 arg4 harg4 arg5 harg5) K := by
  simp only [cc0__output_accum_kernel_eq_skeleton]; unfold cc0__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  sl_unfold_run_names
  refine (read_writes_rS0 _ _ _ _).trans ?_
  rw [readAt_rL0, readAt_rI0, readCov_rS0]

set_option maxHeartbeats 4000000 in
/-- A middle step (neither condition holds): the accumulator goes from `xs` to `xs` plus the block's partial sum; the output block is untouched. -/
theorem sound_kernel0_B (c : Dev nD) (E : Set ℕ) (i : grid0.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond0_0 i) (hc1 : ¬cond0_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x1 x0 xs)) -∗ K ⟨⟩))
      ⊢ wp frame (wpE (defs₀ (F := F)) Variants.none c none) E (cc0__output_accum_kernel i arg2 harg2 arg3 harg3 arg4 harg4 arg5 harg5) K := by
  simp only [cc0__output_accum_kernel_eq_skeleton]; unfold cc0__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  refine (read_writes_rS0 _ _ _ _).trans ?_
  rw [readAt_rL0, readAt_rI0, readAt_rS0]

set_option maxHeartbeats 4000000 in
/-- A last step (the second condition holds, the first does not): the block's partial sum is added to the accumulator, and the accumulator is copied into the output block. -/
theorem sound_kernel0_C (c : Dev nD) (E : Set ℕ) (i : grid0.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond0_0 i) (hc1 : cond0_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k0_pay2 x1 x0 xs)
            ∗ owns (c : Thread nD τ) arg5 fullShare (k0_pay2 x1 x0 xs)) -∗ K ⟨⟩))
      ⊢ wp frame (wpE (defs₀ (F := F)) Variants.none c none) E (cc0__output_accum_kernel i arg2 harg2 arg3 harg3 arg4 harg4 arg5 harg5) K := by
  simp only [cc0__output_accum_kernel_eq_skeleton]; unfold cc0__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists _; isplitr
    swap; · iexact Ho
    ipureintro
    sl_unfold_run_names
    refine (read_writes_rS0 _ _ _ _).trans ?_
    refine (readCov_rS0 _ _ _).trans ?_
    rw [readAt_rL0, readAt_rI0, readAt_rS0]
  iexists _; isplitr
  swap; · iexact HS
  ipureintro
  sl_unfold_run_names
  refine (read_writes_rS0 _ _ _ _).trans ?_
  rw [readAt_rL0, readAt_rI0, readAt_rS0]

/-! ## Where the windows are idle -/

/-- The two input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Where the second condition fails the output window is idle: the body stores nothing into it. -/
theorem idleAt0_2 : ∀ t : Fin cfg0.N, ¬cond0_1 (grid0.coords t) → cfg0.idle 2 (grid0.coords t) = true := by decide +kernel
/-- Where it holds the output window is live. -/
theorem liveAt0_2 : ∀ t : Fin cfg0.N, cond0_1 (grid0.coords t) → cfg0.idle 2 (grid0.coords t) = false := by decide +kernel
/-- Where the second condition fails the output block is not written back. -/
theorem noFlush0_2 (t : Fin cfg0.N) (h : ¬cond0_1 (grid0.coords t)) : (cfg0.win 2).flush t = false := by
  cases hf : (cfg0.win 2).flush t
  · rfl
  · exact absurd ((hcond0_1 t).mpr ((flush0_2 t).mp hf)) h

/-! ## The input windows' blocks -/

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The accumulator point by point -/

/-- At a first step of a batch block the accumulator ends at the block's partial sum added to zero. -/
theorem accAt0_first (c : Dev nD) (t : Fin cfg0.N) (h : t.val % 64 = 0) :
    accAt0 V c t.val t.isLt = k0_pay2 (iblk0 V c 1 t) (iblk0 V c 0 t) (k0_pay1 (F := F)) := by
  obtain ⟨n, hn⟩ := t
  cases n with
  | zero => rw [accAt0]
  | succ n => rw [accAt0, if_pos h]

/-- At any other step it ends at the block's partial sum added to what the point before left. -/
theorem accAt0_next (c : Dev nD) (t : Fin cfg0.N) (h : ¬t.val % 64 = 0) :
    accAt0 V c t.val t.isLt = k0_pay2 (iblk0 V c 1 t) (iblk0 V c 0 t) (accAt0 V c (t.val - 1) (Nat.lt_of_le_of_lt (Nat.sub_le _ _) t.isLt)) := by
  obtain ⟨n, hn⟩ := t
  cases n with
  | zero => exact absurd (Nat.zero_mod _) h
  | succ n => rw [accAt0, if_neg h]; rfl

/-! ## The invariant -/

theorem PhiS0_zero (c : Dev nD) (n : ℕ) (h : n ≤ cfg0.N) (hz : n = 0) : PhiS0 V c n h = Pipeline.ΦA spec0 c := by
  subst hz; rfl

/-- After point `n`: the accumulator at that point's contents. -/
theorem PhiS0_succ (c : Dev nD) (n : ℕ) (hn : n < cfg0.N) :
    PhiS0 V c (n + 1) hn = iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r)) := rfl

/-- Before a point that is not the first: the accumulator at what the point before left. -/
theorem PhiS0_pos (c : Dev nD) (n : ℕ) (h : n ≤ cfg0.N) (hz : n ≠ 0) :
    PhiS0 V c n h = iprop(owns (c : Thread nD τ) scM0 fullShare (accAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The class's invariant with the accumulator as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0, owns_whole]; try rfl

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms of the two conditions say which of the
    three steps the point is (a first step of a batch block, a middle one, a last one); the invariant hands the body the
    accumulator at what the point before left (at anything before the region's first point) and takes it back at this
    point's contents; where the output block is not written back its buffer is handed back untouched, at a last step it
    holds the accumulator's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 256 := lt_of_lt_of_eq t.isLt (show cfg0.N = 256 from N_0)
  by_cases h0 : t.val % 64 = 0
  · have h1 : ¬t.val % 64 = 63 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [accAt0_first V c t h0]
    by_cases hz : t.val = 0
    · rw [PhiS0_castSucc V c t, PhiS0_zero V c _ _ hz, PhiA0_eq]
      iintro ⟨⟨⟨⟨%ds, HS⟩, HR⟩, Hg⟩, Ho, ⟨%d0, H0⟩, ⟨%d1, H1⟩, ⟨%d2, H2⟩⟩
      iapply (sound_kernel0_A c Set.univ (grid0.coords t) _ _ _ _ _ _ _ _ hc0 hc1 (iblk0 V c 0 t) (iblk0 V c 1 t) _ ds _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨HS, HR, Hg⟩, Ho, ⟨%d0, H0⟩, ⟨%d1, H1⟩, ⟨%d2, H2⟩⟩
      iapply (sound_kernel0_A c Set.univ (grid0.coords t) _ _ _ _ _ _ _ _ hc0 hc1 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun e => h0 (by rw [e])
    by_cases h1 : t.val % 64 = 63
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [accAt0_next V c t h0]
      rw [PhiS0_castSucc V c t, PhiS0_pos V c _ _ hz]
      iintro ⟨⟨HS, HR, Hg⟩, Ho, ⟨%d0, H0⟩, ⟨%d1, H1⟩, ⟨%d2, H2⟩⟩
      iapply (sound_kernel0_C c Set.univ (grid0.coords t) _ _ _ _ _ _ _ _ hc0 hc1 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      rw [accAt0_next V c t h0]
      rw [PhiS0_castSucc V c t, PhiS0_pos V c _ _ hz]
      iintro ⟨⟨HS, HR, Hg⟩, Ho, ⟨%d0, H0⟩, ⟨%d1, H1⟩, ⟨%d2, H2⟩⟩
      iapply (sound_kernel0_B c Set.univ (grid0.coords t) _ _ _ _ _ _ _ _ hc0 hc1 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, HR, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Cert.Kernel.Hand

end
-- ==== Proof.K.Acc2Defs.lean ====
/-
  The second weighted-sum region (the third pallas_call: agreements = softmax of the logits block, the inputs block times the
  agreements summed over the block's 32 input capsules, accumulated in a scratch over the 64 grid steps of a batch block and
  stored into the output block at the last of them): what the scratch holds after each grid point, and the region's proof
  data.  Grid point t = 64·i + j handles batch block i (8 samples) and input-capsule block j (32 capsules).
-/
import proofs.«130725_j52982716563714_2_alg».proof.Proof.LaunchKernel
import proofs.«130725_j52982716563714_2_alg».proof.Proof.Gen.Kernel.Skeleton
import proofs.«130725_j52982716563714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator as a whole memref. -/
abbrev scM2 : Memref sig .tc .vmem S8x64x16 .f32 := Memref.whole cc2_scratch0

/-- What the scratch accumulator holds after the body at position `n`: the point's partial sum added to zero at the first
    step of a batch block (n ≡ 0 mod 64), else to what the point before left. -/
def accAt2 (c : Dev nD) : (n : ℕ) → n < cfg2.N → Vec F S8x64x16 .f32
  | 0, hn => k2_pay2 (iblk2 V c 1 ⟨0, hn⟩) (iblk2 V c 0 ⟨0, hn⟩) (k2_pay1 (F := F))
  | n + 1, hn => k2_pay2 (iblk2 V c 1 ⟨n + 1, hn⟩) (iblk2 V c 0 ⟨n + 1, hn⟩)
      (if (n + 1) % 64 = 0 then (k2_pay1 (F := F)) else accAt2 c n (Nat.lt_of_succ_lt hn))

/-- The region's invariant before position `n`: before the first point the class's (every scoped buffer at anything, the
    generator register at some state); afterwards the scratch accumulator at what the point before left, the other scoped
    buffers at anything, the generator register at some state. -/
def PhiS2 (c : Dev nD) : (n : ℕ) → n ≤ cfg2.N → sProp 𝕄
  | 0, _ => Pipeline.ΦA spec2 c
  | n + 1, hn => iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r))

/-- The proof data of the region on core `c`: the arrays as the region finds them; after the body at point `t` each input's
    buffer at its block and the output's at the accumulator's contents; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

end Cert.Kernel.Hand

end
-- ==== Proof.K.Acc2Body.lean ====
/-
  The second weighted-sum region: the body's triple at every grid point against the region's proof data.  The body has two
  conditions on the grid's second coordinate j (j = 0: zero the accumulator first; j = 63: copy the accumulator into the
  output block at the end), so a point is a first step (the accumulator ends at the block's partial sum added to zero), a
  middle step (added to what the point before left) or a last step (the same, and the output block ends at the
  accumulator's contents).  Every load and store is of a whole buffer, so a stored-then-loaded buffer reads back as stored.
-/
import proofs.«130725_j52982716563714_2_alg».proof.Proof.K.Acc2Defs
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions -/

/-- The body's first condition (it zeroes the accumulator): the grid's second coordinate is zero. -/
abbrev cond2_0 (i : grid2.Coords) : Prop := (Scalar.cmpi .ne (Scalar.extui (Scalar.cmpi .eq (BitVec.ofNat 32 (i 1).val) 0#32)) 0#32) = 1#1
/-- The body's second condition (it copies the accumulator into the output block): the grid's second coordinate is 63. -/
abbrev cond2_1 (i : grid2.Coords) : Prop := k2_cond2 i = 1#1

/-- The first holds at the points ≡ 0 (mod 64): decided over the grid. -/
theorem hcond2_0 : ∀ t : Fin cfg2.N, cond2_0 (grid2.coords t) ↔ t.val % 64 = 0 :=
  (by decide +kernel : ∀ t : Fin grid2.N, cond2_0 (grid2.coords t) ↔ t.val % 64 = 0)
/-- The second holds at the points ≡ 63 (mod 64): decided over the grid. -/
theorem hcond2_1 : ∀ t : Fin cfg2.N, cond2_1 (grid2.coords t) ↔ t.val % 64 = 63 :=
  (by decide +kernel : ∀ t : Fin grid2.N, cond2_1 (grid2.coords t) ↔ t.val % 64 = 63)

/-! ## Whole-buffer loads and stores -/

theorem hz3_2 : (![0, 0, 0] : Fin 3 → Nat) = fun _ => 0 := funext fun a => by fin_cases a <;> rfl
theorem hz4_2 : (![0, 0, 0, 0] : Fin 4 → Nat) = fun _ => 0 := funext fun a => by fin_cases a <;> rfl

/-- The whole rectangle of the accumulator's shape, of the logits block's and of the inputs block's. -/
abbrev rS2 : Rect S8x64x16 := Rect.unit (s := S8x64x16) ![0, 0, 0] S8x64x16.size inb_S8x64x16_S8x64x16_0_0_0
abbrev rL2 : Rect S8x32x64 := Rect.unit (s := S8x32x64) ![0, 0, 0] S8x32x64.size inb_S8x32x64_S8x32x64_0_0_0
abbrev rI2 : Rect S8x32x64x16 := Rect.unit (s := S8x32x64x16) ![0, 0, 0, 0] S8x32x64x16.size inb_S8x32x64x16_S8x32x64x16_0_0_0_0

/-- A load through the whole rectangle reads the buffer's contents. -/
theorem readAt_rS2 {sg : RefSig} {κ : Kind} {sp : Space} (v : View sg κ sp S8x64x16 .f32) (f : v.ty.Contents (Elt F)) :
    v.readAt (Elt F) rS2.toLoadRect f = v.read (Elt F) f :=
  (View.readAt_eq_ld v f rS2).trans (View.ld_unit_zero (S := S8x64x16) hz3_2 inb_S8x64x16_S8x64x16_0_0_0 _)
theorem readAt_rL2 {sg : RefSig} {κ : Kind} {sp : Space} (v : View sg κ sp S8x32x64 .f32) (f : v.ty.Contents (Elt F)) :
    v.readAt (Elt F) rL2.toLoadRect f = v.read (Elt F) f :=
  (View.readAt_eq_ld v f rL2).trans (View.ld_unit_zero (S := S8x32x64) hz3_2 inb_S8x32x64_S8x32x64_0_0_0 _)
theorem readAt_rI2 {sg : RefSig} {κ : Kind} {sp : Space} (v : View sg κ sp S8x32x64x16 .f32) (f : v.ty.Contents (Elt F)) :
    v.readAt (Elt F) rI2.toLoadRect f = v.read (Elt F) f :=
  (View.readAt_eq_ld v f rI2).trans (View.ld_unit_zero (S := S8x32x64x16) hz4_2 inb_S8x32x64x16_S8x32x64x16_0_0_0_0 _)

/-- A store through the whole rectangle, last, covers the buffer. -/
theorem cover_rS2 (w : Vec F S8x64x16 .f32) (L : List (View.Piece (Elt F) S8x64x16 .f32)) (y : S8x64x16.Idx) :
    ∃ p ∈ ((⟨rS2, w⟩ : View.Piece (Elt F) S8x64x16 .f32) :: L), y ∈ p.1.set :=
  ⟨_, List.mem_cons_self, View.mem_set_unit_zero (S := S8x64x16) hz3_2 inb_S8x64x16_S8x64x16_0_0_0 y⟩

/-- What a buffer of the accumulator's shape reads after stores the last of which is whole: that store's payload. -/
theorem read_writes_rS2 {sg : RefSig} {κ : Kind} {sp : Space} (v : View sg κ sp S8x64x16 .f32) (f : v.ty.Contents (Elt F))
    (w : Vec F S8x64x16 .f32) (L : List (View.Piece (Elt F) S8x64x16 .f32)) :
    v.read (Elt F) (v.writes (Elt F) f ((⟨rS2, w⟩ : View.Piece (Elt F) S8x64x16 .f32) :: L)) = w :=
  (View.read_writes_eq_canon v f _ (cover_rS2 w L)).trans (View.canon_cons_unit_zero (S := S8x64x16) hz3_2 inb_S8x64x16_S8x64x16_0_0_0 w L)

/-- A whole load after stores the last of which is whole reads that store's payload. -/
theorem readCov_rS2 {sg : RefSig} {κ : Kind} {sp : Space} (v : View sg κ sp S8x64x16 .f32)
    (w : Vec F S8x64x16 .f32) (L : List (View.Piece (Elt F) S8x64x16 .f32)) :
    v.readCov ((⟨rS2, w⟩ : View.Piece (Elt F) S8x64x16 .f32) :: L) rS2.toLoadRect = w :=
  (View.readCov_eq_canon_ld v _ rS2 (cover_rS2 w L)).trans
    ((congrArg (fun X => View.ld X rS2) (View.canon_cons_unit_zero (S := S8x64x16) hz3_2 inb_S8x64x16_S8x64x16_0_0_0 w L)).trans
      (View.ld_unit_zero (S := S8x64x16) hz3_2 inb_S8x64x16_S8x64x16_0_0_0 w))

set_option maxHeartbeats 4000000 in
/-- A first step (the first condition holds, the second does not): the accumulator is zeroed, then the block's partial sum is added to it; the output block is untouched. -/
theorem sound_kernel2_A (c : Dev nD) (E : Set ℕ) (i : grid2.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : cond2_0 i) (hc1 : ¬cond2_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k2_pay2 x1 x0 (k2_pay1 (F := F)))) -∗ K ⟨⟩))
      ⊢ wp frame (wpE (defs₀ (F := F)) Variants.none c none) E (cc2__output_accum_kernel i arg2 harg2 arg3 harg3 arg4 harg4 arg5 harg5) K := by
  simp only [cc2__output_accum_kernel_eq_skeleton]; unfold cc2__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  sl_unfold_run_names
  refine (read_writes_rS2 _ _ _ _).trans ?_
  rw [readAt_rL2, readAt_rI2, readCov_rS2]

set_option maxHeartbeats 4000000 in
/-- A middle step (neither condition holds): the accumulator goes from `xs` to `xs` plus the block's partial sum; the output block is untouched. -/
theorem sound_kernel2_B (c : Dev nD) (E : Set ℕ) (i : grid2.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond2_0 i) (hc1 : ¬cond2_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k2_pay2 x1 x0 xs)) -∗ K ⟨⟩))
      ⊢ wp frame (wpE (defs₀ (F := F)) Variants.none c none) E (cc2__output_accum_kernel i arg2 harg2 arg3 harg3 arg4 harg4 arg5 harg5) K := by
  simp only [cc2__output_accum_kernel_eq_skeleton]; unfold cc2__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  refine (read_writes_rS2 _ _ _ _).trans ?_
  rw [readAt_rL2, readAt_rI2, readAt_rS2]

set_option maxHeartbeats 4000000 in
/-- A last step (the second condition holds, the first does not): the block's partial sum is added to the accumulator, and the accumulator is copied into the output block. -/
theorem sound_kernel2_C (c : Dev nD) (E : Set ℕ) (i : grid2.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond2_0 i) (hc1 : cond2_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k2_pay2 x1 x0 xs)
            ∗ owns (c : Thread nD τ) arg5 fullShare (k2_pay2 x1 x0 xs)) -∗ K ⟨⟩))
      ⊢ wp frame (wpE (defs₀ (F := F)) Variants.none c none) E (cc2__output_accum_kernel i arg2 harg2 arg3 harg3 arg4 harg4 arg5 harg5) K := by
  simp only [cc2__output_accum_kernel_eq_skeleton]; unfold cc2__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists _; isplitr
    swap; · iexact Ho
    ipureintro
    sl_unfold_run_names
    refine (read_writes_rS2 _ _ _ _).trans ?_
    refine (readCov_rS2 _ _ _).trans ?_
    rw [readAt_rL2, readAt_rI2, readAt_rS2]
  iexists _; isplitr
  swap; · iexact HS
  ipureintro
  sl_unfold_run_names
  refine (read_writes_rS2 _ _ _ _).trans ?_
  rw [readAt_rL2, readAt_rI2, readAt_rS2]

/-! ## Where the windows are idle -/

/-- The two input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Where the second condition fails the output window is idle: the body stores nothing into it. -/
theorem idleAt2_2 : ∀ t : Fin cfg2.N, ¬cond2_1 (grid2.coords t) → cfg2.idle 2 (grid2.coords t) = true := by decide +kernel
/-- Where it holds the output window is live. -/
theorem liveAt2_2 : ∀ t : Fin cfg2.N, cond2_1 (grid2.coords t) → cfg2.idle 2 (grid2.coords t) = false := by decide +kernel
/-- Where the second condition fails the output block is not written back. -/
theorem noFlush2_2 (t : Fin cfg2.N) (h : ¬cond2_1 (grid2.coords t)) : (cfg2.win 2).flush t = false := by
  cases hf : (cfg2.win 2).flush t
  · rfl
  · exact absurd ((hcond2_1 t).mpr ((flush2_2 t).mp hf)) h

/-! ## The input windows' blocks -/

/-- Input window 0's current staging buffer holds its block at every point, for any proof data whose array is the
    region-entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The accumulator point by point -/

/-- At a first step of a batch block the accumulator ends at the block's partial sum added to zero. -/
theorem accAt2_first (c : Dev nD) (t : Fin cfg2.N) (h : t.val % 64 = 0) :
    accAt2 V c t.val t.isLt = k2_pay2 (iblk2 V c 1 t) (iblk2 V c 0 t) (k2_pay1 (F := F)) := by
  obtain ⟨n, hn⟩ := t
  cases n with
  | zero => rw [accAt2]
  | succ n => rw [accAt2, if_pos h]

/-- At any other step it ends at the block's partial sum added to what the point before left. -/
theorem accAt2_next (c : Dev nD) (t : Fin cfg2.N) (h : ¬t.val % 64 = 0) :
    accAt2 V c t.val t.isLt = k2_pay2 (iblk2 V c 1 t) (iblk2 V c 0 t) (accAt2 V c (t.val - 1) (Nat.lt_of_le_of_lt (Nat.sub_le _ _) t.isLt)) := by
  obtain ⟨n, hn⟩ := t
  cases n with
  | zero => exact absurd (Nat.zero_mod _) h
  | succ n => rw [accAt2, if_neg h]; rfl

/-! ## The invariant -/

theorem PhiS2_zero (c : Dev nD) (n : ℕ) (h : n ≤ cfg2.N) (hz : n = 0) : PhiS2 V c n h = Pipeline.ΦA spec2 c := by
  subst hz; rfl

/-- After point `n`: the accumulator at that point's contents. -/
theorem PhiS2_succ (c : Dev nD) (n : ℕ) (hn : n < cfg2.N) :
    PhiS2 V c (n + 1) hn = iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r)) := rfl

/-- Before a point that is not the first: the accumulator at what the point before left. -/
theorem PhiS2_pos (c : Dev nD) (n : ℕ) (h : n ≤ cfg2.N) (hz : n ≠ 0) :
    PhiS2 V c n h = iprop(owns (c : Thread nD τ) scM2 fullShare (accAt2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The class's invariant with the accumulator as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

/-! ## The body obligation, at a generic point -/

/-- What the body is called with at point `t`: the invariant, what the core owes, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; the closed forms of the two conditions say which of the
    three steps the point is (a first step of a batch block, a middle one, a last one); the invariant hands the body the
    accumulator at what the point before left (at anything before the region's first point) and takes it back at this
    point's contents; where the output block is not written back its buffer is handed back untouched, at a last step it
    holds the accumulator's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 256 := lt_of_lt_of_eq t.isLt (show cfg2.N = 256 from N_2)
  by_cases h0 : t.val % 64 = 0
  · have h1 : ¬t.val % 64 = 63 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [accAt2_first V c t h0]
    by_cases hz : t.val = 0
    · rw [PhiS2_castSucc V c t, PhiS2_zero V c _ _ hz, PhiA2_eq]
      iintro ⟨⟨⟨⟨%ds, HS⟩, HR⟩, Hg⟩, Ho, ⟨%d0, H0⟩, ⟨%d1, H1⟩, ⟨%d2, H2⟩⟩
      iapply (sound_kernel2_A c Set.univ (grid2.coords t) _ _ _ _ _ _ _ _ hc0 hc1 (iblk2 V c 0 t) (iblk2 V c 1 t) _ ds _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨HS, HR, Hg⟩, Ho, ⟨%d0, H0⟩, ⟨%d1, H1⟩, ⟨%d2, H2⟩⟩
      iapply (sound_kernel2_A c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hz : t.val ≠ 0 := fun e => h0 (by rw [e])
    by_cases h1 : t.val % 64 = 63
    · have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2]
      rw [accAt2_next V c t h0]
      rw [PhiS2_castSucc V c t, PhiS2_pos V c _ _ hz]
      iintro ⟨⟨HS, HR, Hg⟩, Ho, ⟨%d0, H0⟩, ⟨%d1, H1⟩, ⟨%d2, H2⟩⟩
      iapply (sound_kernel2_C c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      rw [accAt2_next V c t h0]
      rw [PhiS2_castSucc V c t, PhiS2_pos V c _ _ hz]
      iintro ⟨⟨HS, HR, Hg⟩, Ho, ⟨%d0, H0⟩, ⟨%d1, H1⟩, ⟨%d2, H2⟩⟩
      iapply (sound_kernel2_B c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 256 := N_2; omega)

end Cert.Kernel.Hand

end
-- ==== Proof.K.Acc4Defs.lean ====
/-
  The third weighted-sum region (the fifth pallas_call: agreements = softmax of the logits block, the inputs block times the
  agreements summed over the block's 32 input capsules, accumulated in a scratch over the 64 grid steps of a batch block and
  stored into the output block at the last of them): what the scratch holds after each grid point, and the region's proof
  data.  Grid point t = 64·i + j handles batch block i (8 samples) and input-capsule block j (32 capsules).
-/
import proofs.«130725_j52982716563714_2_alg».proof.Proof.LaunchKernel
import proofs.«130725_j52982716563714_2_alg».proof.Proof.Gen.Kernel.Skeleton
import proofs.«130725_j52982716563714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch accumulator as a whole memref. -/
abbrev scM4 : Memref sig .tc .vmem S8x64x16 .f32 := Memref.whole cc4_scratch0

/-- What the scratch accumulator holds after the body at position `n`: the point's partial sum added to zero at the first
    step of a batch block (n ≡ 0 mod 64), else to what the point before left. -/
def accAt4 (c : Dev nD) : (n : ℕ) → n < cfg4.N → Vec F S8x64x16 .f32
  | 0, hn => k4_pay2 (iblk4 V c 1 ⟨0, hn⟩) (iblk4 V c 0 ⟨0, hn⟩) (k4_pay1 (F := F))
  | n + 1, hn => k4_pay2 (iblk4 V c 1 ⟨n + 1, hn⟩) (iblk4 V c 0 ⟨n + 1, hn⟩)
      (if (n + 1) % 64 = 0 then (k4_pay1 (F := F)) else accAt4 c n (Nat.lt_of_succ_lt hn))

/-- The region's invariant before position `n`: before the first point the class's (every scoped buffer at anything, the
    generator register at some state); afterwards the scratch accumulator at what the point before left, the other scoped
    buffers at anything, the generator register at some state. -/
def PhiS4 (c : Dev nD) : (n : ℕ) → n ≤ cfg4.N → sProp 𝕄
  | 0, _ => Pipeline.ΦA spec4 c
  | n + 1, hn => iprop(owns (c : Thread nD τ) scM4 fullShare (accAt4 V c n hn)
      ∗ Pipeline.scopedRestBut (Ix := Unit) (Name := ℕ) (U := UR sig nD τ) (Lvl := ℕ) (Val := Elt F) spec4 c [cc4_scratch0]
      ∗ (∃ r, prngReg c r))

/-- The proof data of the region on core `c`: the arrays as the region finds them; after the body at point `t` each input's
    buffer at its block and the output's at the accumulator's contents; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c t.val t.isLt := by dsimp only [dat4]

end Cert.Kernel.Hand

end
-- ==== Proof.K.Acc4Body.lean ====
/-
  The third weighted-sum region: the body's triple at every grid point against the region's proof data.  The body has two
  conditions on the grid's second coordinate j (j = 0: zero the accumulator first; j = 63: copy the accumulator into the
  output block at the end), so a point is a first step (the accumulator ends at the block's partial sum added to zero), a
  middle step (added to what the point before left) or a last step (the same, and the output block ends at the
  accumulator's contents).  Every load and store is of a whole buffer, so a stored-then-loaded buffer reads back as stored.
-/
import proofs.«130725_j52982716563714_2_alg».proof.Proof.K.Acc4Defs
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions -/

/-- The body's first condition (it zeroes the accumulator): the grid's second coordinate is zero. -/
abbrev cond4_0 (i : grid4.Coords) : Prop := (Scalar.cmpi .ne (Scalar.extui (Scalar.cmpi .eq (BitVec.ofNat 32 (i 1).val) 0#32)) 0#32) = 1#1
/-- The body's second condition (it copies the accumulator into the output block): the grid's second coordinate is 63. -/
abbrev cond4_1 (i : grid4.Coords) : Prop := k4_cond2 i = 1#1

/-- The first holds at the points ≡ 0 (mod 64): decided over the grid. -/
theorem hcond4_0 : ∀ t : Fin cfg4.N, cond4_0 (grid4.coords t) ↔ t.val % 64 = 0 :=
  (by decide +kernel : ∀ t : Fin grid4.N, cond4_0 (grid4.coords t) ↔ t.val % 64 = 0)
/-- The second holds at the points ≡ 63 (mod 64): decided over the grid. -/
theorem hcond4_1 : ∀ t : Fin cfg4.N, cond4_1 (grid4.coords t) ↔ t.val % 64 = 63 :=
  (by decide +kernel : ∀ t : Fin grid4.N, cond4_1 (grid4.coords t) ↔ t.val % 64 = 63)

/-! ## Whole-buffer loads and stores -/

theorem hz3_4 : (![0, 0, 0] : Fin 3 → Nat) = fun _ => 0 := funext fun a => by fin_cases a <;> rfl
theorem hz4_4 : (![0, 0, 0, 0] : Fin 4 → Nat) = fun _ => 0 := funext fun a => by fin_cases a <;> rfl

/-- The whole rectangle of the accumulator's shape, of the logits block's and of the inputs block's. -/
abbrev rS4 : Rect S8x64x16 := Rect.unit (s := S8x64x16) ![0, 0, 0] S8x64x16.size inb_S8x64x16_S8x64x16_0_0_0
abbrev rL4 : Rect S8x32x64 := Rect.unit (s := S8x32x64) ![0, 0, 0] S8x32x64.size inb_S8x32x64_S8x32x64_0_0_0
abbrev rI4 : Rect S8x32x64x16 := Rect.unit (s := S8x32x64x16) ![0, 0, 0, 0] S8x32x64x16.size inb_S8x32x64x16_S8x32x64x16_0_0_0_0

/-- A load through the whole rectangle reads the buffer's contents. -/
theorem readAt_rS4 {sg : RefSig} {κ : Kind} {sp : Space} (v : View sg κ sp S8x64x16 .f32) (f : v.ty.Contents (Elt F)) :
    v.readAt (Elt F) rS4.toLoadRect f = v.read (Elt F) f :=
  (View.readAt_eq_ld v f rS4).trans (View.ld_unit_zero (S := S8x64x16) hz3_4 inb_S8x64x16_S8x64x16_0_0_0 _)
theorem readAt_rL4 {sg : RefSig} {κ : Kind} {sp : Space} (v : View sg κ sp S8x32x64 .f32) (f : v.ty.Contents (Elt F)) :
    v.readAt (Elt F) rL4.toLoadRect f = v.read (Elt F) f :=
  (View.readAt_eq_ld v f rL4).trans (View.ld_unit_zero (S := S8x32x64) hz3_4 inb_S8x32x64_S8x32x64_0_0_0 _)
theorem readAt_rI4 {sg : RefSig} {κ : Kind} {sp : Space} (v : View sg κ sp S8x32x64x16 .f32) (f : v.ty.Contents (Elt F)) :
    v.readAt (Elt F) rI4.toLoadRect f = v.read (Elt F) f :=
  (View.readAt_eq_ld v f rI4).trans (View.ld_unit_zero (S := S8x32x64x16) hz4_4 inb_S8x32x64x16_S8x32x64x16_0_0_0_0 _)

/-- A store through the whole rectangle, last, covers the buffer. -/
theorem cover_rS4 (w : Vec F S8x64x16 .f32) (L : List (View.Piece (Elt F) S8x64x16 .f32)) (y : S8x64x16.Idx) :
    ∃ p ∈ ((⟨rS4, w⟩ : View.Piece (Elt F) S8x64x16 .f32) :: L), y ∈ p.1.set :=
  ⟨_, List.mem_cons_self, View.mem_set_unit_zero (S := S8x64x16) hz3_4 inb_S8x64x16_S8x64x16_0_0_0 y⟩

/-- What a buffer of the accumulator's shape reads after stores the last of which is whole: that store's payload. -/
theorem read_writes_rS4 {sg : RefSig} {κ : Kind} {sp : Space} (v : View sg κ sp S8x64x16 .f32) (f : v.ty.Contents (Elt F))
    (w : Vec F S8x64x16 .f32) (L : List (View.Piece (Elt F) S8x64x16 .f32)) :
    v.read (Elt F) (v.writes (Elt F) f ((⟨rS4, w⟩ : View.Piece (Elt F) S8x64x16 .f32) :: L)) = w :=
  (View.read_writes_eq_canon v f _ (cover_rS4 w L)).trans (View.canon_cons_unit_zero (S := S8x64x16) hz3_4 inb_S8x64x16_S8x64x16_0_0_0 w L)

/-- A whole load after stores the last of which is whole reads that store's payload. -/
theorem readCov_rS4 {sg : RefSig} {κ : Kind} {sp : Space} (v : View sg κ sp S8x64x16 .f32)
    (w : Vec F S8x64x16 .f32) (L : List (View.Piece (Elt F) S8x64x16 .f32)) :
    v.readCov ((⟨rS4, w⟩ : View.Piece (Elt F) S8x64x16 .f32) :: L) rS4.toLoadRect = w :=
  (View.readCov_eq_canon_ld v _ rS4 (cover_rS4 w L)).trans
    ((congrArg (fun X => View.ld X rS4) (View.canon_cons_unit_zero (S := S8x64x16) hz3_4 inb_S8x64x16_S8x64x16_0_0_0 w L)).trans
      (View.ld_unit_zero (S := S8x64x16) hz3_4 inb_S8x64x16_S8x64x16_0_0_0 w))

set_option maxHeartbeats 4000000 in
/-- A first step (the first condition holds, the second does not): the accumulator is zeroed, then the block's partial sum is added to it; the output block is untouched. -/
theorem sound_kernel4_A (c : Dev nD) (E : Set ℕ) (i : grid4.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : cond4_0 i) (hc1 : ¬cond4_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k4_pay2 x1 x0 (k4_pay1 (F := F)))) -∗ K ⟨⟩))
      ⊢ wp frame (wpE (defs₀ (F := F)) Variants.none c none) E (cc4__output_accum_kernel i arg2 harg2 arg3 harg3 arg4 harg4 arg5 harg5) K := by
  simp only [cc4__output_accum_kernel_eq_skeleton]; unfold cc4__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  sl_unfold_run_names
  refine (read_writes_rS4 _ _ _ _).trans ?_
  rw [readAt_rL4, readAt_rI4, readCov_rS4]

set_option maxHeartbeats 4000000 in
/-- A middle step (neither condition holds): the accumulator goes from `xs` to `xs` plus the block's partial sum; the output block is untouched. -/
theorem sound_kernel4_B (c : Dev nD) (E : Set ℕ) (i : grid4.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond4_0 i) (hc1 : ¬cond4_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k4_pay2 x1 x0 xs)) -∗ K ⟨⟩))
      ⊢ wp frame (wpE (defs₀ (F := F)) Variants.none c none) E (cc4__output_accum_kernel i arg2 harg2 arg3 harg3 arg4 harg4 arg5 harg5) K := by
  simp only [cc4__output_accum_kernel_eq_skeleton]; unfold cc4__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  refine (read_writes_rS4 _ _ _ _).trans ?_
  rw [readAt_rL4, readAt_rI4, readAt_rS4]

set_option maxHeartbeats 4000000 in
/-- A last step (the second condition holds, the first does not): the block's partial sum is added to the accumulator, and the accumulator is copied into the output block. -/
theorem sound_kernel4_C (c : Dev nD) (E : Set ℕ) (i : grid4.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond4_0 i) (hc1 : cond4_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k4_pay2 x1 x0 xs)
            ∗ owns (c : Thread nD τ) arg5 fullShare (k4_pay2 x1 x0 xs)) -∗ K ⟨⟩))
      ⊢ wp frame (wpE (defs₀ (F := F)) Variants.none c none) E (cc4__output_accum_kernel i arg2 harg2 arg3 harg3 arg4 harg4 arg5 harg5) K := by
  simp only [cc4__output_accum_kernel_eq_skeleton]; unfold cc4__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists _; isplitr
    swap; · iexact Ho
    ipureintro
    sl_unfold_run_names
    refine (read_writes_rS4 _ _ _ _).trans ?_
    refine (readCov_rS4 _ _ _).trans ?_
    rw [readAt_rL4, readAt_rI4, readAt_rS4]
  iexists _; isplitr
  swap; · iexact HS
  ipureintro
  sl_unfold_run_names
  refine (read_writes_rS4 _ _ _ _).trans ?_
  rw [readAt_rL4, readAt_rI4, readAt_rS4]

/-! ## Where the windows are idle -/

/-- The two input windows are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- Where the second condition fails the output window is idle: the body stores nothing into it. -/
theorem idleAt4_2 : ∀ t : Fin cfg4.N, ¬cond4_1 (grid4.coords t) → cfg4.idle 2 (grid4.coords t) = true := by decide +kernel
/-- Where it holds the output window is live. -/
theorem liveAt4_2 : ∀ t : Fin cfg4.N, cond4_1 (grid4.coords t) → cfg4.idle 2 (grid4.coords t) = false := by decide +kernel
/-- Where the second condition fails the output block is not written back. -/
theorem noFlush4_2 (t : Fin cfg4.N) (h : ¬cond4_1 (grid4.coords t)) : (cfg4.win 2).flush t = false := by
  cases hf : (cfg4.win 2).flush t
  · rfl
  · exact absurd ((hcond4_1 t).mpr ((flush4_2 t).mp hf)) h

/-! ## The input windows' blocks -/

/-- Input window 0's current staging buffer holds its block at every point, for any proof data whose array is the
    region-entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The accumulator point by point -/

/-- At a first step of a batch block the accumulator ends at the block's partial sum added to zero. -/
theorem accAt4_first (c : Dev nD) (t : Fin cfg4.N) (h : t.val % 64 = 0) :
    accAt4 V c t.val t.isLt = k4_pay2 (iblk4 V c 1 t) (iblk4 V c 0 t) (k4_pay1 (F := F)) := by
  obtain ⟨n, hn⟩ := t
  cases n with
  | zero => rw [accAt4]
  | succ n => rw [accAt4, if_pos h]

/-- At any other step it ends at the block's partial sum added to what the point before left. -/
theorem accAt4_next (c : Dev nD) (t : Fin cfg4.N) (h : ¬t.val % 64 = 0) :
    accAt4 V c t.val t.isLt = k4_pay2 (iblk4 V c 1 t) (iblk4 V c 0 t) (accAt4 V c (t.val - 1) (Nat.lt_of_le_of_lt (Nat.sub_le _ _) t.isLt)) := by
  obtain ⟨n, hn⟩ := t
  cases n with
  | zero => exact absurd (Nat.zero_mod _) h
  | succ n => rw [accAt4, if_neg h]; rfl

/-! ## The invariant -/

theorem PhiS4_zero (c : Dev nD) (n : ℕ) (h : n ≤ cfg4.N) (hz : n = 0) : PhiS4 V c n h = Pipeline.ΦA spec4 c := by
  subst hz; rfl

/-- After point `n`: the accumulator at that point's contents. -/
theorem PhiS4_succ (c : Dev nD) (n : ℕ) (hn : n < cfg4.N) :
    PhiS4 V c (n + 1) hn = iprop(owns (c : Thread nD τ) scM4 fullShare (accAt4 V c n hn)
      ∗ Pipeline.scopedRestBut (Ix := Unit) (Name := ℕ) (U := UR sig nD τ) (Lvl := ℕ) (Val := Elt F) spec4 c [cc4_scratch0]
      ∗ (∃ r, prngReg c r)) := rfl

/-- Before a point that is not the first: the accumulator at what the point before left. -/
theorem PhiS4_pos (c : Dev nD) (n : ℕ) (h : n ≤ cfg4.N) (hz : n ≠ 0) :
    PhiS4 V c n h = iprop(owns (c : Thread nD τ) scM4 fullShare (accAt4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- The class's invariant with the accumulator as a memref owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-! ## The body obligation, at a generic point -/

/-- What the body is called with at point `t`: the invariant, what the core owes, and each window's current buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' buffers hold their blocks; the closed forms of the two conditions say which of the
    three steps the point is (a first step of a batch block, a middle one, a last one); the invariant hands the body the
    accumulator at what the point before left (at anything before the region's first point) and takes it back at this
    point's contents; where the output block is not written back its buffer is handed back untouched, at a last step it
    holds the accumulator's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 256 := lt_of_lt_of_eq t.isLt (show cfg4.N = 256 from N_4)
  by_cases h0 : t.val % 64 = 0
  · have h1 : ¬t.val % 64 = 63 := by omega
    have hc0 : cond4_0 (grid4.coords t) := (hcond4_0 t).mpr h0
    have hc1 : ¬cond4_1 (grid4.coords t) := fun h => h1 ((hcond4_1 t).mp h)
    rw [Dat.leavesExact_idle (dat4 V c) 2 t (idleAt4_2 t hc1) (noFlush4_2 t hc1)]
    rw [accAt4_first V c t h0]
    by_cases hz : t.val = 0
    · rw [PhiS4_castSucc V c t, PhiS4_zero V c _ _ hz, PhiA4_eq]
      iintro ⟨⟨⟨⟨%ds, HS⟩, HR⟩, Hg⟩, Ho, ⟨%d0, H0⟩, ⟨%d1, H1⟩, ⟨%d2, H2⟩⟩
      iapply (sound_kernel4_A c Set.univ (grid4.coords t) _ _ _ _ _ _ _ _ hc0 hc1 (iblk4 V c 0 t) (iblk4 V c 1 t) _ ds _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨HS, HR, Hg⟩, Ho, ⟨%d0, H0⟩, ⟨%d1, H1⟩, ⟨%d2, H2⟩⟩
      iapply (sound_kernel4_A c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond4_0 (grid4.coords t) := fun h => h0 ((hcond4_0 t).mp h)
    have hz : t.val ≠ 0 := fun e => h0 (by rw [e])
    by_cases h1 : t.val % 64 = 63
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2]
      rw [accAt4_next V c t h0]
      rw [PhiS4_castSucc V c t, PhiS4_pos V c _ _ hz]
      iintro ⟨⟨HS, HR, Hg⟩, Ho, ⟨%d0, H0⟩, ⟨%d1, H1⟩, ⟨%d2, H2⟩⟩
      iapply (sound_kernel4_C c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      rw [accAt4_next V c t h0]
      rw [PhiS4_castSucc V c t, PhiS4_pos V c _ _ hz]
      iintro ⟨⟨HS, HR, Hg⟩, Ho, ⟨%d0, H0⟩, ⟨%d1, H1⟩, ⟨%d2, H2⟩⟩
      iapply (sound_kernel4_B c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]

/-- After any point the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨HS, HR, Hg⟩
  isplitl [HS HR]
  · isplitl [HS]
    · iexists _; iexact HS
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 256 := N_4; omega)

end Cert.Kernel.Hand

end
-- ==== Proof.K.Upd1Defs.lean ====
/-
  The first logits-update region (the second pallas_call: each logit of the block grows by the inner product, over the 16
  components, of its input vector with the output capsule's vector): the windows' blocks, what the body leaves in the output
  block, and the region's proof data.  Grid point t = 64·i + j handles batch block i and input-capsule block j.
-/
import proofs.«130725_j52982716563714_2_alg».proof.Proof.LaunchKernel
import proofs.«130725_j52982716563714_2_alg».proof.Proof.Gen.Kernel.Skeleton
import proofs.«130725_j52982716563714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: every load and the one store take the whole block. -/
abbrev r1_x : Rect S8x32x64x16 := Rect.unit (s := S8x32x64x16) ![0, 0, 0, 0] S8x32x64x16.size inb_S8x32x64x16_S8x32x64x16_0_0_0_0
abbrev r1_v : Rect S8x64x16 := Rect.unit (s := S8x64x16) ![0, 0, 0] S8x64x16.size inb_S8x64x16_S8x64x16_0_0_0
abbrev r1_p : Rect S8x32x64 := Rect.unit (s := S8x32x64) ![0, 0, 0] S8x32x64.size inb_S8x32x64_S8x32x64_0_0_0

/-- The new-logits block after the body, from the three input blocks: its one store as a piece. -/
def out1_3 (x0 : Vec F S8x32x64x16 .f32) (x1 : Vec F S8x64x16 .f32) (x2 : Vec F S8x32x64 .f32) : Vec F S8x32x64 .f32 :=
  View.canon [⟨r1_p, k1_pay1 (View.ld x0 r1_x) (View.ld x1 r1_v) (View.ld x2 r1_p)⟩]

/-- The proof data of the region on core `c`: the arrays as the region finds them; after the body at point `t` each input's
    buffer at its block and the output's at `out1_3` of the input blocks; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.Upd1.lean ====
/-
  The first logits-update region (the second pallas_call: every routing logit grows by the inner product, over the 16
  components, of its input vector with the output capsule's vector): that each input window's buffer holds
  its block at every grid point, the body's triple, and the body obligation of the region's proof data.
  Grid point t = 64·i + j handles batch block i (8 samples) and input-capsule block j (32 capsules); the outputs block
  depends on i only, so it is brought in at the first step of a batch block and found in place at the others.
-/
import proofs.«130725_j52982716563714_2_alg».proof.Proof.K.Upd1Defs
import proofs.«130725_j52982716563714_2_alg».proof.Proof.LaunchKernel
import proofs.«130725_j52982716563714_2_alg».proof.Proof.Gen.Kernel.Skeleton
import proofs.«130725_j52982716563714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Input window 0 (the inputs block) holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the outputs block) holds its block at every point: brought in at the first step of a batch block;
    at the other steps the block index has not moved and the body left the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the logits block) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store -/

/-- The store is of the whole block, so it covers it. -/
theorem cover1_3 (p0 : Vec F S8x32x64 .f32) (y : S8x32x64.Idx) :
    ∃ pc ∈ ([⟨r1_p, p0⟩] : List (View.Piece (Elt F) S8x32x64 .f32)), y ∈ pc.1.set :=
  View.cover_of_tiled [⟨r1_p, p0⟩] S8x32x64.size (by rfl) y

/-! ## The body's triple -/

set_option maxHeartbeats 1000000 in
/-- The kernel body on whole staging memrefs, the inputs' at contents `x0 x1 x2` and the output's at anything, runs to
    the continuation holding the inputs' as they were and the output's at `out1_3` of the inputs'. -/
theorem sound_kernel1 (c : Dev nD) (E : Set ℕ) (i : grid1.Coords)
    (arg2 : Memref sig .tc .vmem S8x32x64x16 .f32) (harg2 : arg2.IsWhole) (arg3 : Memref sig .tc .vmem S8x64x16 .f32) (harg3 : arg3.IsWhole)
    (arg4 : Memref sig .tc .vmem S8x32x64 .f32) (harg4 : arg4.IsWhole) (arg5 : Memref sig .tc .vmem S8x32x64 .f32) (harg5 : arg5.IsWhole)
    (x0 : Vec F S8x32x64x16 .f32) (x1 : Vec F S8x64x16 .f32) (x2 : Vec F S8x32x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__priors_update_kernel i arg2 harg2 arg3 harg3 arg4 harg4 arg5 harg5) K := by
  simp only [cc1__priors_update_kernel_eq_skeleton]; unfold cc1__priors_update_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers under the region's proof data -/

/-- Each input's current staging buffer holds its block at every point, brought in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Upd3Defs.lean ====
/-
  The second logits-update region (the fourth pallas_call: each logit of the block grows by the inner product, over the 16
  components, of its input vector with the output capsule's vector): the windows' blocks, what the body leaves in the output
  block, and the region's proof data.  Grid point t = 64·i + j handles batch block i and input-capsule block j.
-/
import proofs.«130725_j52982716563714_2_alg».proof.Proof.LaunchKernel
import proofs.«130725_j52982716563714_2_alg».proof.Proof.Gen.Kernel.Skeleton
import proofs.«130725_j52982716563714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The body's accesses: every load and the one store take the whole block. -/
abbrev r3_x : Rect S8x32x64x16 := Rect.unit (s := S8x32x64x16) ![0, 0, 0, 0] S8x32x64x16.size inb_S8x32x64x16_S8x32x64x16_0_0_0_0
abbrev r3_v : Rect S8x64x16 := Rect.unit (s := S8x64x16) ![0, 0, 0] S8x64x16.size inb_S8x64x16_S8x64x16_0_0_0
abbrev r3_p : Rect S8x32x64 := Rect.unit (s := S8x32x64) ![0, 0, 0] S8x32x64.size inb_S8x32x64_S8x32x64_0_0_0

/-- The new-logits block after the body, from the three input blocks: its one store as a piece. -/
def out3_3 (x0 : Vec F S8x32x64x16 .f32) (x1 : Vec F S8x64x16 .f32) (x2 : Vec F S8x32x64 .f32) : Vec F S8x32x64 .f32 :=
  View.canon [⟨r3_p, k3_pay1 (View.ld x0 r3_x) (View.ld x1 r3_v) (View.ld x2 r3_p)⟩]

/-- The proof data of the region on core `c`: the arrays as the region finds them; after the body at point `t` each input's
    buffer at its block and the output's at `out3_3` of the input blocks; the class's invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.Kernel.Hand

end
-- ==== Proof.K.Upd3.lean ====
/-
  The second logits-update region (the fourth pallas_call: every routing logit grows by the inner product, over the 16
  components, of its input vector with the output capsule's vector): that each input window's buffer holds
  its block at every grid point, the body's triple, and the body obligation of the region's proof data.
  Grid point t = 64·i + j handles batch block i (8 samples) and input-capsule block j (32 capsules); the outputs block
  depends on i only, so it is brought in at the first step of a batch block and found in place at the others.
-/
import proofs.«130725_j52982716563714_2_alg».proof.Proof.K.Upd3Defs
import proofs.«130725_j52982716563714_2_alg».proof.Proof.LaunchKernel
import proofs.«130725_j52982716563714_2_alg».proof.Proof.Gen.Kernel.Skeleton
import proofs.«130725_j52982716563714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Input window 0 (the inputs block) holds its block at every point, for any proof data whose array is the entry
    contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the outputs block) holds its block at every point: brought in at the first step of a batch block;
    at the other steps the block index has not moved and the body left the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the logits block) holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's one store -/

/-- The store is of the whole block, so it covers it. -/
theorem cover3_3 (p0 : Vec F S8x32x64 .f32) (y : S8x32x64.Idx) :
    ∃ pc ∈ ([⟨r3_p, p0⟩] : List (View.Piece (Elt F) S8x32x64 .f32)), y ∈ pc.1.set :=
  View.cover_of_tiled [⟨r3_p, p0⟩] S8x32x64.size (by rfl) y

/-! ## The body's triple -/

set_option maxHeartbeats 1000000 in
/-- The kernel body on whole staging memrefs, the inputs' at contents `x0 x1 x2` and the output's at anything, runs to
    the continuation holding the inputs' as they were and the output's at `out3_3` of the inputs'. -/
theorem sound_kernel3 (c : Dev nD) (E : Set ℕ) (i : grid3.Coords)
    (arg2 : Memref sig .tc .vmem S8x32x64x16 .f32) (harg2 : arg2.IsWhole) (arg3 : Memref sig .tc .vmem S8x64x16 .f32) (harg3 : arg3.IsWhole)
    (arg4 : Memref sig .tc .vmem S8x32x64 .f32) (harg4 : arg4.IsWhole) (arg5 : Memref sig .tc .vmem S8x32x64 .f32) (harg5 : arg5.IsWhole)
    (x0 : Vec F S8x32x64x16 .f32) (x1 : Vec F S8x64x16 .f32) (x2 : Vec F S8x32x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__priors_update_kernel i arg2 harg2 arg3 harg3 arg4 harg4 arg5 harg5) K := by
  simp only [cc3__priors_update_kernel_eq_skeleton]; unfold cc3__priors_update_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The inputs' buffers under the region's proof data -/

/-- Each input's current staging buffer holds its block at every point, brought in there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the kernel's triple applies; the invariant and the
    core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The kernel program's run: @main as nine segments — the zero logits; the first weighted sum; the squash; the logits' update and
  the second weighted sum; the squash; the second update and the third weighted sum; the squash — from the launch to the
  return, with the contents of every unscoped buffer NAMED at each boundary (W0 … W9): a host stretch applies its operations
  to the contents before it, a kernel region replaces its output array by what its pipeline's write-backs leave and keeps
  every other buffer.  Every weakly fair execution terminates, faults nowhere, and ends with every unscoped buffer at W9.
-/
import proofs.«130725_j52982716563714_2_alg».proof.Proof.K.Acc0Body
import proofs.«130725_j52982716563714_2_alg».proof.Proof.K.Acc2Body
import proofs.«130725_j52982716563714_2_alg».proof.Proof.K.Acc4Body
import proofs.«130725_j52982716563714_2_alg».proof.Proof.K.Upd1
import proofs.«130725_j52982716563714_2_alg».proof.Proof.K.Upd3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- Core `c`'s buffers at launch. -/
abbrev W0 : Dev nD → Valuation τ sig (Elt F) := fun c b => m (c, b)

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its arrays at what the pipeline leaves (the inputs as entered, the output's write-backs folded),
    every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host stretch `hostOps3`. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b

/-- At region 3's exit: its arrays at what the pipeline leaves (the inputs as entered, the output's write-backs folded),
    every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- At region 4's exit: its arrays at what the pipeline leaves (the inputs as entered, the output's write-backs folded),
    every other buffer as entered. -/
def W8 (c : Dev nD) : Valuation τ sig (Elt F) :=
  Pipeline.withArrays spec4 c (W7 m c) fun w => (dat4 (V7 m) c).arrAt w cfg4.N
theorem W8_arr (c : Dev nD) (w : Fin cfg4.W) :
    W8 m c (Proc.devRef .tc (Pipeline.arrRef spec4 w)) = (dat4 (V7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev V8 : (c : Dev nD) → (b : Ref sig .tc) → Buf (Elt F) ((c : Thread nD τ).loc b) := fun c b => W8 m c b
theorem hF4 (c : Dev nD) (w : Fin cfg4.W) : (dat4 (V7 m) c).arrAt w cfg4.N = V8 m c (Pipeline.arrRef spec4 w) :=
  (W8_arr m c w).symm
theorem hrest4 (c : Dev nD) : ∀ b, b ∉ Finset.univ.image (Pipeline.arrRef spec4) → V8 m c b = V7 m c b :=
  fun b hb => W8_of_ne m c b fun w e => hb (Finset.mem_image.mpr ⟨w, Finset.mem_univ _, e⟩)

/-- After the last host stretch: the contents at the return. -/
abbrev W9 : Dev nD → Valuation τ sig (Elt F) := fun c => StableHlo.after hostOps5 (W8 m c)

/-! ## The proof data family and the thread state -/

/-- No pallas_call has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V7 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`: its arrays split out of
    the unscoped buffers and put back at the exit contents; the generator register into the region's invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`: its arrays split out of
    the unscoped buffers and put back at the exit contents; the generator register into the region's invariant and out;
    nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`: its arrays split out of
    the unscoped buffers and put back at the exit contents; the generator register into the region's invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (show Pipeline.ΦA spec2 c ⊢ (pdats m 2 c).Φ 0 from hin2 (V4 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (V4 m) c).trans (show Pipeline.ΦA spec2 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`: its arrays split out of
    the unscoped buffers and put back at the exit contents; the generator register into the region's invariant and out;
    nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`: its arrays split out of
    the unscoped buffers and put back at the exit contents; the generator register into the region's invariant and out;
    nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (V7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (show Pipeline.ΦA spec4 c ⊢ (pdats m 4 c).Φ 0 from hin4 (V7 m) c)
    unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (V7 m) c).trans (show Pipeline.ΦA spec4 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V7 m c) (V8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main on the TensorCores terminates, nothing
    faulting, and every final state holds every unscoped buffer at the last boundary's contents `W9`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W9 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Hand

end
-- ==== Proof.K.Kept.lean ====
/-
  What the segments keep.  A host stretch changes only the buffers its operations write; a kernel region changes only its
  output array (an input window's array ends as it was entered).  So the two arguments reach every boundary as launched, and a
  region's output reaches the regions that read it.
-/
import proofs.«130725_j52982716563714_2_alg».proof.Proof.K.Run
import proofs.«130725_j52982716563714_2_alg».proof.Proof.RegionsKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## One step back across a segment -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W6_of (c : Dev nD) (r : Ref sig .tc) (h : r ∉ hostOps3_W) : W6 m c r = W5 m c r :=
  StableHlo.after_of_writes_sub hostOps3 _ hostOps3_writes h
theorem W9_of (c : Dev nD) (r : Ref sig .tc) (h : r ∉ hostOps5_W) : W9 m c r = W8 m c r :=
  StableHlo.after_of_writes_sub hostOps5 _ hostOps5_writes h

/-- An input window's array leaves its region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((dat2 (V4 m) c).arrAt_in w hw _).trans (A_eq2 (V4 m) c w))
theorem W7_in (c : Dev nD) (w : Fin cfg3.W) (hw : (cfg3.win w).isOut = false) :
    W7 m c (Proc.devRef .tc (Pipeline.arrRef spec3 w)) = W6 m c (Proc.devRef .tc (Pipeline.arrRef spec3 w)) :=
  (W7_arr m c w).trans (((dat3 (V6 m) c).arrAt_in w hw _).trans (A_eq3 (V6 m) c w))
theorem W8_in (c : Dev nD) (w : Fin cfg4.W) (hw : (cfg4.win w).isOut = false) :
    W8 m c (Proc.devRef .tc (Pipeline.arrRef spec4 w)) = W7 m c (Proc.devRef .tc (Pipeline.arrRef spec4 w)) :=
  (W8_arr m c w).trans (((dat4 (V7 m) c).arrAt_in w hw _).trans (A_eq4 (V7 m) c w))

/-! ## The arguments -/

/-- The inputs array reaches every boundary as launched (each region reads it through its window 0). -/
theorem W1_main_arg0 (c : Dev nD) : W1 m c (Proc.devRef .tc main_arg0) = m ((c : Thread nD τ).loc main_arg0) :=
  (W1_of m c main_arg0 (by decide)).trans rfl
theorem W2_main_arg0 (c : Dev nD) : W2 m c (Proc.devRef .tc main_arg0) = m ((c : Thread nD τ).loc main_arg0) :=
  (W2_in m c 0 rfl).trans (W1_main_arg0 m c)
theorem W3_main_arg0 (c : Dev nD) : W3 m c (Proc.devRef .tc main_arg0) = m ((c : Thread nD τ).loc main_arg0) :=
  (W3_of m c main_arg0 (by decide)).trans (W2_main_arg0 m c)
theorem W4_main_arg0 (c : Dev nD) : W4 m c (Proc.devRef .tc main_arg0) = m ((c : Thread nD τ).loc main_arg0) :=
  (W4_in m c 0 rfl).trans (W3_main_arg0 m c)
theorem W5_main_arg0 (c : Dev nD) : W5 m c (Proc.devRef .tc main_arg0) = m ((c : Thread nD τ).loc main_arg0) :=
  (W5_in m c 0 rfl).trans (W4_main_arg0 m c)
theorem W6_main_arg0 (c : Dev nD) : W6 m c (Proc.devRef .tc main_arg0) = m ((c : Thread nD τ).loc main_arg0) :=
  (W6_of m c main_arg0 (by decide)).trans (W5_main_arg0 m c)
theorem W7_main_arg0 (c : Dev nD) : W7 m c (Proc.devRef .tc main_arg0) = m ((c : Thread nD τ).loc main_arg0) :=
  (W7_in m c 0 rfl).trans (W6_main_arg0 m c)
theorem W8_main_arg0 (c : Dev nD) : W8 m c (Proc.devRef .tc main_arg0) = m ((c : Thread nD τ).loc main_arg0) :=
  (W8_in m c 0 rfl).trans (W7_main_arg0 m c)
theorem W9_main_arg0 (c : Dev nD) : W9 m c (Proc.devRef .tc main_arg0) = m ((c : Thread nD τ).loc main_arg0) :=
  (W9_of m c main_arg0 (by decide)).trans (W8_main_arg0 m c)

/-- The bias reaches every boundary as launched (no region has it as a window). -/
theorem W1_main_arg1 (c : Dev nD) : W1 m c (Proc.devRef .tc main_arg1) = m ((c : Thread nD τ).loc main_arg1) :=
  (W1_of m c main_arg1 (by decide)).trans rfl
theorem W2_main_arg1 (c : Dev nD) : W2 m c (Proc.devRef .tc main_arg1) = m ((c : Thread nD τ).loc main_arg1) :=
  (W2_of_ne m c main_arg1 (by decide)).trans (W1_main_arg1 m c)
theorem W3_main_arg1 (c : Dev nD) : W3 m c (Proc.devRef .tc main_arg1) = m ((c : Thread nD τ).loc main_arg1) :=
  (W3_of m c main_arg1 (by decide)).trans (W2_main_arg1 m c)
theorem W4_main_arg1 (c : Dev nD) : W4 m c (Proc.devRef .tc main_arg1) = m ((c : Thread nD τ).loc main_arg1) :=
  (W4_of_ne m c main_arg1 (by decide)).trans (W3_main_arg1 m c)
theorem W5_main_arg1 (c : Dev nD) : W5 m c (Proc.devRef .tc main_arg1) = m ((c : Thread nD τ).loc main_arg1) :=
  (W5_of_ne m c main_arg1 (by decide)).trans (W4_main_arg1 m c)
theorem W6_main_arg1 (c : Dev nD) : W6 m c (Proc.devRef .tc main_arg1) = m ((c : Thread nD τ).loc main_arg1) :=
  (W6_of m c main_arg1 (by decide)).trans (W5_main_arg1 m c)
theorem W7_main_arg1 (c : Dev nD) : W7 m c (Proc.devRef .tc main_arg1) = m ((c : Thread nD τ).loc main_arg1) :=
  (W7_of_ne m c main_arg1 (by decide)).trans (W6_main_arg1 m c)
theorem W8_main_arg1 (c : Dev nD) : W8 m c (Proc.devRef .tc main_arg1) = m ((c : Thread nD τ).loc main_arg1) :=
  (W8_of_ne m c main_arg1 (by decide)).trans (W7_main_arg1 m c)
theorem W9_main_arg1 (c : Dev nD) : W9 m c (Proc.devRef .tc main_arg1) = m ((c : Thread nD τ).loc main_arg1) :=
  (W9_of m c main_arg1 (by decide)).trans (W8_main_arg1 m c)

/-! ## The logits between the regions that write and read them -/

/-- The zero logits: read by the first weighted sum (its window 1) and by the first update (its window 2). -/
theorem W3_main_v0 (c : Dev nD) : W3 m c (Proc.devRef .tc main_v0) = W1 m c (Proc.devRef .tc main_v0) :=
  (W3_of m c main_v0 (by decide)).trans (W2_in m c 1 rfl)
/-- The first update's logits: read by the second weighted sum (its window 1) and by the second update (its window 2). -/
theorem W6_main_v18 (c : Dev nD) : W6 m c (Proc.devRef .tc main_v18) = W4 m c (Proc.devRef .tc main_v18) :=
  (W6_of m c main_v18 (by decide)).trans (W5_in m c 1 rfl)

end Cert.Kernel.Hand

end
-- ==== Proof.K.Claims.lean ====
/-
  The kernel program, read over the float words: every weakly fair execution terminates, faults nowhere, and leaves the two
  argument arrays as it found them — the run ends with every unscoped buffer at its last named contents, and no host
  stretch and no kernel region writes an argument.
-/
import proofs.«130725_j52982716563714_2_alg».proof.Defs
import proofs.«130725_j52982716563714_2_alg».proof.Proof.Gen.Pre_finite_inputs
import proofs.«130725_j52982716563714_2_alg».proof.Proof.K.Kept

noncomputable section

namespace Cert.Kernel.Hand

open Cert.Kernel Cert.Kernel.Gen Cert.Kernel.GenP
open Idealize.ShloMosaic Idealize.ShloMosaic.TcCoe Idealize.SL.Sem

theorem frame_p : Cert.frame_Kernel := fun m ρ _ =>
  (θ_run (Cert.Kernel.defs (F := Bits)) _ _).mono
    (fun r h c => ⟨(h c _ (mem_uc main_arg0 (by decide))).trans (W9_main_arg0 m c),
      (h c _ (mem_uc main_arg1 (by decide))).trans (W9_main_arg1 m c)⟩)
    (run_main (F := Bits) m ρ)

end Cert.Kernel.Hand

end
-- ==== Proof.KI.Acc0Defs.lean ====
/-
  The first weighted-sum region (the first pallas_call: agreements = softmax of the logits block, the inputs block times the
  agreements summed over the block's 32 input capsules, accumulated in a scratch over the 64 grid steps of a batch block and
  stored into the output block at the last of them): what the scratch holds after each grid point, and the region's proof
  data.  Grid point t = 64·i + j handles batch block i (8 samples) and input-capsule block j (32 capsules).
-/
import proofs.«130725_j52982716563714_2_alg».proof.Proof.LaunchKernelIdeal
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator as a whole memref. -/
abbrev scM0 : Memref sig .tc .vmem S8x64x16 .f32 := Memref.whole cc0_scratch0

/-- What the scratch accumulator holds after the body at position `n`: the point's partial sum added to zero at the first
    step of a batch block (n ≡ 0 mod 64), else to what the point before left. -/
def accAt0 (c : Dev nD) : (n : ℕ) → n < cfg0.N → Vec F S8x64x16 .f32
  | 0, hn => k0_pay2 (iblk0 V c 1 ⟨0, hn⟩) (iblk0 V c 0 ⟨0, hn⟩) (k0_pay1 (F := F))
  | n + 1, hn => k0_pay2 (iblk0 V c 1 ⟨n + 1, hn⟩) (iblk0 V c 0 ⟨n + 1, hn⟩)
      (if (n + 1) % 64 = 0 then (k0_pay1 (F := F)) else accAt0 c n (Nat.lt_of_succ_lt hn))

/-- The region's invariant before position `n`: before the first point the class's (every scoped buffer at anything, the
    generator register at some state); afterwards the scratch accumulator at what the point before left, the other scoped
    buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r))

/-- The proof data of the region on core `c`: the arrays as the region finds them; after the body at point `t` each input's
    buffer at its block and the output's at the accumulator's contents; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

end Cert.KernelIdeal.Hand

end
-- ==== Proof.KI.Acc0Body.lean ====
/-
  The first weighted-sum region: the body's triple at every grid point against the region's proof data.  The body has two
  conditions on the grid's second coordinate j (j = 0: zero the accumulator first; j = 63: copy the accumulator into the
  output block at the end), so a point is a first step (the accumulator ends at the block's partial sum added to zero), a
  middle step (added to what the point before left) or a last step (the same, and the output block ends at the
  accumulator's contents).  Every load and store is of a whole buffer, so a stored-then-loaded buffer reads back as stored.
-/
import proofs.«130725_j52982716563714_2_alg».proof.Proof.KI.Acc0Defs
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions -/

/-- The body's first condition (it zeroes the accumulator): the grid's second coordinate is zero. -/
abbrev cond0_0 (i : grid0.Coords) : Prop := (Scalar.cmpi .ne (Scalar.extui (Scalar.cmpi .eq (BitVec.ofNat 32 (i 1).val) 0#32)) 0#32) = 1#1
/-- The body's second condition (it copies the accumulator into the output block): the grid's second coordinate is 63. -/
abbrev cond0_1 (i : grid0.Coords) : Prop := k0_cond2 i = 1#1

/-- The first holds at the points ≡ 0 (mod 64): decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)
/-- The second holds at the points ≡ 63 (mod 64): decided over the grid. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Whole-buffer loads and stores -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The whole rectangle of the accumulator's shape, of the logits block's and of the inputs block's. -/
abbrev rS0 : Rect S8x64x16 := Rect.unit (s := S8x64x16) ![0, 0, 0] S8x64x16.size inb_S8x64x16_S8x64x16_0_0_0
abbrev rL0 : Rect S8x32x64 := Rect.unit (s := S8x32x64) ![0, 0, 0] S8x32x64.size inb_S8x32x64_S8x32x64_0_0_0
abbrev rI0 : Rect S8x32x64x16 := Rect.unit (s := S8x32x64x16) ![0, 0, 0, 0] S8x32x64x16.size inb_S8x32x64x16_S8x32x64x16_0_0_0_0

/-- A load through the whole rectangle reads the buffer's contents. -/
theorem readAt_rS0 {sg : RefSig} {κ : Kind} {sp : Space} (v : View sg κ sp S8x64x16 .f32) (f : v.ty.Contents (Elt F)) :
    v.readAt (Elt F) rS0.toLoadRect f = v.read (Elt F) f :=
  (View.readAt_eq_ld v f rS0).trans (View.ld_unit_zero (S := S8x64x16) hz3 inb_S8x64x16_S8x64x16_0_0_0 _)
theorem readAt_rL0 {sg : RefSig} {κ : Kind} {sp : Space} (v : View sg κ sp S8x32x64 .f32) (f : v.ty.Contents (Elt F)) :
    v.readAt (Elt F) rL0.toLoadRect f = v.read (Elt F) f :=
  (View.readAt_eq_ld v f rL0).trans (View.ld_unit_zero (S := S8x32x64) hz3 inb_S8x32x64_S8x32x64_0_0_0 _)
theorem readAt_rI0 {sg : RefSig} {κ : Kind} {sp : Space} (v : View sg κ sp S8x32x64x16 .f32) (f : v.ty.Contents (Elt F)) :
    v.readAt (Elt F) rI0.toLoadRect f = v.read (Elt F) f :=
  (View.readAt_eq_ld v f rI0).trans (View.ld_unit_zero (S := S8x32x64x16) hz4 inb_S8x32x64x16_S8x32x64x16_0_0_0_0 _)

/-- A store through the whole rectangle, last, covers the buffer. -/
theorem cover_rS0 (w : Vec F S8x64x16 .f32) (L : List (View.Piece (Elt F) S8x64x16 .f32)) (y : S8x64x16.Idx) :
    ∃ p ∈ ((⟨rS0, w⟩ : View.Piece (Elt F) S8x64x16 .f32) :: L), y ∈ p.1.set :=
  ⟨_, List.mem_cons_self, View.mem_set_unit_zero (S := S8x64x16) hz3 inb_S8x64x16_S8x64x16_0_0_0 y⟩

/-- What a buffer of the accumulator's shape reads after stores the last of which is whole: that store's payload. -/
theorem read_writes_rS0 {sg : RefSig} {κ : Kind} {sp : Space} (v : View sg κ sp S8x64x16 .f32) (f : v.ty.Contents (Elt F))
    (w : Vec F S8x64x16 .f32) (L : List (View.Piece (Elt F) S8x64x16 .f32)) :
    v.read (Elt F) (v.writes (Elt F) f ((⟨rS0, w⟩ : View.Piece (Elt F) S8x64x16 .f32) :: L)) = w :=
  (View.read_writes_eq_canon v f _ (cover_rS0 w L)).trans (View.canon_cons_unit_zero (S := S8x64x16) hz3 inb_S8x64x16_S8x64x16_0_0_0 w L)

/-- A whole load after stores the last of which is whole reads that store's payload. -/
theorem readCov_rS0 {sg : RefSig} {κ : Kind} {sp : Space} (v : View sg κ sp S8x64x16 .f32)
    (w : Vec F S8x64x16 .f32) (L : List (View.Piece (Elt F) S8x64x16 .f32)) :
    v.readCov ((⟨rS0, w⟩ : View.Piece (Elt F) S8x64x16 .f32) :: L) rS0.toLoadRect = w :=
  (View.readCov_eq_canon_ld v _ rS0 (cover_rS0 w L)).trans
    ((congrArg (fun X => View.ld X rS0) (View.canon_cons_unit_zero (S := S8x64x16) hz3 inb_S8x64x16_S8x64x16_0_0_0 w L)).trans
      (View.ld_unit_zero (S := S8x64x16) hz3 inb_S8x64x16_S8x64x16_0_0_0 w))

set_option maxHeartbeats 4000000 in
/-- A first step (the first condition holds, the second does not): the accumulator is zeroed, then the block's partial sum is added to it; the output block is untouched. -/
theorem sound_kernel0_A (c : Dev nD) (E : Set ℕ) (i : grid0.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : cond0_0 i) (hc1 : ¬cond0_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x1 x0 (k0_pay1 (F := F)))) -∗ K ⟨⟩))
      ⊢ wp frame (wpE (defs₀ (F := F)) Variants.none c none) E (cc0__output_accum_kernel i arg2 harg2 arg3 harg3 arg4 harg4 arg5 harg5) K := by
  simp only [cc0__output_accum_kernel_eq_skeleton]; unfold cc0__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  sl_unfold_run_names
  refine (read_writes_rS0 _ _ _ _).trans ?_
  rw [readAt_rL0, readAt_rI0, readCov_rS0]

set_option maxHeartbeats 4000000 in
/-- A middle step (neither condition holds): the accumulator goes from `xs` to `xs` plus the block's partial sum; the output block is untouched. -/
theorem sound_kernel0_B (c : Dev nD) (E : Set ℕ) (i : grid0.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond0_0 i) (hc1 : ¬cond0_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x1 x0 xs)) -∗ K ⟨⟩))
      ⊢ wp frame (wpE (defs₀ (F := F)) Variants.none c none) E (cc0__output_accum_kernel i arg2 harg2 arg3 harg3 arg4 harg4 arg5 harg5) K := by
  simp only [cc0__output_accum_kernel_eq_skeleton]; unfold cc0__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  refine (read_writes_rS0 _ _ _ _).trans ?_
  rw [readAt_rL0, readAt_rI0, readAt_rS0]

set_option maxHeartbeats 4000000 in
/-- A last step (the second condition holds, the first does not): the block's partial sum is added to the accumulator, and the accumulator is copied into the output block. -/
theorem sound_kernel0_C (c : Dev nD) (E : Set ℕ) (i : grid0.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond0_0 i) (hc1 : cond0_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k0_pay2 x1 x0 xs)
            ∗ owns (c : Thread nD τ) arg5 fullShare (k0_pay2 x1 x0 xs)) -∗ K ⟨⟩))
      ⊢ wp frame (wpE (defs₀ (F := F)) Variants.none c none) E (cc0__output_accum_kernel i arg2 harg2 arg3 harg3 arg4 harg4 arg5 harg5) K := by
  simp only [cc0__output_accum_kernel_eq_skeleton]; unfold cc0__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists _; isplitr
    swap; · iexact Ho
    ipureintro
    sl_unfold_run_names
    refine (read_writes_rS0 _ _ _ _).trans ?_
    refine (readCov_rS0 _ _ _).trans ?_
    rw [readAt_rL0, readAt_rI0, readAt_rS0]
  iexists _; isplitr
  swap; · iexact HS
  ipureintro
  sl_unfold_run_names
  refine (read_writes_rS0 _ _ _ _).trans ?_
  rw [readAt_rL0, readAt_rI0, readAt_rS0]

/-! ## Where the windows are idle -/

/-- The two input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Where the second condition fails the output window is idle: the body stores nothing into it. -/
theorem idleAt0_2 : ∀ t : Fin cfg0.N, ¬cond0_1 (grid0.coords t) → cfg0.idle 2 (grid0.coords t) = true := by decide +kernel
/-- Where it holds the output window is live. -/
theorem liveAt0_2 : ∀ t : Fin cfg0.N, cond0_1 (grid0.coords t) → cfg0.idle 2 (grid0.coords t) = false := by decide +kernel
/-- Where the second condition fails the output block is not written back. -/
theorem noFlush0_2 (t : Fin cfg0.N) (h : ¬cond0_1 (grid0.coords t)) : (cfg0.win 2).flush t = false := by
  cases hf : (cfg0.win 2).flush t
  · rfl
  · exact absurd ((hcond0_1 t).mpr ((flush0_2 t).mp hf)) h

/-! ## The input windows' blocks -/

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The accumulator point by point -/

/-- At a first step of a batch block the accumulator ends at the block's partial sum added to zero. -/
theorem accAt0_first (c : Dev nD) (t : Fin cfg0.N) (h : t.val % 64 = 0) :
    accAt0 V c t.val t.isLt = k0_pay2 (iblk0 V c 1 t) (iblk0 V c 0 t) (k0_pay1 (F := F)) := by
  obtain ⟨n, hn⟩ := t
  cases n with
  | zero => rw [accAt0]
  | succ n => rw [accAt0, if_pos h]

/-- At any other step it ends at the block's partial sum added to what the point before left. -/
theorem accAt0_next (c : Dev nD) (t : Fin cfg0.N) (h : ¬t.val % 64 = 0) :
    accAt0 V c t.val t.isLt = k0_pay2 (iblk0 V c 1 t) (iblk0 V c 0 t) (accAt0 V c (t.val - 1) (Nat.lt_of_le_of_lt (Nat.sub_le _ _) t.isLt)) := by
  obtain ⟨n, hn⟩ := t
  cases n with
  | zero => exact absurd (Nat.zero_mod _) h
  | succ n => rw [accAt0, if_neg h]; rfl

/-! ## The invariant -/

theorem PhiS0_zero (c : Dev nD) (n : ℕ) (h : n ≤ cfg0.N) (hz : n = 0) : PhiS0 V c n h = Pipeline.ΦA spec0 c := by
  subst hz; rfl

/-- After point `n`: the accumulator at that point's contents. -/
theorem PhiS0_succ (c : Dev nD) (n : ℕ) (hn : n < cfg0.N) :
    PhiS0 V c (n + 1) hn = iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r)) := rfl

/-- Before a point that is not the first: the accumulator at what the point before left. -/
theorem PhiS0_pos (c : Dev nD) (n : ℕ) (h : n ≤ cfg0.N) (hz : n ≠ 0) :
    PhiS0 V c n h = iprop(owns (c : Thread nD τ) scM0 fullShare (accAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The class's invariant with the accumulator as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0, owns_whole]; try rfl

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms of the two conditions say which of the
    three steps the point is (a first step of a batch block, a middle one, a last one); the invariant hands the body the
    accumulator at what the point before left (at anything before the region's first point) and takes it back at this
    point's contents; where the output block is not written back its buffer is handed back untouched, at a last step it
    holds the accumulator's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 256 := lt_of_lt_of_eq t.isLt (show cfg0.N = 256 from N_0)
  by_cases h0 : t.val % 64 = 0
  · have h1 : ¬t.val % 64 = 63 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [accAt0_first V c t h0]
    by_cases hz : t.val = 0
    · rw [PhiS0_castSucc V c t, PhiS0_zero V c _ _ hz, PhiA0_eq]
      iintro ⟨⟨⟨⟨%ds, HS⟩, HR⟩, Hg⟩, Ho, ⟨%d0, H0⟩, ⟨%d1, H1⟩, ⟨%d2, H2⟩⟩
      iapply (sound_kernel0_A c Set.univ (grid0.coords t) _ _ _ _ _ _ _ _ hc0 hc1 (iblk0 V c 0 t) (iblk0 V c 1 t) _ ds _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨HS, HR, Hg⟩, Ho, ⟨%d0, H0⟩, ⟨%d1, H1⟩, ⟨%d2, H2⟩⟩
      iapply (sound_kernel0_A c Set.univ (grid0.coords t) _ _ _ _ _ _ _ _ hc0 hc1 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun e => h0 (by rw [e])
    by_cases h1 : t.val % 64 = 63
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [accAt0_next V c t h0]
      rw [PhiS0_castSucc V c t, PhiS0_pos V c _ _ hz]
      iintro ⟨⟨HS, HR, Hg⟩, Ho, ⟨%d0, H0⟩, ⟨%d1, H1⟩, ⟨%d2, H2⟩⟩
      iapply (sound_kernel0_C c Set.univ (grid0.coords t) _ _ _ _ _ _ _ _ hc0 hc1 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      rw [accAt0_next V c t h0]
      rw [PhiS0_castSucc V c t, PhiS0_pos V c _ _ hz]
      iintro ⟨⟨HS, HR, Hg⟩, Ho, ⟨%d0, H0⟩, ⟨%d1, H1⟩, ⟨%d2, H2⟩⟩
      iapply (sound_kernel0_B c Set.univ (grid0.coords t) _ _ _ _ _ _ _ _ hc0 hc1 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, HR, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 256 := N_0; omega)

end Cert.KernelIdeal.Hand

end
-- ==== Proof.KI.Acc2Defs.lean ====
/-
  The second weighted-sum region (the third pallas_call: agreements = softmax of the logits block, the inputs block times the
  agreements summed over the block's 32 input capsules, accumulated in a scratch over the 64 grid steps of a batch block and
  stored into the output block at the last of them): what the scratch holds after each grid point, and the region's proof
  data.  Grid point t = 64·i + j handles batch block i (8 samples) and input-capsule block j (32 capsules).
-/
import proofs.«130725_j52982716563714_2_alg».proof.Proof.LaunchKernelIdeal
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator as a whole memref. -/
abbrev scM2 : Memref sig .tc .vmem S8x64x16 .f32 := Memref.whole cc2_scratch0

/-- What the scratch accumulator holds after the body at position `n`: the point's partial sum added to zero at the first
    step of a batch block (n ≡ 0 mod 64), else to what the point before left. -/
def accAt2 (c : Dev nD) : (n : ℕ) → n < cfg2.N → Vec F S8x64x16 .f32
  | 0, hn => k2_pay2 (iblk2 V c 1 ⟨0, hn⟩) (iblk2 V c 0 ⟨0, hn⟩) (k2_pay1 (F := F))
  | n + 1, hn => k2_pay2 (iblk2 V c 1 ⟨n + 1, hn⟩) (iblk2 V c 0 ⟨n + 1, hn⟩)
      (if (n + 1) % 64 = 0 then (k2_pay1 (F := F)) else accAt2 c n (Nat.lt_of_succ_lt hn))

/-- The region's invariant before position `n`: before the first point the class's (every scoped buffer at anything, the
    generator register at some state); afterwards the scratch accumulator at what the point before left, the other scoped
    buffers at anything, the generator register at some state. -/
def PhiS2 (c : Dev nD) : (n : ℕ) → n ≤ cfg2.N → sProp 𝕄
  | 0, _ => Pipeline.ΦA spec2 c
  | n + 1, hn => iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r))

/-- The proof data of the region on core `c`: the arrays as the region finds them; after the body at point `t` each input's
    buffer at its block and the output's at the accumulator's contents; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

end Cert.KernelIdeal.Hand

end
-- ==== Proof.KI.Acc2Body.lean ====
/-
  The second weighted-sum region: the body's triple at every grid point against the region's proof data.  The body has two
  conditions on the grid's second coordinate j (j = 0: zero the accumulator first; j = 63: copy the accumulator into the
  output block at the end), so a point is a first step (the accumulator ends at the block's partial sum added to zero), a
  middle step (added to what the point before left) or a last step (the same, and the output block ends at the
  accumulator's contents).  Every load and store is of a whole buffer, so a stored-then-loaded buffer reads back as stored.
-/
import proofs.«130725_j52982716563714_2_alg».proof.Proof.KI.Acc2Defs
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions -/

/-- The body's first condition (it zeroes the accumulator): the grid's second coordinate is zero. -/
abbrev cond2_0 (i : grid2.Coords) : Prop := (Scalar.cmpi .ne (Scalar.extui (Scalar.cmpi .eq (BitVec.ofNat 32 (i 1).val) 0#32)) 0#32) = 1#1
/-- The body's second condition (it copies the accumulator into the output block): the grid's second coordinate is 63. -/
abbrev cond2_1 (i : grid2.Coords) : Prop := k2_cond2 i = 1#1

/-- The first holds at the points ≡ 0 (mod 64): decided over the grid. -/
theorem hcond2_0 : ∀ t : Fin cfg2.N, cond2_0 (grid2.coords t) ↔ t.val % 64 = 0 :=
  (by decide +kernel : ∀ t : Fin grid2.N, cond2_0 (grid2.coords t) ↔ t.val % 64 = 0)
/-- The second holds at the points ≡ 63 (mod 64): decided over the grid. -/
theorem hcond2_1 : ∀ t : Fin cfg2.N, cond2_1 (grid2.coords t) ↔ t.val % 64 = 63 :=
  (by decide +kernel : ∀ t : Fin grid2.N, cond2_1 (grid2.coords t) ↔ t.val % 64 = 63)

/-! ## Whole-buffer loads and stores -/

theorem hz3_2 : (![0, 0, 0] : Fin 3 → Nat) = fun _ => 0 := funext fun a => by fin_cases a <;> rfl
theorem hz4_2 : (![0, 0, 0, 0] : Fin 4 → Nat) = fun _ => 0 := funext fun a => by fin_cases a <;> rfl

/-- The whole rectangle of the accumulator's shape, of the logits block's and of the inputs block's. -/
abbrev rS2 : Rect S8x64x16 := Rect.unit (s := S8x64x16) ![0, 0, 0] S8x64x16.size inb_S8x64x16_S8x64x16_0_0_0
abbrev rL2 : Rect S8x32x64 := Rect.unit (s := S8x32x64) ![0, 0, 0] S8x32x64.size inb_S8x32x64_S8x32x64_0_0_0
abbrev rI2 : Rect S8x32x64x16 := Rect.unit (s := S8x32x64x16) ![0, 0, 0, 0] S8x32x64x16.size inb_S8x32x64x16_S8x32x64x16_0_0_0_0

/-- A load through the whole rectangle reads the buffer's contents. -/
theorem readAt_rS2 {sg : RefSig} {κ : Kind} {sp : Space} (v : View sg κ sp S8x64x16 .f32) (f : v.ty.Contents (Elt F)) :
    v.readAt (Elt F) rS2.toLoadRect f = v.read (Elt F) f :=
  (View.readAt_eq_ld v f rS2).trans (View.ld_unit_zero (S := S8x64x16) hz3_2 inb_S8x64x16_S8x64x16_0_0_0 _)
theorem readAt_rL2 {sg : RefSig} {κ : Kind} {sp : Space} (v : View sg κ sp S8x32x64 .f32) (f : v.ty.Contents (Elt F)) :
    v.readAt (Elt F) rL2.toLoadRect f = v.read (Elt F) f :=
  (View.readAt_eq_ld v f rL2).trans (View.ld_unit_zero (S := S8x32x64) hz3_2 inb_S8x32x64_S8x32x64_0_0_0 _)
theorem readAt_rI2 {sg : RefSig} {κ : Kind} {sp : Space} (v : View sg κ sp S8x32x64x16 .f32) (f : v.ty.Contents (Elt F)) :
    v.readAt (Elt F) rI2.toLoadRect f = v.read (Elt F) f :=
  (View.readAt_eq_ld v f rI2).trans (View.ld_unit_zero (S := S8x32x64x16) hz4_2 inb_S8x32x64x16_S8x32x64x16_0_0_0_0 _)

/-- A store through the whole rectangle, last, covers the buffer. -/
theorem cover_rS2 (w : Vec F S8x64x16 .f32) (L : List (View.Piece (Elt F) S8x64x16 .f32)) (y : S8x64x16.Idx) :
    ∃ p ∈ ((⟨rS2, w⟩ : View.Piece (Elt F) S8x64x16 .f32) :: L), y ∈ p.1.set :=
  ⟨_, List.mem_cons_self, View.mem_set_unit_zero (S := S8x64x16) hz3_2 inb_S8x64x16_S8x64x16_0_0_0 y⟩

/-- What a buffer of the accumulator's shape reads after stores the last of which is whole: that store's payload. -/
theorem read_writes_rS2 {sg : RefSig} {κ : Kind} {sp : Space} (v : View sg κ sp S8x64x16 .f32) (f : v.ty.Contents (Elt F))
    (w : Vec F S8x64x16 .f32) (L : List (View.Piece (Elt F) S8x64x16 .f32)) :
    v.read (Elt F) (v.writes (Elt F) f ((⟨rS2, w⟩ : View.Piece (Elt F) S8x64x16 .f32) :: L)) = w :=
  (View.read_writes_eq_canon v f _ (cover_rS2 w L)).trans (View.canon_cons_unit_zero (S := S8x64x16) hz3_2 inb_S8x64x16_S8x64x16_0_0_0 w L)

/-- A whole load after stores the last of which is whole reads that store's payload. -/
theorem readCov_rS2 {sg : RefSig} {κ : Kind} {sp : Space} (v : View sg κ sp S8x64x16 .f32)
    (w : Vec F S8x64x16 .f32) (L : List (View.Piece (Elt F) S8x64x16 .f32)) :
    v.readCov ((⟨rS2, w⟩ : View.Piece (Elt F) S8x64x16 .f32) :: L) rS2.toLoadRect = w :=
  (View.readCov_eq_canon_ld v _ rS2 (cover_rS2 w L)).trans
    ((congrArg (fun X => View.ld X rS2) (View.canon_cons_unit_zero (S := S8x64x16) hz3_2 inb_S8x64x16_S8x64x16_0_0_0 w L)).trans
      (View.ld_unit_zero (S := S8x64x16) hz3_2 inb_S8x64x16_S8x64x16_0_0_0 w))

set_option maxHeartbeats 4000000 in
/-- A first step (the first condition holds, the second does not): the accumulator is zeroed, then the block's partial sum is added to it; the output block is untouched. -/
theorem sound_kernel2_A (c : Dev nD) (E : Set ℕ) (i : grid2.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : cond2_0 i) (hc1 : ¬cond2_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k2_pay2 x1 x0 (k2_pay1 (F := F)))) -∗ K ⟨⟩))
      ⊢ wp frame (wpE (defs₀ (F := F)) Variants.none c none) E (cc2__output_accum_kernel i arg2 harg2 arg3 harg3 arg4 harg4 arg5 harg5) K := by
  simp only [cc2__output_accum_kernel_eq_skeleton]; unfold cc2__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  sl_unfold_run_names
  refine (read_writes_rS2 _ _ _ _).trans ?_
  rw [readAt_rL2, readAt_rI2, readCov_rS2]

set_option maxHeartbeats 4000000 in
/-- A middle step (neither condition holds): the accumulator goes from `xs` to `xs` plus the block's partial sum; the output block is untouched. -/
theorem sound_kernel2_B (c : Dev nD) (E : Set ℕ) (i : grid2.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond2_0 i) (hc1 : ¬cond2_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k2_pay2 x1 x0 xs)) -∗ K ⟨⟩))
      ⊢ wp frame (wpE (defs₀ (F := F)) Variants.none c none) E (cc2__output_accum_kernel i arg2 harg2 arg3 harg3 arg4 harg4 arg5 harg5) K := by
  simp only [cc2__output_accum_kernel_eq_skeleton]; unfold cc2__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  refine (read_writes_rS2 _ _ _ _).trans ?_
  rw [readAt_rL2, readAt_rI2, readAt_rS2]

set_option maxHeartbeats 4000000 in
/-- A last step (the second condition holds, the first does not): the block's partial sum is added to the accumulator, and the accumulator is copied into the output block. -/
theorem sound_kernel2_C (c : Dev nD) (E : Set ℕ) (i : grid2.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond2_0 i) (hc1 : cond2_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k2_pay2 x1 x0 xs)
            ∗ owns (c : Thread nD τ) arg5 fullShare (k2_pay2 x1 x0 xs)) -∗ K ⟨⟩))
      ⊢ wp frame (wpE (defs₀ (F := F)) Variants.none c none) E (cc2__output_accum_kernel i arg2 harg2 arg3 harg3 arg4 harg4 arg5 harg5) K := by
  simp only [cc2__output_accum_kernel_eq_skeleton]; unfold cc2__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists _; isplitr
    swap; · iexact Ho
    ipureintro
    sl_unfold_run_names
    refine (read_writes_rS2 _ _ _ _).trans ?_
    refine (readCov_rS2 _ _ _).trans ?_
    rw [readAt_rL2, readAt_rI2, readAt_rS2]
  iexists _; isplitr
  swap; · iexact HS
  ipureintro
  sl_unfold_run_names
  refine (read_writes_rS2 _ _ _ _).trans ?_
  rw [readAt_rL2, readAt_rI2, readAt_rS2]

/-! ## Where the windows are idle -/

/-- The two input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
/-- Where the second condition fails the output window is idle: the body stores nothing into it. -/
theorem idleAt2_2 : ∀ t : Fin cfg2.N, ¬cond2_1 (grid2.coords t) → cfg2.idle 2 (grid2.coords t) = true := by decide +kernel
/-- Where it holds the output window is live. -/
theorem liveAt2_2 : ∀ t : Fin cfg2.N, cond2_1 (grid2.coords t) → cfg2.idle 2 (grid2.coords t) = false := by decide +kernel
/-- Where the second condition fails the output block is not written back. -/
theorem noFlush2_2 (t : Fin cfg2.N) (h : ¬cond2_1 (grid2.coords t)) : (cfg2.win 2).flush t = false := by
  cases hf : (cfg2.win 2).flush t
  · rfl
  · exact absurd ((hcond2_1 t).mpr ((flush2_2 t).mp hf)) h

/-! ## The input windows' blocks -/

/-- Input window 0's current staging buffer holds its block at every point, for any proof data whose array is the
    region-entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The accumulator point by point -/

/-- At a first step of a batch block the accumulator ends at the block's partial sum added to zero. -/
theorem accAt2_first (c : Dev nD) (t : Fin cfg2.N) (h : t.val % 64 = 0) :
    accAt2 V c t.val t.isLt = k2_pay2 (iblk2 V c 1 t) (iblk2 V c 0 t) (k2_pay1 (F := F)) := by
  obtain ⟨n, hn⟩ := t
  cases n with
  | zero => rw [accAt2]
  | succ n => rw [accAt2, if_pos h]

/-- At any other step it ends at the block's partial sum added to what the point before left. -/
theorem accAt2_next (c : Dev nD) (t : Fin cfg2.N) (h : ¬t.val % 64 = 0) :
    accAt2 V c t.val t.isLt = k2_pay2 (iblk2 V c 1 t) (iblk2 V c 0 t) (accAt2 V c (t.val - 1) (Nat.lt_of_le_of_lt (Nat.sub_le _ _) t.isLt)) := by
  obtain ⟨n, hn⟩ := t
  cases n with
  | zero => exact absurd (Nat.zero_mod _) h
  | succ n => rw [accAt2, if_neg h]; rfl

/-! ## The invariant -/

theorem PhiS2_zero (c : Dev nD) (n : ℕ) (h : n ≤ cfg2.N) (hz : n = 0) : PhiS2 V c n h = Pipeline.ΦA spec2 c := by
  subst hz; rfl

/-- After point `n`: the accumulator at that point's contents. -/
theorem PhiS2_succ (c : Dev nD) (n : ℕ) (hn : n < cfg2.N) :
    PhiS2 V c (n + 1) hn = iprop(owns (c : Thread nD τ) scM2 fullShare (accAt2 V c n hn)
      ∗ Pipeline.scopedRestBut (Ix := Unit) (Name := ℕ) (U := UR sig nD τ) (Lvl := ℕ) (Val := Elt F) spec2 c [cc2_scratch0]
      ∗ (∃ r, prngReg c r)) := rfl

/-- Before a point that is not the first: the accumulator at what the point before left. -/
theorem PhiS2_pos (c : Dev nD) (n : ℕ) (h : n ≤ cfg2.N) (hz : n ≠ 0) :
    PhiS2 V c n h = iprop(owns (c : Thread nD τ) scM2 fullShare (accAt2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The class's invariant with the accumulator as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

/-! ## The body obligation, at a generic point -/

/-- What the body is called with at point `t`: the invariant, what the core owes, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; the closed forms of the two conditions say which of the
    three steps the point is (a first step of a batch block, a middle one, a last one); the invariant hands the body the
    accumulator at what the point before left (at anything before the region's first point) and takes it back at this
    point's contents; where the output block is not written back its buffer is handed back untouched, at a last step it
    holds the accumulator's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 256 := lt_of_lt_of_eq t.isLt (show cfg2.N = 256 from N_2)
  by_cases h0 : t.val % 64 = 0
  · have h1 : ¬t.val % 64 = 63 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [accAt2_first V c t h0]
    by_cases hz : t.val = 0
    · rw [PhiS2_castSucc V c t, PhiS2_zero V c _ _ hz, PhiA2_eq]
      iintro ⟨⟨⟨⟨%ds, HS⟩, HR⟩, Hg⟩, Ho, ⟨%d0, H0⟩, ⟨%d1, H1⟩, ⟨%d2, H2⟩⟩
      iapply (sound_kernel2_A c Set.univ (grid2.coords t) _ _ _ _ _ _ _ _ hc0 hc1 (iblk2 V c 0 t) (iblk2 V c 1 t) _ ds _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨HS, HR, Hg⟩, Ho, ⟨%d0, H0⟩, ⟨%d1, H1⟩, ⟨%d2, H2⟩⟩
      iapply (sound_kernel2_A c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hz : t.val ≠ 0 := fun e => h0 (by rw [e])
    by_cases h1 : t.val % 64 = 63
    · have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2]
      rw [accAt2_next V c t h0]
      rw [PhiS2_castSucc V c t, PhiS2_pos V c _ _ hz]
      iintro ⟨⟨HS, HR, Hg⟩, Ho, ⟨%d0, H0⟩, ⟨%d1, H1⟩, ⟨%d2, H2⟩⟩
      iapply (sound_kernel2_C c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      rw [accAt2_next V c t h0]
      rw [PhiS2_castSucc V c t, PhiS2_pos V c _ _ hz]
      iintro ⟨⟨HS, HR, Hg⟩, Ho, ⟨%d0, H0⟩, ⟨%d1, H1⟩, ⟨%d2, H2⟩⟩
      iapply (sound_kernel2_B c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 256 := N_2; omega)

end Cert.KernelIdeal.Hand

end
-- ==== Proof.KI.Acc4Defs.lean ====
/-
  The third weighted-sum region (the fifth pallas_call: agreements = softmax of the logits block, the inputs block times the
  agreements summed over the block's 32 input capsules, accumulated in a scratch over the 64 grid steps of a batch block and
  stored into the output block at the last of them): what the scratch holds after each grid point, and the region's proof
  data.  Grid point t = 64·i + j handles batch block i (8 samples) and input-capsule block j (32 capsules).
-/
import proofs.«130725_j52982716563714_2_alg».proof.Proof.LaunchKernelIdeal
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch accumulator as a whole memref. -/
abbrev scM4 : Memref sig .tc .vmem S8x64x16 .f32 := Memref.whole cc4_scratch0

/-- What the scratch accumulator holds after the body at position `n`: the point's partial sum added to zero at the first
    step of a batch block (n ≡ 0 mod 64), else to what the point before left. -/
def accAt4 (c : Dev nD) : (n : ℕ) → n < cfg4.N → Vec F S8x64x16 .f32
  | 0, hn => k4_pay2 (iblk4 V c 1 ⟨0, hn⟩) (iblk4 V c 0 ⟨0, hn⟩) (k4_pay1 (F := F))
  | n + 1, hn => k4_pay2 (iblk4 V c 1 ⟨n + 1, hn⟩) (iblk4 V c 0 ⟨n + 1, hn⟩)
      (if (n + 1) % 64 = 0 then (k4_pay1 (F := F)) else accAt4 c n (Nat.lt_of_succ_lt hn))

/-- The region's invariant before position `n`: before the first point the class's (every scoped buffer at anything, the
    generator register at some state); afterwards the scratch accumulator at what the point before left, the other scoped
    buffers at anything, the generator register at some state. -/
def PhiS4 (c : Dev nD) : (n : ℕ) → n ≤ cfg4.N → sProp 𝕄
  | 0, _ => Pipeline.ΦA spec4 c
  | n + 1, hn => iprop(owns (c : Thread nD τ) scM4 fullShare (accAt4 V c n hn)
      ∗ Pipeline.scopedRestBut (Ix := Unit) (Name := ℕ) (U := UR sig nD τ) (Lvl := ℕ) (Val := Elt F) spec4 c [cc4_scratch0]
      ∗ (∃ r, prngReg c r))

/-- The proof data of the region on core `c`: the arrays as the region finds them; after the body at point `t` each input's
    buffer at its block and the output's at the accumulator's contents; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c t.val t.isLt := by dsimp only [dat4]

end Cert.KernelIdeal.Hand

end
-- ==== Proof.KI.Acc4Body.lean ====
/-
  The third weighted-sum region: the body's triple at every grid point against the region's proof data.  The body has two
  conditions on the grid's second coordinate j (j = 0: zero the accumulator first; j = 63: copy the accumulator into the
  output block at the end), so a point is a first step (the accumulator ends at the block's partial sum added to zero), a
  middle step (added to what the point before left) or a last step (the same, and the output block ends at the
  accumulator's contents).  Every load and store is of a whole buffer, so a stored-then-loaded buffer reads back as stored.
-/
import proofs.«130725_j52982716563714_2_alg».proof.Proof.KI.Acc4Defs
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions -/

/-- The body's first condition (it zeroes the accumulator): the grid's second coordinate is zero. -/
abbrev cond4_0 (i : grid4.Coords) : Prop := (Scalar.cmpi .ne (Scalar.extui (Scalar.cmpi .eq (BitVec.ofNat 32 (i 1).val) 0#32)) 0#32) = 1#1
/-- The body's second condition (it copies the accumulator into the output block): the grid's second coordinate is 63. -/
abbrev cond4_1 (i : grid4.Coords) : Prop := k4_cond2 i = 1#1

/-- The first holds at the points ≡ 0 (mod 64): decided over the grid. -/
theorem hcond4_0 : ∀ t : Fin cfg4.N, cond4_0 (grid4.coords t) ↔ t.val % 64 = 0 :=
  (by decide +kernel : ∀ t : Fin grid4.N, cond4_0 (grid4.coords t) ↔ t.val % 64 = 0)
/-- The second holds at the points ≡ 63 (mod 64): decided over the grid. -/
theorem hcond4_1 : ∀ t : Fin cfg4.N, cond4_1 (grid4.coords t) ↔ t.val % 64 = 63 :=
  (by decide +kernel : ∀ t : Fin grid4.N, cond4_1 (grid4.coords t) ↔ t.val % 64 = 63)

/-! ## Whole-buffer loads and stores -/

theorem hz3_4 : (![0, 0, 0] : Fin 3 → Nat) = fun _ => 0 := funext fun a => by fin_cases a <;> rfl
theorem hz4_4 : (![0, 0, 0, 0] : Fin 4 → Nat) = fun _ => 0 := funext fun a => by fin_cases a <;> rfl

/-- The whole rectangle of the accumulator's shape, of the logits block's and of the inputs block's. -/
abbrev rS4 : Rect S8x64x16 := Rect.unit (s := S8x64x16) ![0, 0, 0] S8x64x16.size inb_S8x64x16_S8x64x16_0_0_0
abbrev rL4 : Rect S8x32x64 := Rect.unit (s := S8x32x64) ![0, 0, 0] S8x32x64.size inb_S8x32x64_S8x32x64_0_0_0
abbrev rI4 : Rect S8x32x64x16 := Rect.unit (s := S8x32x64x16) ![0, 0, 0, 0] S8x32x64x16.size inb_S8x32x64x16_S8x32x64x16_0_0_0_0

/-- A load through the whole rectangle reads the buffer's contents. -/
theorem readAt_rS4 {sg : RefSig} {κ : Kind} {sp : Space} (v : View sg κ sp S8x64x16 .f32) (f : v.ty.Contents (Elt F)) :
    v.readAt (Elt F) rS4.toLoadRect f = v.read (Elt F) f :=
  (View.readAt_eq_ld v f rS4).trans (View.ld_unit_zero (S := S8x64x16) hz3_4 inb_S8x64x16_S8x64x16_0_0_0 _)
theorem readAt_rL4 {sg : RefSig} {κ : Kind} {sp : Space} (v : View sg κ sp S8x32x64 .f32) (f : v.ty.Contents (Elt F)) :
    v.readAt (Elt F) rL4.toLoadRect f = v.read (Elt F) f :=
  (View.readAt_eq_ld v f rL4).trans (View.ld_unit_zero (S := S8x32x64) hz3_4 inb_S8x32x64_S8x32x64_0_0_0 _)
theorem readAt_rI4 {sg : RefSig} {κ : Kind} {sp : Space} (v : View sg κ sp S8x32x64x16 .f32) (f : v.ty.Contents (Elt F)) :
    v.readAt (Elt F) rI4.toLoadRect f = v.read (Elt F) f :=
  (View.readAt_eq_ld v f rI4).trans (View.ld_unit_zero (S := S8x32x64x16) hz4_4 inb_S8x32x64x16_S8x32x64x16_0_0_0_0 _)

/-- A store through the whole rectangle, last, covers the buffer. -/
theorem cover_rS4 (w : Vec F S8x64x16 .f32) (L : List (View.Piece (Elt F) S8x64x16 .f32)) (y : S8x64x16.Idx) :
    ∃ p ∈ ((⟨rS4, w⟩ : View.Piece (Elt F) S8x64x16 .f32) :: L), y ∈ p.1.set :=
  ⟨_, List.mem_cons_self, View.mem_set_unit_zero (S := S8x64x16) hz3_4 inb_S8x64x16_S8x64x16_0_0_0 y⟩

/-- What a buffer of the accumulator's shape reads after stores the last of which is whole: that store's payload. -/
theorem read_writes_rS4 {sg : RefSig} {κ : Kind} {sp : Space} (v : View sg κ sp S8x64x16 .f32) (f : v.ty.Contents (Elt F))
    (w : Vec F S8x64x16 .f32) (L : List (View.Piece (Elt F) S8x64x16 .f32)) :
    v.read (Elt F) (v.writes (Elt F) f ((⟨rS4, w⟩ : View.Piece (Elt F) S8x64x16 .f32) :: L)) = w :=
  (View.read_writes_eq_canon v f _ (cover_rS4 w L)).trans (View.canon_cons_unit_zero (S := S8x64x16) hz3_4 inb_S8x64x16_S8x64x16_0_0_0 w L)

/-- A whole load after stores the last of which is whole reads that store's payload. -/
theorem readCov_rS4 {sg : RefSig} {κ : Kind} {sp : Space} (v : View sg κ sp S8x64x16 .f32)
    (w : Vec F S8x64x16 .f32) (L : List (View.Piece (Elt F) S8x64x16 .f32)) :
    v.readCov ((⟨rS4, w⟩ : View.Piece (Elt F) S8x64x16 .f32) :: L) rS4.toLoadRect = w :=
  (View.readCov_eq_canon_ld v _ rS4 (cover_rS4 w L)).trans
    ((congrArg (fun X => View.ld X rS4) (View.canon_cons_unit_zero (S := S8x64x16) hz3_4 inb_S8x64x16_S8x64x16_0_0_0 w L)).trans
      (View.ld_unit_zero (S := S8x64x16) hz3_4 inb_S8x64x16_S8x64x16_0_0_0 w))

set_option maxHeartbeats 4000000 in
/-- A first step (the first condition holds, the second does not): the accumulator is zeroed, then the block's partial sum is added to it; the output block is untouched. -/
theorem sound_kernel4_A (c : Dev nD) (E : Set ℕ) (i : grid4.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : cond4_0 i) (hc1 : ¬cond4_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k4_pay2 x1 x0 (k4_pay1 (F := F)))) -∗ K ⟨⟩))
      ⊢ wp frame (wpE (defs₀ (F := F)) Variants.none c none) E (cc4__output_accum_kernel i arg2 harg2 arg3 harg3 arg4 harg4 arg5 harg5) K := by
  simp only [cc4__output_accum_kernel_eq_skeleton]; unfold cc4__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  sl_unfold_run_names
  refine (read_writes_rS4 _ _ _ _).trans ?_
  rw [readAt_rL4, readAt_rI4, readCov_rS4]

set_option maxHeartbeats 4000000 in
/-- A middle step (neither condition holds): the accumulator goes from `xs` to `xs` plus the block's partial sum; the output block is untouched. -/
theorem sound_kernel4_B (c : Dev nD) (E : Set ℕ) (i : grid4.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond4_0 i) (hc1 : ¬cond4_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k4_pay2 x1 x0 xs)) -∗ K ⟨⟩))
      ⊢ wp frame (wpE (defs₀ (F := F)) Variants.none c none) E (cc4__output_accum_kernel i arg2 harg2 arg3 harg3 arg4 harg4 arg5 harg5) K := by
  simp only [cc4__output_accum_kernel_eq_skeleton]; unfold cc4__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists fo; isplitr; · ipureintro; rfl
    iexact Ho
  iexists _; isplitr
  swap; · iexact HS
  ipureintro
  refine (read_writes_rS4 _ _ _ _).trans ?_
  rw [readAt_rL4, readAt_rI4, readAt_rS4]

set_option maxHeartbeats 4000000 in
/-- A last step (the second condition holds, the first does not): the block's partial sum is added to the accumulator, and the accumulator is copied into the output block. -/
theorem sound_kernel4_C (c : Dev nD) (E : Set ℕ) (i : grid4.Coords)
    (arg2 : Memref sig .tc .vmem S8x32x64x16 .f32) (harg2 : arg2.IsWhole) (arg3 : Memref sig .tc .vmem S8x32x64 .f32) (harg3 : arg3.IsWhole)
    (arg4 : Memref sig .tc .vmem S8x64x16 .f32) (harg4 : arg4.IsWhole) (arg5 : Memref sig .tc .vmem S8x64x16 .f32) (harg5 : arg5.IsWhole)
    (hc0 : ¬cond4_0 i) (hc1 : cond4_1 i)
    (x0 : Vec F S8x32x64x16 .f32) (x1 : Vec F S8x32x64 .f32) (xo : Vec F S8x64x16 .f32) (xs : Vec F S8x64x16 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k4_pay2 x1 x0 xs)
            ∗ owns (c : Thread nD τ) arg5 fullShare (k4_pay2 x1 x0 xs)) -∗ K ⟨⟩))
      ⊢ wp frame (wpE (defs₀ (F := F)) Variants.none c none) E (cc4__output_accum_kernel i arg2 harg2 arg3 harg3 arg4 harg4 arg5 harg5) K := by
  simp only [cc4__output_accum_kernel_eq_skeleton]; unfold cc4__output_accum_kernel_skel
  unfold owns
  iintro ⟨⟨%f0, %hf0, H0⟩, ⟨%f1, %hf1, H1⟩, ⟨%fo, %hfo, Ho⟩, ⟨%fs, %hfs, HS⟩, Hk⟩
  subst hf0; subst hf1; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Ho]
  · iexists _; isplitr
    swap; · iexact Ho
    ipureintro
    sl_unfold_run_names
    refine (read_writes_rS4 _ _ _ _).trans ?_
    refine (readCov_rS4 _ _ _).trans ?_
    rw [readAt_rL4, readAt_rI4, readAt_rS4]
  iexists _; isplitr
  swap; · iexact HS
  ipureintro
  sl_unfold_run_names
  refine (read_writes_rS4 _ _ _ _).trans ?_
  rw [readAt_rL4, readAt_rI4, readAt_rS4]

/-! ## Where the windows are idle -/

/-- The two input windows are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- Where the second condition fails the output window is idle: the body stores nothing into it. -/
theorem idleAt4_2 : ∀ t : Fin cfg4.N, ¬cond4_1 (grid4.coords t) → cfg4.idle 2 (grid4.coords t) = true := by decide +kernel
/-- Where it holds the output window is live. -/
theorem liveAt4_2 : ∀ t : Fin cfg4.N, cond4_1 (grid4.coords t) → cfg4.idle 2 (grid4.coords t) = false := by decide +kernel
/-- Where the second condition fails the output block is not written back. -/
theorem noFlush4_2 (t : Fin cfg4.N) (h : ¬cond4_1 (grid4.coords t)) : (cfg4.win 2).flush t = false := by
  cases hf : (cfg4.win 2).flush t
  · rfl
  · exact absurd ((hcond4_1 t).mpr ((flush4_2 t).mp hf)) h

/-! ## The input windows' blocks -/

/-- Input window 0's current staging buffer holds its block at every point, for any proof data whose array is the
    region-entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The accumulator point by point -/

/-- At a first step of a batch block the accumulator ends at the block's partial sum added to zero. -/
theorem accAt4_first (c : Dev nD) (t : Fin cfg4.N) (h : t.val % 64 = 0) :
    accAt4 V c t.val t.isLt = k4_pay2 (iblk4 V c 1 t) (iblk4 V c 0 t) (k4_pay1 (F := F)) := by
  obtain ⟨n, hn⟩ := t
  cases n with
  | zero => rw [accAt4]
  | succ n => rw [accAt4, if_pos h]

/-- At any other step it ends at the block's partial sum added to what the point before left. -/
theorem accAt4_next (c : Dev nD) (t : Fin cfg4.N) (h : ¬t.val % 64 = 0) :
    accAt4 V c t.val t.isLt = k4_pay2 (iblk4 V c 1 t) (iblk4 V c 0 t) (accAt4 V c (t.val - 1) (Nat.lt_of_le_of_lt (Nat.sub_le _ _) t.isLt)) := by
  obtain ⟨n, hn⟩ := t
  cases n with
  | zero => exact absurd (Nat.zero_mod _) h
  | succ n => rw [accAt4, if_neg h]; rfl

/-! ## The invariant -/

theorem PhiS4_zero (c : Dev nD) (n : ℕ) (h : n ≤ cfg4.N) (hz : n = 0) : PhiS4 V c n h = Pipeline.ΦA spec4 c := by
  subst hz; rfl

/-- After point `n`: the accumulator at that point's contents. -/
theorem PhiS4_succ (c : Dev nD) (n : ℕ) (hn : n < cfg4.N) :
    PhiS4 V c (n + 1) hn = iprop(owns (c : Thread nD τ) scM4 fullShare (accAt4 V c n hn)
      ∗ Pipeline.scopedRestBut (Ix := Unit) (Name := ℕ) (U := UR sig nD τ) (Lvl := ℕ) (Val := Elt F) spec4 c [cc4_scratch0]
      ∗ (∃ r, prngReg c r)) := rfl

/-- Before a point that is not the first: the accumulator at what the point before left. -/
theorem PhiS4_pos (c : Dev nD) (n : ℕ) (h : n ≤ cfg4.N) (hz : n ≠ 0) :
    PhiS4 V c n h = iprop(owns (c : Thread nD τ) scM4 fullShare (accAt4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- The class's invariant with the accumulator as a memref owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-! ## The body obligation, at a generic point -/

/-- What the body is called with at point `t`: the invariant, what the core owes, and each window's current buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' buffers hold their blocks; the closed forms of the two conditions say which of the
    three steps the point is (a first step of a batch block, a middle one, a last one); the invariant hands the body the
    accumulator at what the point before left (at anything before the region's first point) and takes it back at this
    point's contents; where the output block is not written back its buffer is handed back untouched, at a last step it
    holds the accumulator's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 256 := lt_of_lt_of_eq t.isLt (show cfg4.N = 256 from N_4)
  by_cases h0 : t.val % 64 = 0
  · have h1 : ¬t.val % 64 = 63 := by omega
    have hc0 : cond4_0 (grid4.coords t) := (hcond4_0 t).mpr h0
    have hc1 : ¬cond4_1 (grid4.coords t) := fun h => h1 ((hcond4_1 t).mp h)
    rw [Dat.leavesExact_idle (dat4 V c) 2 t (idleAt4_2 t hc1) (noFlush4_2 t hc1)]
    rw [accAt4_first V c t h0]
    by_cases hz : t.val = 0
    · rw [PhiS4_castSucc V c t, PhiS4_zero V c _ _ hz, PhiA4_eq]
      iintro ⟨⟨⟨⟨%ds, HS⟩, HR⟩, Hg⟩, Ho, ⟨%d0, H0⟩, ⟨%d1, H1⟩, ⟨%d2, H2⟩⟩
      iapply (sound_kernel4_A c Set.univ (grid4.coords t) _ _ _ _ _ _ _ _ hc0 hc1 (iblk4 V c 0 t) (iblk4 V c 1 t) _ ds _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS4_castSucc V c t, PhiS4_pos V c _ _ hz]
      iintro ⟨⟨HS, HR, Hg⟩, Ho, ⟨%d0, H0⟩, ⟨%d1, H1⟩, ⟨%d2, H2⟩⟩
      iapply (sound_kernel4_A c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond4_0 (grid4.coords t) := fun h => h0 ((hcond4_0 t).mp h)
    have hz : t.val ≠ 0 := fun e => h0 (by rw [e])
    by_cases h1 : t.val % 64 = 63
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2]
      rw [accAt4_next V c t h0]
      rw [PhiS4_castSucc V c t, PhiS4_pos V c _ _ hz]
      iintro ⟨⟨HS, HR, Hg⟩, Ho, ⟨%d0, H0⟩, ⟨%d1, H1⟩, ⟨%d2, H2⟩⟩
      iapply (sound_kernel4_C c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      rw [accAt4_next V c t h0]
      rw [PhiS4_castSucc V c t, PhiS4_pos V c _ _ hz]
      iintro ⟨⟨HS, HR, Hg⟩, Ho, ⟨%d0, H0⟩, ⟨%d1, H1⟩, ⟨%d2, H2⟩⟩
      iapply (sound_kernel4_B c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]

/-- After any point the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨HS, HR, Hg⟩
  isplitl [HS HR]
  · isplitl [HS]
    · iexists _; iexact HS
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 256 := N_4; omega)

end Cert.KernelIdeal.Hand

end
-- ==== Proof.KI.Upd1Defs.lean ====
/-
  The first logits-update region (the second pallas_call: each logit of the block grows by the inner product, over the 16
  components, of its input vector with the output capsule's vector): the windows' blocks, what the body leaves in the output
  block, and the region's proof data.  Grid point t = 64·i + j handles batch block i and input-capsule block j.
-/
import proofs.«130725_j52982716563714_2_alg».proof.Proof.LaunchKernelIdeal
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: every load and the one store take the whole block. -/
abbrev r1_x : Rect S8x32x64x16 := Rect.unit (s := S8x32x64x16) ![0, 0, 0, 0] S8x32x64x16.size inb_S8x32x64x16_S8x32x64x16_0_0_0_0
abbrev r1_v : Rect S8x64x16 := Rect.unit (s := S8x64x16) ![0, 0, 0] S8x64x16.size inb_S8x64x16_S8x64x16_0_0_0
abbrev r1_p : Rect S8x32x64 := Rect.unit (s := S8x32x64) ![0, 0, 0] S8x32x64.size inb_S8x32x64_S8x32x64_0_0_0

/-- The new-logits block after the body, from the three input blocks: its one store as a piece. -/
def out1_3 (x0 : Vec F S8x32x64x16 .f32) (x1 : Vec F S8x64x16 .f32) (x2 : Vec F S8x32x64 .f32) : Vec F S8x32x64 .f32 :=
  View.canon [⟨r1_p, k1_pay1 (View.ld x0 r1_x) (View.ld x1 r1_v) (View.ld x2 r1_p)⟩]

/-- The proof data of the region on core `c`: the arrays as the region finds them; after the body at point `t` each input's
    buffer at its block and the output's at `out1_3` of the input blocks; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.Upd1.lean ====
/-
  The first logits-update region (the second pallas_call: every routing logit grows by the inner product, over the 16
  components, of its input vector with the output capsule's vector): that each input window's buffer holds
  its block at every grid point, the body's triple, and the body obligation of the region's proof data.
  Grid point t = 64·i + j handles batch block i (8 samples) and input-capsule block j (32 capsules); the outputs block
  depends on i only, so it is brought in at the first step of a batch block and found in place at the others.
-/
import proofs.«130725_j52982716563714_2_alg».proof.Proof.KI.Upd1Defs
import proofs.«130725_j52982716563714_2_alg».proof.Proof.LaunchKernelIdeal
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Input window 0 (the inputs block) holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the outputs block) holds its block at every point: brought in at the first step of a batch block;
    at the other steps the block index has not moved and the body left the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the logits block) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store -/

/-- The store is of the whole block, so it covers it. -/
theorem cover1_3 (p0 : Vec F S8x32x64 .f32) (y : S8x32x64.Idx) :
    ∃ pc ∈ ([⟨r1_p, p0⟩] : List (View.Piece (Elt F) S8x32x64 .f32)), y ∈ pc.1.set :=
  View.cover_of_tiled [⟨r1_p, p0⟩] S8x32x64.size (by rfl) y

/-! ## The body's triple -/

set_option maxHeartbeats 1000000 in
/-- The kernel body on whole staging memrefs, the inputs' at contents `x0 x1 x2` and the output's at anything, runs to
    the continuation holding the inputs' as they were and the output's at `out1_3` of the inputs'. -/
theorem sound_kernel1 (c : Dev nD) (E : Set ℕ) (i : grid1.Coords)
    (arg2 : Memref sig .tc .vmem S8x32x64x16 .f32) (harg2 : arg2.IsWhole) (arg3 : Memref sig .tc .vmem S8x64x16 .f32) (harg3 : arg3.IsWhole)
    (arg4 : Memref sig .tc .vmem S8x32x64 .f32) (harg4 : arg4.IsWhole) (arg5 : Memref sig .tc .vmem S8x32x64 .f32) (harg5 : arg5.IsWhole)
    (x0 : Vec F S8x32x64x16 .f32) (x1 : Vec F S8x64x16 .f32) (x2 : Vec F S8x32x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__priors_update_kernel i arg2 harg2 arg3 harg3 arg4 harg4 arg5 harg5) K := by
  simp only [cc1__priors_update_kernel_eq_skeleton]; unfold cc1__priors_update_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers under the region's proof data -/

/-- Each input's current staging buffer holds its block at every point, brought in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Upd3Defs.lean ====
/-
  The second logits-update region (the fourth pallas_call: each logit of the block grows by the inner product, over the 16
  components, of its input vector with the output capsule's vector): the windows' blocks, what the body leaves in the output
  block, and the region's proof data.  Grid point t = 64·i + j handles batch block i and input-capsule block j.
-/
import proofs.«130725_j52982716563714_2_alg».proof.Proof.LaunchKernelIdeal
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The body's accesses: every load and the one store take the whole block. -/
abbrev r3_x : Rect S8x32x64x16 := Rect.unit (s := S8x32x64x16) ![0, 0, 0, 0] S8x32x64x16.size inb_S8x32x64x16_S8x32x64x16_0_0_0_0
abbrev r3_v : Rect S8x64x16 := Rect.unit (s := S8x64x16) ![0, 0, 0] S8x64x16.size inb_S8x64x16_S8x64x16_0_0_0
abbrev r3_p : Rect S8x32x64 := Rect.unit (s := S8x32x64) ![0, 0, 0] S8x32x64.size inb_S8x32x64_S8x32x64_0_0_0

/-- The new-logits block after the body, from the three input blocks: its one store as a piece. -/
def out3_3 (x0 : Vec F S8x32x64x16 .f32) (x1 : Vec F S8x64x16 .f32) (x2 : Vec F S8x32x64 .f32) : Vec F S8x32x64 .f32 :=
  View.canon [⟨r3_p, k3_pay1 (View.ld x0 r3_x) (View.ld x1 r3_v) (View.ld x2 r3_p)⟩]

/-- The proof data of the region on core `c`: the arrays as the region finds them; after the body at point `t` each input's
    buffer at its block and the output's at `out3_3` of the input blocks; the class's invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.KernelIdeal.Hand

end
-- ==== Proof.KI.Upd3.lean ====
/-
  The second logits-update region (the fourth pallas_call: every routing logit grows by the inner product, over the 16
  components, of its input vector with the output capsule's vector): that each input window's buffer holds
  its block at every grid point, the body's triple, and the body obligation of the region's proof data.
  Grid point t = 64·i + j handles batch block i (8 samples) and input-capsule block j (32 capsules); the outputs block
  depends on i only, so it is brought in at the first step of a batch block and found in place at the others.
-/
import proofs.«130725_j52982716563714_2_alg».proof.Proof.KI.Upd3Defs
import proofs.«130725_j52982716563714_2_alg».proof.Proof.LaunchKernelIdeal
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Input window 0 (the inputs block) holds its block at every point, for any proof data whose array is the entry
    contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the outputs block) holds its block at every point: brought in at the first step of a batch block;
    at the other steps the block index has not moved and the body left the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the logits block) holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's one store -/

/-- The store is of the whole block, so it covers it. -/
theorem cover3_3 (p0 : Vec F S8x32x64 .f32) (y : S8x32x64.Idx) :
    ∃ pc ∈ ([⟨r3_p, p0⟩] : List (View.Piece (Elt F) S8x32x64 .f32)), y ∈ pc.1.set :=
  View.cover_of_tiled [⟨r3_p, p0⟩] S8x32x64.size (by rfl) y

/-! ## The body's triple -/

set_option maxHeartbeats 1000000 in
/-- The kernel body on whole staging memrefs, the inputs' at contents `x0 x1 x2` and the output's at anything, runs to
    the continuation holding the inputs' as they were and the output's at `out3_3` of the inputs'. -/
theorem sound_kernel3 (c : Dev nD) (E : Set ℕ) (i : grid3.Coords)
    (arg2 : Memref sig .tc .vmem S8x32x64x16 .f32) (harg2 : arg2.IsWhole) (arg3 : Memref sig .tc .vmem S8x64x16 .f32) (harg3 : arg3.IsWhole)
    (arg4 : Memref sig .tc .vmem S8x32x64 .f32) (harg4 : arg4.IsWhole) (arg5 : Memref sig .tc .vmem S8x32x64 .f32) (harg5 : arg5.IsWhole)
    (x0 : Vec F S8x32x64x16 .f32) (x1 : Vec F S8x64x16 .f32) (x2 : Vec F S8x32x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__priors_update_kernel i arg2 harg2 arg3 harg3 arg4 harg4 arg5 harg5) K := by
  simp only [cc3__priors_update_kernel_eq_skeleton]; unfold cc3__priors_update_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The inputs' buffers under the region's proof data -/

/-- Each input's current staging buffer holds its block at every point, brought in there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the kernel's triple applies; the invariant and the
    core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The kernel program's run: @main as nine segments — the zero logits; the first weighted sum; the squash; the logits' update and
  the second weighted sum; the squash; the second update and the third weighted sum; the squash — from the launch to the
  return, with the contents of every unscoped buffer NAMED at each boundary (W0 … W9): a host stretch applies its operations
  to the contents before it, a kernel region replaces its output array by what its pipeline's write-backs leave and keeps
  every other buffer.  Every weakly fair execution terminates, faults nowhere, and ends with every unscoped buffer at W9.
-/
import proofs.«130725_j52982716563714_2_alg».proof.Proof.KI.Acc0Body
import proofs.«130725_j52982716563714_2_alg».proof.Proof.KI.Acc2Body
import proofs.«130725_j52982716563714_2_alg».proof.Proof.KI.Acc4Body
import proofs.«130725_j52982716563714_2_alg».proof.Proof.KI.Upd1
import proofs.«130725_j52982716563714_2_alg».proof.Proof.KI.Upd3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- Core `c`'s buffers at launch. -/
abbrev W0 : Dev nD → Valuation τ sig (Elt F) := fun c b => m (c, b)

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its arrays at what the pipeline leaves (the inputs as entered, the output's write-backs folded),
    every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host stretch `hostOps3`. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b

/-- At region 3's exit: its arrays at what the pipeline leaves (the inputs as entered, the output's write-backs folded),
    every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- At region 4's exit: its arrays at what the pipeline leaves (the inputs as entered, the output's write-backs folded),
    every other buffer as entered. -/
def W8 (c : Dev nD) : Valuation τ sig (Elt F) :=
  Pipeline.withArrays spec4 c (W7 m c) fun w => (dat4 (V7 m) c).arrAt w cfg4.N
theorem W8_arr (c : Dev nD) (w : Fin cfg4.W) :
    W8 m c (Proc.devRef .tc (Pipeline.arrRef spec4 w)) = (dat4 (V7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev V8 : (c : Dev nD) → (b : Ref sig .tc) → Buf (Elt F) ((c : Thread nD τ).loc b) := fun c b => W8 m c b
theorem hF4 (c : Dev nD) (w : Fin cfg4.W) : (dat4 (V7 m) c).arrAt w cfg4.N = V8 m c (Pipeline.arrRef spec4 w) :=
  (W8_arr m c w).symm
theorem hrest4 (c : Dev nD) : ∀ b, b ∉ Finset.univ.image (Pipeline.arrRef spec4) → V8 m c b = V7 m c b :=
  fun b hb => W8_of_ne m c b fun w e => hb (Finset.mem_image.mpr ⟨w, Finset.mem_univ _, e⟩)

/-- After the last host stretch: the contents at the return. -/
abbrev W9 : Dev nD → Valuation τ sig (Elt F) := fun c => StableHlo.after hostOps5 (W8 m c)

/-! ## The proof data family and the thread state -/

/-- No pallas_call has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V7 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`: its arrays split out of
    the unscoped buffers and put back at the exit contents; the generator register into the region's invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`: its arrays split out of
    the unscoped buffers and put back at the exit contents; the generator register into the region's invariant and out;
    nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`: its arrays split out of
    the unscoped buffers and put back at the exit contents; the generator register into the region's invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (show Pipeline.ΦA spec2 c ⊢ (pdats m 2 c).Φ 0 from hin2 (V4 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (V4 m) c).trans (show Pipeline.ΦA spec2 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`: its arrays split out of
    the unscoped buffers and put back at the exit contents; the generator register into the region's invariant and out;
    nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`: its arrays split out of
    the unscoped buffers and put back at the exit contents; the generator register into the region's invariant and out;
    nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (V7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (show Pipeline.ΦA spec4 c ⊢ (pdats m 4 c).Φ 0 from hin4 (V7 m) c)
    unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (V7 m) c).trans (show Pipeline.ΦA spec4 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V7 m c) (V8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main on the TensorCores terminates, nothing
    faulting, and every final state holds every unscoped buffer at the last boundary's contents `W9`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W9 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.KI.Kept.lean ====
/-
  What the segments keep.  A host stretch changes only the buffers its operations write; a kernel region changes only its
  output array (an input window's array ends as it was entered).  So the two arguments reach every boundary as launched, and a
  region's output reaches the regions that read it.
-/
import proofs.«130725_j52982716563714_2_alg».proof.Proof.KI.Run
import proofs.«130725_j52982716563714_2_alg».proof.Proof.RegionsKernelIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## One step back across a segment -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W6_of (c : Dev nD) (r : Ref sig .tc) (h : r ∉ hostOps3_W) : W6 m c r = W5 m c r :=
  StableHlo.after_of_writes_sub hostOps3 _ hostOps3_writes h
theorem W9_of (c : Dev nD) (r : Ref sig .tc) (h : r ∉ hostOps5_W) : W9 m c r = W8 m c r :=
  StableHlo.after_of_writes_sub hostOps5 _ hostOps5_writes h

/-- An input window's array leaves its region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((dat2 (V4 m) c).arrAt_in w hw _).trans (A_eq2 (V4 m) c w))
theorem W7_in (c : Dev nD) (w : Fin cfg3.W) (hw : (cfg3.win w).isOut = false) :
    W7 m c (Proc.devRef .tc (Pipeline.arrRef spec3 w)) = W6 m c (Proc.devRef .tc (Pipeline.arrRef spec3 w)) :=
  (W7_arr m c w).trans (((dat3 (V6 m) c).arrAt_in w hw _).trans (A_eq3 (V6 m) c w))
theorem W8_in (c : Dev nD) (w : Fin cfg4.W) (hw : (cfg4.win w).isOut = false) :
    W8 m c (Proc.devRef .tc (Pipeline.arrRef spec4 w)) = W7 m c (Proc.devRef .tc (Pipeline.arrRef spec4 w)) :=
  (W8_arr m c w).trans (((dat4 (V7 m) c).arrAt_in w hw _).trans (A_eq4 (V7 m) c w))

/-! ## The arguments -/

/-- The inputs array reaches every boundary as launched (each region reads it through its window 0). -/
theorem W1_main_arg0 (c : Dev nD) : W1 m c (Proc.devRef .tc main_arg0) = m ((c : Thread nD τ).loc main_arg0) :=
  (W1_of m c main_arg0 (by decide)).trans rfl
theorem W2_main_arg0 (c : Dev nD) : W2 m c (Proc.devRef .tc main_arg0) = m ((c : Thread nD τ).loc main_arg0) :=
  (W2_in m c 0 rfl).trans (W1_main_arg0 m c)
theorem W3_main_arg0 (c : Dev nD) : W3 m c (Proc.devRef .tc main_arg0) = m ((c : Thread nD τ).loc main_arg0) :=
  (W3_of m c main_arg0 (by decide)).trans (W2_main_arg0 m c)
theorem W4_main_arg0 (c : Dev nD) : W4 m c (Proc.devRef .tc main_arg0) = m ((c : Thread nD τ).loc main_arg0) :=
  (W4_in m c 0 rfl).trans (W3_main_arg0 m c)
theorem W5_main_arg0 (c : Dev nD) : W5 m c (Proc.devRef .tc main_arg0) = m ((c : Thread nD τ).loc main_arg0) :=
  (W5_in m c 0 rfl).trans (W4_main_arg0 m c)
theorem W6_main_arg0 (c : Dev nD) : W6 m c (Proc.devRef .tc main_arg0) = m ((c : Thread nD τ).loc main_arg0) :=
  (W6_of m c main_arg0 (by decide)).trans (W5_main_arg0 m c)
theorem W7_main_arg0 (c : Dev nD) : W7 m c (Proc.devRef .tc main_arg0) = m ((c : Thread nD τ).loc main_arg0) :=
  (W7_in m c 0 rfl).trans (W6_main_arg0 m c)
theorem W8_main_arg0 (c : Dev nD) : W8 m c (Proc.devRef .tc main_arg0) = m ((c : Thread nD τ).loc main_arg0) :=
  (W8_in m c 0 rfl).trans (W7_main_arg0 m c)
theorem W9_main_arg0 (c : Dev nD) : W9 m c (Proc.devRef .tc main_arg0) = m ((c : Thread nD τ).loc main_arg0) :=
  (W9_of m c main_arg0 (by decide)).trans (W8_main_arg0 m c)

/-- The bias reaches every boundary as launched (no region has it as a window). -/
theorem W1_main_arg1 (c : Dev nD) : W1 m c (Proc.devRef .tc main_arg1) = m ((c : Thread nD τ).loc main_arg1) :=
  (W1_of m c main_arg1 (by decide)).trans rfl
theorem W2_main_arg1 (c : Dev nD) : W2 m c (Proc.devRef .tc main_arg1) = m ((c : Thread nD τ).loc main_arg1) :=
  (W2_of_ne m c main_arg1 (by decide)).trans (W1_main_arg1 m c)
theorem W3_main_arg1 (c : Dev nD) : W3 m c (Proc.devRef .tc main_arg1) = m ((c : Thread nD τ).loc main_arg1) :=
  (W3_of m c main_arg1 (by decide)).trans (W2_main_arg1 m c)
theorem W4_main_arg1 (c : Dev nD) : W4 m c (Proc.devRef .tc main_arg1) = m ((c : Thread nD τ).loc main_arg1) :=
  (W4_of_ne m c main_arg1 (by decide)).trans (W3_main_arg1 m c)
theorem W5_main_arg1 (c : Dev nD) : W5 m c (Proc.devRef .tc main_arg1) = m ((c : Thread nD τ).loc main_arg1) :=
  (W5_of_ne m c main_arg1 (by decide)).trans (W4_main_arg1 m c)
theorem W6_main_arg1 (c : Dev nD) : W6 m c (Proc.devRef .tc main_arg1) = m ((c : Thread nD τ).loc main_arg1) :=
  (W6_of m c main_arg1 (by decide)).trans (W5_main_arg1 m c)
theorem W7_main_arg1 (c : Dev nD) : W7 m c (Proc.devRef .tc main_arg1) = m ((c : Thread nD τ).loc main_arg1) :=
  (W7_of_ne m c main_arg1 (by decide)).trans (W6_main_arg1 m c)
theorem W8_main_arg1 (c : Dev nD) : W8 m c (Proc.devRef .tc main_arg1) = m ((c : Thread nD τ).loc main_arg1) :=
  (W8_of_ne m c main_arg1 (by decide)).trans (W7_main_arg1 m c)
theorem W9_main_arg1 (c : Dev nD) : W9 m c (Proc.devRef .tc main_arg1) = m ((c : Thread nD τ).loc main_arg1) :=
  (W9_of m c main_arg1 (by decide)).trans (W8_main_arg1 m c)

/-! ## The logits between the regions that write and read them -/

/-- The zero logits: read by the first weighted sum (its window 1) and by the first update (its window 2). -/
theorem W3_main_v0 (c : Dev nD) : W3 m c (Proc.devRef .tc main_v0) = W1 m c (Proc.devRef .tc main_v0) :=
  (W3_of m c main_v0 (by decide)).trans (W2_in m c 1 rfl)
/-- The first update's logits: read by the second weighted sum (its window 1) and by the second update (its window 2). -/
theorem W6_main_v18 (c : Dev nD) : W6 m c (Proc.devRef .tc main_v18) = W4 m c (Proc.devRef .tc main_v18) :=
  (W6_of m c main_v18 (by decide)).trans (W5_in m c 1 rfl)

end Cert.KernelIdeal.Hand

end
-- ==== Proof.Spec.lean ====
/-
  Dynamic routing between capsules, three iterations, as ONE function of the two argument arrays over the extended reals.

  x : [32, 2048, 64, 16] (batch b, input capsule n, output capsule o, component d), bias : [64, 16].
  The routing logits p : [32, 2048, 64] start at zero.  One iteration:
    agreement  a(b,n,o)   = exp (p(b,n,o) - max_o' p(b,n,o')) / Σ_o' exp (p(b,n,o') - max_o'' p(b,n,o''))   (softmax over o)
    weighted   s(b,o,d)   = Σ_n x(b,n,o,d) · a(b,n,o)
    squash     v(b,o,d)   = (q / (1 + q)) · (s + bias)(b,o,d) / sqrt (q + ε),   q(b,o) = Σ_d (s + bias)(b,o,d)²
    update     p'(b,n,o)  = p(b,n,o) + Σ_d x(b,n,o,d) · v(b,o,d)
  The result is the third iteration's v.  Every operation is the exact one on the extended reals (division, square root
  and exponential with their conventions at 0 and ±∞); the three float literals (-∞ as the maximum's start, 1, ε = 1e-7
  rounded to binary32) are kept as the words both programs print, never evaluated.
-/
import Idealize.ShloMosaic.PureOps.Ideal
import Idealize.ShloMosaic.Lib.ValueIdx

noncomputable section

namespace Cert.Routing

open Idealize.ShloMosaic Idealize.ShloMosaic.ValueIdx

/-- The arrays, indexed as the printed programs index them. -/
abbrev Inp : Type := (⟨4, ![32, 2048, 64, 16]⟩ : Shape).Idx → EReal
abbrev Pri : Type := (⟨3, ![32, 2048, 64]⟩ : Shape).Idx → EReal
abbrev Out : Type := (⟨3, ![32, 64, 16]⟩ : Shape).Idx → EReal
abbrev Bia : Type := (⟨2, ![64, 16]⟩ : Shape).Idx → EReal

/-- The three float words of the computation, at their exact values. -/
abbrev zeroW : EReal := Ideal.ofBits .f32 0x00000000#32
abbrev negInfW : EReal := Ideal.ofBits .f32 0xFF800000#32
abbrev oneW : EReal := Ideal.ofBits .f32 0x3F800000#32
abbrev epsW : EReal := Ideal.ofBits .f32 0x33D6BF95#32

/-- The largest logit of input capsule (b, n) over the 64 output capsules: the fold of max from -∞, then max with -∞ once more
    (both programs spell the softmax's maximum so). -/
def rowMax (p : Pri) (b : Fin 32) (n : Fin 2048) : EReal :=
  max negInfW ((Finset.univ : Finset (Fin 64)).fold max negInfW fun o => p (ix3 b n o))

/-- The shifted exponential of one logit. -/
def expShift (p : Pri) (b : Fin 32) (n : Fin 2048) (o : Fin 64) : EReal :=
  Ideal.exp (p (ix3 b n o) - rowMax p b n)

/-- The agreement (softmax over the output capsules) of input capsule (b, n) with output capsule o. -/
def agree (p : Pri) (b : Fin 32) (n : Fin 2048) (o : Fin 64) : EReal :=
  Ideal.div (expShift p b n o) (∑ o' : Fin 64, expShift p b n o')

/-- The agreement-weighted sum of the inputs over the 2048 input capsules. -/
def weightedAt (x : Inp) (p : Pri) (b : Fin 32) (o : Fin 64) (d : Fin 16) : EReal :=
  ∑ n : Fin 2048, x (ix4 b n o d) * agree p b n o
def weighted (x : Inp) (p : Pri) : Out := fun i => weightedAt x p (i 0) (i 1) (i 2)

/-- The squashing non-linearity of s + bias along the 16 components. -/
def shifted (s : Out) (bias : Bia) (b : Fin 32) (o : Fin 64) (d : Fin 16) : EReal := s (ix3 b o d) + bias (ix2 o d)
def normSq (s : Out) (bias : Bia) (b : Fin 32) (o : Fin 64) : EReal := ∑ d : Fin 16, shifted s bias b o d * shifted s bias b o d
def squashAt (s : Out) (bias : Bia) (b : Fin 32) (o : Fin 64) (d : Fin 16) : EReal :=
  Ideal.div (Ideal.div (normSq s bias b o) (oneW + normSq s bias b o) * shifted s bias b o d) (Ideal.sqrt (normSq s bias b o + epsW))
def squash (s : Out) (bias : Bia) : Out := fun i => squashAt s bias (i 0) (i 1) (i 2)

/-- The logits' update: each grows by the inner product of its input with the output capsule's vector. -/
def updateAt (x : Inp) (v : Out) (p : Pri) (b : Fin 32) (n : Fin 2048) (o : Fin 64) : EReal :=
  p (ix3 b n o) + ∑ d : Fin 16, x (ix4 b n o d) * v (ix3 b o d)
def update (x : Inp) (v : Out) (p : Pri) : Pri := fun i => updateAt x v p (i 0) (i 1) (i 2)

/-- The logits at the start, and the three iterations. -/
def p0 : Pri := fun _ => zeroW
def v1 (x : Inp) (bias : Bia) : Out := squash (weighted x p0) bias
def p1 (x : Inp) (bias : Bia) : Pri := update x (v1 x bias) p0
def v2 (x : Inp) (bias : Bia) : Out := squash (weighted x (p1 x bias)) bias
def p2 (x : Inp) (bias : Bia) : Pri := update x (v2 x bias) (p1 x bias)
def v3 (x : Inp) (bias : Bia) : Out := squash (weighted x (p2 x bias)) bias

end Cert.Routing

end
-- ==== Proof.KI.HostSquash.lean ====
/-
  The host operations between the kernel regions — add the bias, squash along the 16 components — as ONE function of the
  weighted sum and the bias, and that function read index by index at the extended reals: it is the specification's squash.
-/
import proofs.«130725_j52982716563714_2_alg».proof.KernelIdeal
import proofs.«130725_j52982716563714_2_alg».proof.Proof.Gen.KernelIdeal
import proofs.«130725_j52982716563714_2_alg».proof.Proof.Spec
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx Cert.Routing

variable {F : FTy → Type} [FloatOps F]

/-- s + bias, the bias broadcast over the batch. -/
def hostShift (s : FVec F S32x64x16 .f32) (bias : FVec F S64x16 .f32) : FVec F S32x64x16 .f32 :=
  addf s (broadcastInDim S32x64x16 ![0, 1, 2] bcast_S1x64x16_S32x64x16_0_1_2 (broadcastInDim S1x64x16 ![1, 2] bcast_S64x16_S1x64x16_1_2 bias))

/-- The squared norm along the 16 components, kept as a unit axis. -/
def hostNorm (u : FVec F S32x64x16 .f32) : FVec F S32x64x1 .f32 :=
  broadcastInDim S32x64x1 ![0, 1] bcast_S32x64_S32x64x1_0_1
    (Host.reduceAdd (mulf u u) (constant S_ .f32 0x00000000#32) reducesTo_S32x64x16_S32x64_d2 h_S_)

/-- A [32,64,1] array broadcast along the 16 components. -/
def bcLast (g : FVec F S32x64x1 .f32) : FVec F S32x64x16 .f32 :=
  broadcastInDim S32x64x16 ![0, 1, 2] bcast_S32x64x1_S32x64x16_0_1_2 g
/-- A float word as a constant [32,64,1] array. -/
def splat (w : BitVec 32) : FVec F S32x64x1 .f32 :=
  broadcastInDim S32x64x1 ![] bcast_S_S32x64x1 (constant S_ .f32 w)

/-- (q / (1 + q)) · u / sqrt (q + ε) with q the squared norm of u = s + bias, as the host operations spell it. -/
def hostSquash (s : FVec F S32x64x16 .f32) (bias : FVec F S64x16 .f32) : FVec F S32x64x16 .f32 :=
  Host.divf
    (mulf (bcLast (Host.divf (hostNorm (hostShift s bias)) (addf (splat 0x3F800000#32) (hostNorm (hostShift s bias))))) (hostShift s bias))
    (bcLast (Host.sqrt (addf (hostNorm (hostShift s bias)) (splat 0x33D6BF95#32))))

theorem bcLast_apply (g : FVec Ideal S32x64x1 .f32) (b : Fin 32) (o : Fin 64) (d : Fin 16) :
    bcLast g (ix3 b o d) = g (ix3 b o (0 : Fin 1)) := by
  unfold bcLast
  exact broadcastInDim_apply ![0, 1, 2] bcast_S32x64x1_S32x64x16_0_1_2 g (ix3 b o d) (ix3 b o (0 : Fin 1))
    (fun a => by match a with | ⟨0, _⟩ => rfl | ⟨1, _⟩ => rfl | ⟨2, _⟩ => rfl)
theorem splat_apply (w : BitVec 32) (j : S32x64x1.Idx) : splat (F := Ideal) w j = Ideal.ofBits .f32 w := by
  unfold splat; rw [broadcastInDim_scalar_apply]; rfl

/-- The shifted value at an index. -/
theorem hostShift_apply (s : FVec Ideal S32x64x16 .f32) (bias : FVec Ideal S64x16 .f32) (b : Fin 32) (o : Fin 64) (d : Fin 16) :
    hostShift s bias (ix3 b o d) = shifted s bias b o d := by
  unfold hostShift shifted
  rw [addf_apply]
  refine congrArg (s (ix3 b o d) + ·) ?_
  refine (broadcastInDim_apply ![0, 1, 2] bcast_S1x64x16_S32x64x16_0_1_2 _ (ix3 b o d) (ix3 (0 : Fin 1) o d) (fun a => by match a with | ⟨0, _⟩ => rfl | ⟨1, _⟩ => rfl | ⟨2, _⟩ => rfl)).trans ?_
  exact broadcastInDim_apply ![1, 2] bcast_S64x16_S1x64x16_1_2 bias (ix3 (0 : Fin 1) o d) (ix2 o d) (fun a => by match a with | ⟨0, _⟩ => rfl | ⟨1, _⟩ => rfl)

/-- The squared norm at an index: the sum over the 16 components. -/
theorem hostNorm_apply (u : FVec Ideal S32x64x16 .f32) (b : Fin 32) (o : Fin 64) :
    hostNorm u (ix3 b o (0 : Fin 1)) = ∑ d : Fin 16, u (ix3 b o d) * u (ix3 b o d) := by
  unfold hostNorm
  refine (broadcastInDim_apply ![0, 1] bcast_S32x64_S32x64x1_0_1 _ (ix3 b o (0 : Fin 1)) (ix2 b o) (fun a => by match a with | ⟨0, _⟩ => rfl | ⟨1, _⟩ => rfl)).trans ?_
  rw [hostReduceAdd_apply]
  refine (Ideal.hostReduceAdd_single reducesTo_S32x64x16_S32x64_d2 (by decide) _ _ (ix2 b o)).trans ?_
  rw [constant_apply, Ideal.ofBits_zero_f32, zero_add]
  refine Finset.sum_congr rfl fun d _ => ?_
  rw [mulf_apply]
  have e : (Shape.Reduces.lift (s := S32x64x16) (t := S32x64) (a := 2) (by decide) (ix2 b o) d) = ix3 b o d := by
    funext a; match a with | ⟨0, _⟩ => rfl | ⟨1, _⟩ => rfl | ⟨2, _⟩ => rfl
  rw [e]; rfl

/-- The host operations' squash IS the specification's. -/
theorem hostSquash_eq (s : FVec Ideal S32x64x16 .f32) (bias : FVec Ideal S64x16 .f32) :
    hostSquash s bias = Cert.Routing.squash s bias := by
  funext i
  obtain ⟨b, o, d, rfl⟩ : ∃ (b : Fin 32) (o : Fin 64) (d : Fin 16), i = ix3 b o d := ⟨i 0, i 1, i 2, eq_ix3 i⟩
  have hn : hostNorm (hostShift s bias) (ix3 b o (0 : Fin 1)) = normSq s bias b o := by
    rw [hostNorm_apply]; unfold normSq
    exact Finset.sum_congr rfl fun d' _ => by rw [hostShift_apply]
  show Ideal.div (bcLast (F := Ideal) _ (ix3 b o d) * hostShift s bias (ix3 b o d)) (bcLast (F := Ideal) _ (ix3 b o d)) = squashAt s bias b o d
  rw [bcLast_apply, bcLast_apply, hostShift_apply]
  show Ideal.div (Ideal.div (hostNorm (hostShift s bias) (ix3 b o (0 : Fin 1)))
        (splat (F := Ideal) 0x3F800000#32 (ix3 b o (0 : Fin 1)) + hostNorm (hostShift s bias) (ix3 b o (0 : Fin 1))) * shifted s bias b o d)
      (Ideal.sqrt (hostNorm (hostShift s bias) (ix3 b o (0 : Fin 1)) + splat (F := Ideal) 0x33D6BF95#32 (ix3 b o (0 : Fin 1))))
      = squashAt s bias b o d
  rw [hn, splat_apply, splat_apply]
  rfl

end Cert.KernelIdeal.Hand

end
-- ==== Proof.KI.Acc0Pay.lean ====
/-
  The accumulate kernels' stored value at an index of their [8,64,16] block: what the accumulator held there plus the sum,
  over the block's 32 input capsules q, of the input (r, q, o, d) times the agreement of capsule (r, q) with output
  capsule o — the softmax over the 64 output capsules of the logits block's row (r, q), with the row's maximum (taken
  from -∞, then once more against -∞) subtracted before the exponential.  Then the algebra between a block and the
  arrays: a block row that is an array row has that row's agreements, and the sum over the 2048 input capsules is the
  sum over 64 capsule blocks of 32.  Everything is over the extended reals.
-/
import proofs.«130725_j52982716563714_2_alg».proof.Proof.Gen.KernelIdeal.Skeleton
import proofs.«130725_j52982716563714_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- Inserting coordinate `k` on the last axis of a [8,32] index gives (r, q, k). -/
theorem lift_lane (h : S8x32x64.Reduces [2] S8x32) (r : Fin 8) (q : Fin 32) (k : Fin 64) :
    h.lift (ix2 r q) k = ix3 r q k := by
  funext a; apply Fin.ext
  match a with
  | ⟨0, _⟩ => rfl
  | ⟨1, _⟩ => rfl
  | ⟨2, _⟩ => rfl

theorem lift_cap (h : S8x32x64x16.Reduces [1] S8x64x16) (r : Fin 8) (o : Fin 64) (d : Fin 16) (k : Fin 32) :
    h.lift (ix3 r o d) k = ix4 r k o d := by
  funext a; apply Fin.ext
  match a with
  | ⟨0, _⟩ => rfl
  | ⟨1, _⟩ => rfl
  | ⟨2, _⟩ => rfl
  | ⟨3, _⟩ => rfl

theorem sum_lane (src : FVec Ideal S8x32x64 .f32) (h : S8x32x64.Reduces [2] S8x32) (hφ : FKind.Formats .f32)
    (hacc : (0x00000000#32 : BitVec 32) = FKind.add.neutral .f32 hφ) (r : Fin 8) (q : Fin 32) :
    multiReduction .add [2] S8x32 src 0x00000000#32 h hφ hacc (ix2 r q) = ∑ o : Fin 64, src (ix3 r q o) :=
  (Ideal.multiReduction_add_single src _ h hφ hacc (ix2 r q)).trans
    (Finset.sum_congr rfl fun k _ => congrArg src (lift_lane h r q k))

theorem sum_caps (src : FVec Ideal S8x32x64x16 .f32) (h : S8x32x64x16.Reduces [1] S8x64x16) (hφ : FKind.Formats .f32)
    (hacc : (0x00000000#32 : BitVec 32) = FKind.add.neutral .f32 hφ) (r : Fin 8) (o : Fin 64) (d : Fin 16) :
    multiReduction .add [1] S8x64x16 src 0x00000000#32 h hφ hacc (ix3 r o d) = ∑ q : Fin 32, src (ix4 r q o d) :=
  (Ideal.multiReduction_add_single src _ h hφ hacc (ix3 r o d)).trans
    (Finset.sum_congr rfl fun k _ => congrArg src (lift_cap h r o d k))

theorem max_lane (src : FVec Ideal S8x32x64 .f32) (h : S8x32x64.Reduces [2] S8x32) (hφ : FKind.Formats .f32)
    (hacc : (0xFF800000#32 : BitVec 32) = FKind.maximumf.neutral .f32 hφ) (r : Fin 8) (q : Fin 32) :
    multiReduction .maximumf [2] S8x32 src 0xFF800000#32 h hφ hacc (ix2 r q)
      = (Finset.univ : Finset (Fin 64)).fold max (Ideal.ofBits .f32 0xFF800000#32) fun o => src (ix3 r q o) :=
  (Ideal.multiReduction_maximumf_single src _ h hφ hacc (ix2 r q)).trans
    (congrArg (fun f => (Finset.univ : Finset (Fin 64)).fold max (Ideal.ofBits .f32 0xFF800000#32) f)
      (funext fun k => congrArg src (lift_lane h r q k)))

/-- A [8,32] vector viewed [8,32,1] and broadcast along the last axis reads (r, q) at (r, q, o). -/
theorem col3 (x : FVec Ideal S8x32 .f32) (hc : S8x32.ShapeCasts S8x32x1) (hb : S8x32x1.Broadcasts S8x32x64)
    (r : Fin 8) (q : Fin 32) (o : Fin 64) :
    broadcastTo S8x32x64 (shapeCast S8x32x1 x hc) hb (ix3 r q o) = x (ix2 r q) := by
  refine (broadcastTo_apply _ hb (ix3 r q o) (ix3 r q (0 : Fin 1)) fun a => ?_).trans
    (shapeCast_apply x hc (ix3 r q (0 : Fin 1)) (ix2 r q) ?_)
  · match a with
    | ⟨0, _⟩ => rfl
    | ⟨1, _⟩ => rfl
    | ⟨2, _⟩ => rfl
  · rw [Shape.rowMajor_val_two, Shape.rowMajor_val_three]
    show r.val * 32 + q.val = (r.val * 32 + q.val) * 1 + 0
    omega

theorem col4 (x : FVec Ideal S8x32x64 .f32) (hc : S8x32x64.ShapeCasts S8x32x64x1) (hb : S8x32x64x1.Broadcasts S8x32x64x16)
    (r : Fin 8) (q : Fin 32) (o : Fin 64) (d : Fin 16) :
    broadcastTo S8x32x64x16 (shapeCast S8x32x64x1 x hc) hb (ix4 r q o d) = x (ix3 r q o) := by
  refine (broadcastTo_apply _ hb (ix4 r q o d) (ix4 r q o (0 : Fin 1)) fun a => ?_).trans
    (shapeCast_apply x hc (ix4 r q o (0 : Fin 1)) (ix3 r q o) ?_)
  · match a with
    | ⟨0, _⟩ => rfl
    | ⟨1, _⟩ => rfl
    | ⟨2, _⟩ => rfl
    | ⟨3, _⟩ => rfl
  · rw [Shape.rowMajor_val_three, Shape.rowMajor_val_four]
    show (r.val * 32 + q.val) * 64 + o.val = ((r.val * 32 + q.val) * 64 + o.val) * 1 + 0
    omega

/-- The largest logit of the block's input capsule (r, q) over the 64 output capsules, as both programs spell it. -/
def blkMax (v : FVec Ideal S8x32x64 .f32) (r : Fin 8) (q : Fin 32) : EReal :=
  max Cert.Routing.negInfW ((Finset.univ : Finset (Fin 64)).fold max Cert.Routing.negInfW fun o => v (ix3 r q o))
/-- The shifted exponential of one logit of the block. -/
def blkExp (v : FVec Ideal S8x32x64 .f32) (r : Fin 8) (q : Fin 32) (o : Fin 64) : EReal :=
  Ideal.exp (v (ix3 r q o) - blkMax v r q)
/-- The agreement of the block's input capsule (r, q) with output capsule o. -/
def blkAgree (v : FVec Ideal S8x32x64 .f32) (r : Fin 8) (q : Fin 32) (o : Fin 64) : EReal :=
  Ideal.div (blkExp v r q o) (∑ o' : Fin 64, blkExp v r q o')

/-- The kernel's shifted exponentials of a logits block (row maximum taken with -∞ once more, kept as a unit column and
    broadcast back, subtracted, exponentiated), read at (r, q, o). -/
theorem blkExp_apply (v : FVec Ideal S8x32x64 .f32) (hr : S8x32x64.Reduces [2] S8x32) (hφ : FKind.Formats .f32)
    (hacc : (0xFF800000#32 : BitVec 32) = FKind.maximumf.neutral .f32 hφ) (hc : S8x32.ShapeCasts S8x32x1)
    (hb : S8x32x1.Broadcasts S8x32x64) (r : Fin 8) (q : Fin 32) (o : Fin 64) :
    exp (subf v (broadcastTo S8x32x64 (shapeCast S8x32x1 (maximumf (broadcast S8x32 (FloatOps.ofBits .f32 0xFF800000#32 : Ideal .f32))
      (multiReduction .maximumf [2] S8x32 v 0xFF800000#32 hr hφ hacc)) hc) hb)) (ix3 r q o) = blkExp v r q o := by
  unfold blkExp
  refine congrArg (fun z => Ideal.exp (v (ix3 r q o) - z)) ?_
  refine (col3 _ hc hb r q o).trans ?_
  unfold blkMax
  exact congrArg (max (Ideal.ofBits .f32 0xFF800000#32)) (max_lane v hr hφ hacc r q)

theorem k0_pay2_apply (v3 : FVec Ideal S8x32x64 .f32) (v16 : FVec Ideal S8x32x64x16 .f32) (v21 : FVec Ideal S8x64x16 .f32)
    (r : Fin 8) (o : Fin 64) (d : Fin 16) :
    k0_pay2 (F := Ideal) v3 v16 v21 (ix3 r o d) = v21 (ix3 r o d) + ∑ q : Fin 32, v16 (ix4 r q o d) * blkAgree v3 r q o := by
  unfold k0_pay2
  simp only [shapeCast_self]
  refine congrArg (v21 (ix3 r o d) + ·) ?_
  refine (sum_caps _ _ _ _ r o d).trans (Finset.sum_congr rfl fun q _ => ?_)
  refine congrArg (v16 (ix4 r q o d) * ·) ?_
  refine (col4 _ _ _ r q o d).trans ?_
  unfold blkAgree
  refine congrArg₂ Ideal.div (blkExp_apply v3 _ _ _ _ _ r q o) ?_
  refine (col3 _ _ _ r q o).trans ?_
  exact (sum_lane _ _ _ _ r q).trans (Finset.sum_congr rfl fun o' _ => blkExp_apply v3 _ _ _ _ _ r q o')

/-- The zero block the first step accumulates into. -/
theorem k0_pay1_apply (j : S8x64x16.Idx) : k0_pay1 (F := Ideal) j = 0 := by
  unfold k0_pay1
  rw [shapeCast_self]
  exact Ideal.ofBits_zero_f32

/-- The same for the second weighted-sum kernel (the same operations). -/
theorem k2_pay2_apply (v3 : FVec Ideal S8x32x64 .f32) (v16 : FVec Ideal S8x32x64x16 .f32) (v21 : FVec Ideal S8x64x16 .f32)
    (r : Fin 8) (o : Fin 64) (d : Fin 16) :
    k2_pay2 (F := Ideal) v3 v16 v21 (ix3 r o d) = v21 (ix3 r o d) + ∑ q : Fin 32, v16 (ix4 r q o d) * blkAgree v3 r q o := by
  unfold k2_pay2
  simp only [shapeCast_self]
  refine congrArg (v21 (ix3 r o d) + ·) ?_
  refine (sum_caps _ _ _ _ r o d).trans (Finset.sum_congr rfl fun q _ => ?_)
  refine congrArg (v16 (ix4 r q o d) * ·) ?_
  refine (col4 _ _ _ r q o d).trans ?_
  unfold blkAgree
  refine congrArg₂ Ideal.div (blkExp_apply v3 _ _ _ _ _ r q o) ?_
  refine (col3 _ _ _ r q o).trans ?_
  exact (sum_lane _ _ _ _ r q).trans (Finset.sum_congr rfl fun o' _ => blkExp_apply v3 _ _ _ _ _ r q o')

/-- The zero block the second weighted-sum kernel's first step accumulates into. -/
theorem k2_pay1_apply (j : S8x64x16.Idx) : k2_pay1 (F := Ideal) j = 0 := by
  unfold k2_pay1
  rw [shapeCast_self]
  exact Ideal.ofBits_zero_f32

/-- The same for the third weighted-sum kernel (the same operations). -/
theorem k4_pay2_apply (v3 : FVec Ideal S8x32x64 .f32) (v16 : FVec Ideal S8x32x64x16 .f32) (v21 : FVec Ideal S8x64x16 .f32)
    (r : Fin 8) (o : Fin 64) (d : Fin 16) :
    k4_pay2 (F := Ideal) v3 v16 v21 (ix3 r o d) = v21 (ix3 r o d) + ∑ q : Fin 32, v16 (ix4 r q o d) * blkAgree v3 r q o := by
  unfold k4_pay2
  simp only [shapeCast_self]
  refine congrArg (v21 (ix3 r o d) + ·) ?_
  refine (sum_caps _ _ _ _ r o d).trans (Finset.sum_congr rfl fun q _ => ?_)
  refine congrArg (v16 (ix4 r q o d) * ·) ?_
  refine (col4 _ _ _ r q o d).trans ?_
  unfold blkAgree
  refine congrArg₂ Ideal.div (blkExp_apply v3 _ _ _ _ _ r q o) ?_
  refine (col3 _ _ _ r q o).trans ?_
  exact (sum_lane _ _ _ _ r q).trans (Finset.sum_congr rfl fun o' _ => blkExp_apply v3 _ _ _ _ _ r q o')

/-- The zero block the third weighted-sum kernel's first step accumulates into. -/
theorem k4_pay1_apply (j : S8x64x16.Idx) : k4_pay1 (F := Ideal) j = 0 := by
  unfold k4_pay1
  rw [shapeCast_self]
  exact Ideal.ofBits_zero_f32

/-! ## From a block to the arrays: the agreements of a row, and the 2048 capsules as 64 blocks of 32 -/

open Cert.Routing in
/-- A logits block whose row (r, q) is the array's row (b, n) has that row's agreements. -/
theorem blkAgree_eq (v : FVec Ideal S8x32x64 .f32) (p : Cert.Routing.Pri) (r : Fin 8) (q : Fin 32) (b : Fin 32) (n : Fin 2048)
    (h : ∀ o : Fin 64, v (ix3 r q o) = p (ix3 b n o)) (o : Fin 64) :
    blkAgree v r q o = Cert.Routing.agree p b n o := by
  have hm : blkMax v r q = rowMax p b n := by
    unfold blkMax rowMax
    exact congrArg (fun f : Fin 64 → EReal => max negInfW ((Finset.univ : Finset (Fin 64)).fold max negInfW f)) (funext h)
  have he : ∀ o' : Fin 64, blkExp v r q o' = expShift p b n o' := fun o' => by
    unfold blkExp expShift
    rw [h o', hm]
  unfold blkAgree agree
  rw [he o, Finset.sum_congr rfl fun o' _ => he o']

/-- Input capsule 32·s + q of capsule block s. -/
def cap (s : ℕ) (hs : s < 64) (q : Fin 32) : Fin 2048 := ⟨32 * s + q.val, by have := q.isLt; omega⟩

/-- Capsule block s's share of the agreement-weighted sum at sample b: the sum over the block's 32 input capsules. -/
def part (x : Cert.Routing.Inp) (p : Cert.Routing.Pri) (b : Fin 32) (o : Fin 64) (d : Fin 16) (s : ℕ) : EReal :=
  if hs : s < 64 then ∑ q : Fin 32, x (ix4 b (cap s hs q) o d) * Cert.Routing.agree p b (cap s hs q) o else 0

/-- A sum over the 2048 input capsules is the sum over the 64 capsule blocks of the sums over each block's 32. -/
theorem sum_blocks {M : Type} [AddCommMonoid M] (f : Fin 2048 → M) :
    ∑ n : Fin 2048, f n = ∑ s : Fin 64, ∑ q : Fin 32, f (cap s.val s.isLt q) := by
  refine ((Equiv.sum_comp (finProdFinEquiv (m := 64) (n := 32)) f).symm.trans ?_)
  rw [Fintype.sum_prod_type]
  refine Finset.sum_congr rfl fun s _ => Finset.sum_congr rfl fun q _ => congrArg f (Fin.ext ?_)
  show q.val + 32 * s.val = 32 * s.val + q.val
  omega

/-- The agreement-weighted sum is the sum of the 64 capsule blocks' shares. -/
theorem weightedAt_eq_parts (x : Cert.Routing.Inp) (p : Cert.Routing.Pri) (b : Fin 32) (o : Fin 64) (d : Fin 16) :
    Cert.Routing.weightedAt x p b o d = ∑ s ∈ Finset.range 64, part x p b o d s := by
  unfold Cert.Routing.weightedAt
  rw [sum_blocks, Finset.sum_range]
  refine Finset.sum_congr rfl fun s _ => ?_
  unfold part
  rw [dif_pos s.isLt]

end Cert.KernelIdeal.Hand

end
-- ==== Proof.KI.Acc0Value.lean ====
/-
  The VALUE of the first weighted-sum region over the extended reals: after the region the output array holds, at
  (b, o, d), the sum over the 2048 input capsules n of the input (b, n, o, d) times the agreement of capsule (b, n) with
  output capsule o (the softmax of the logits over the output capsules).

  Grid point t = 64·i + j reads the inputs and logits blocks of samples 8·i … 8·i + 7 and input capsules 32·j … 32·j + 31;
  its body adds, at (r, o, d), that capsule block's share of the sum to the accumulator (zero at j = 0).  By induction on j
  the accumulator after point 64·i + j holds the shares of capsule blocks 0 … j; the point j = 63 writes it back as block
  i of the output, and the 64 blocks of 32 capsules are the 2048 capsules.  The four batch blocks cover the output array.
-/
import proofs.«130725_j52982716563714_2_alg».proof.Proof.KI.Acc0Defs
import proofs.«130725_j52982716563714_2_alg».proof.Proof.KI.Acc0Pay
import proofs.«130725_j52982716563714_2_alg».proof.Proof.Spec
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered, over the extended reals
variable (V : (c : Dev nD) → (b : Ref sig .tc) → Buf (Elt Ideal) ((c : Thread nD τ).loc b))

/-- The printed index maps, decided over the grid: at point t = 64·i + j the inputs block is (i, j, 0, 0), the logits
    block (i, j, 0), the output block (i, 0, 0). -/
theorem idx_facts0 : ∀ t : Fin cfg0.N,
    win0_0.index t (0 : Fin 4) = t.val / 64 ∧ win0_0.index t (1 : Fin 4) = t.val % 64
    ∧ win0_0.index t (2 : Fin 4) = 0 ∧ win0_0.index t (3 : Fin 4) = 0
    ∧ win0_1.index t (0 : Fin 3) = t.val / 64 ∧ win0_1.index t (1 : Fin 3) = t.val % 64 ∧ win0_1.index t (2 : Fin 3) = 0
    ∧ win0_2.index t (0 : Fin 3) = t.val / 64 ∧ win0_2.index t (1 : Fin 3) = 0 ∧ win0_2.index t (2 : Fin 3) = 0 :=
  (by decide +kernel : ∀ t : Fin grid0.N, _)

/-- The logits block at point t, read at the array: sample 8·(t/64) + r, input capsule 32·(t%64) + q. -/
theorem iblk0_1_apply (c : Dev nD) (t : Fin cfg0.N) (r : Fin 8) (q : Fin 32) (o : Fin 64) (b : Fin 32) (n : Fin 2048)
    (hb : b.val = 8 * (t.val / 64) + r.val) (hn : n.val = 32 * (t.val % 64) + q.val) :
    (iblk0 V c 1 t : FVec Ideal S8x32x64 .f32) (ix3 r q o) = (V c main_v0 : Cert.Routing.Pri) (ix3 b n o) := by
  obtain ⟨-, -, -, -, e0, e1, e2, -⟩ := idx_facts0 t
  unfold iblk0
  rw [View.read_apply]
  show V c main_v0 _ = V c main_v0 _
  refine congrArg (V c main_v0) (funext fun a => Fin.ext ?_)
  match a with
  | ⟨0, _⟩ => show win0_1.index t (0 : Fin 3) * 8 + 1 * r.val = b.val; omega
  | ⟨1, _⟩ => show win0_1.index t (1 : Fin 3) * 32 + 1 * q.val = n.val; omega
  | ⟨2, _⟩ => show win0_1.index t (2 : Fin 3) * 64 + 1 * o.val = o.val; omega

/-- The inputs block at point t, read at the array. -/
theorem iblk0_0_apply (c : Dev nD) (t : Fin cfg0.N) (r : Fin 8) (q : Fin 32) (o : Fin 64) (d : Fin 16) (b : Fin 32) (n : Fin 2048)
    (hb : b.val = 8 * (t.val / 64) + r.val) (hn : n.val = 32 * (t.val % 64) + q.val) :
    (iblk0 V c 0 t : FVec Ideal S8x32x64x16 .f32) (ix4 r q o d) = (V c main_arg0 : Cert.Routing.Inp) (ix4 b n o d) := by
  obtain ⟨e0, e1, e2, e3, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 4) * 8 + 1 * r.val = b.val; omega
  | ⟨1, _⟩ => show win0_0.index t (1 : Fin 4) * 32 + 1 * q.val = n.val; omega
  | ⟨2, _⟩ => show win0_0.index t (2 : Fin 4) * 64 + 1 * o.val = o.val; omega
  | ⟨3, _⟩ => show win0_0.index t (3 : Fin 4) * 16 + 1 * d.val = d.val; omega

/-- One grid point's body: the stored value at (r, o, d) is the accumulator's plus the point's capsule block's share. -/
theorem point0_apply (c : Dev nD) (t : Fin cfg0.N) (acc : FVec Ideal S8x64x16 .f32) (r : Fin 8) (o : Fin 64) (d : Fin 16)
    (b : Fin 32) (hb : b.val = 8 * (t.val / 64) + r.val) :
    k0_pay2 (F := Ideal) (iblk0 V c 1 t) (iblk0 V c 0 t) acc (ix3 r o d)
      = acc (ix3 r o d) + part (V c main_arg0) (V c main_v0) b o d (t.val % 64) := by
  refine (k0_pay2_apply _ _ _ r o d).trans ?_
  refine congrArg (acc (ix3 r o d) + ·) ?_
  have hs : t.val % 64 < 64 := Nat.mod_lt _ (by decide)
  unfold part
  rw [dif_pos hs]
  refine Finset.sum_congr rfl fun q _ => ?_
  rw [iblk0_0_apply V c t r q o d b (cap (t.val % 64) hs q) hb rfl,
    blkAgree_eq _ (V c main_v0) r q b (cap (t.val % 64) hs q) (fun o' => iblk0_1_apply V c t r q o' b (cap (t.val % 64) hs q) hb rfl) o]

/-- At the first step of a batch block the accumulator is the body's value over zeros. -/
theorem accAt0_reset (c : Dev nD) : ∀ (n : ℕ) (h : n < cfg0.N), n % 64 = 0 →
    accAt0 V c n h = k0_pay2 (iblk0 V c 1 ⟨n, h⟩) (iblk0 V c 0 ⟨n, h⟩) (k0_pay1 (F := Ideal))
  | 0, h, _ => by rw [accAt0]
  | n + 1, h, hm => by rw [accAt0, if_pos hm]

/-- At every other step it is the body's value over what the step before left. -/
theorem accAt0_step (c : Dev nD) (n : ℕ) (h : n + 1 < cfg0.N) (hm : ¬(n + 1) % 64 = 0) :
    accAt0 V c (n + 1) h = k0_pay2 (iblk0 V c 1 ⟨n + 1, h⟩) (iblk0 V c 0 ⟨n + 1, h⟩) (accAt0 V c n (Nat.lt_of_succ_lt h)) := by
  rw [accAt0, if_neg hm]

/-- After step s of batch block i the accumulator holds, at (r, o, d), the shares of capsule blocks 0 … s at sample 8·i + r:
    by induction on the step. -/
theorem accAt0_apply (c : Dev nD) (i : ℕ) (r : Fin 8) (o : Fin 64) (d : Fin 16) (b : Fin 32) (hb : b.val = 8 * i + r.val) :
    ∀ (s : ℕ) (hs : s < 64) (h : 64 * i + s < cfg0.N),
      (accAt0 V c (64 * i + s) h : FVec Ideal S8x64x16 .f32) (ix3 r o d)
        = ∑ s' ∈ Finset.range (s + 1), part (V c main_arg0) (V c main_v0) b o d s'
  | 0, hs, h => by
    rw [accAt0_reset V c _ h (by omega)]
    refine (point0_apply V c ⟨64 * i + 0, h⟩ _ r o d b (by show b.val = 8 * ((64 * i + 0) / 64) + r.val; omega)).trans ?_
    rw [Finset.sum_range_one, k0_pay1_apply, zero_add]
    exact congrArg (part (V c main_arg0) (V c main_v0) b o d) (by show (64 * i + 0) % 64 = 0; omega)
  | s + 1, hs, h => by
    have h' : 64 * i + s + 1 < cfg0.N := h
    show (accAt0 V c (64 * i + s + 1) h' : FVec Ideal S8x64x16 .f32) (ix3 r o d) = _
    rw [accAt0_step V c (64 * i + s) h' (by omega)]
    refine (point0_apply V c ⟨64 * i + s + 1, h'⟩ _ r o d b (by show b.val = 8 * ((64 * i + s + 1) / 64) + r.val; omega)).trans ?_
    rw [accAt0_apply c i r o d b hb s (by omega) (Nat.lt_of_succ_lt h'), Finset.sum_range_succ _ (s + 1)]
    exact congrArg (_ + part (V c main_arg0) (V c main_v0) b o d ·) (by show (64 * i + s + 1) % 64 = s + 1; omega)

/-- The agreement-weighted sum of the arrays the region finds, as the contents of the output window's array. -/
abbrev G0 (c : Dev nD) : Buf (Elt Ideal) ((cfg0.win 2).arr.view.loc (c.tc : Thread nD τ)) :=
  Cert.Routing.weighted (V c main_arg0) (V c main_v0)

/-- What a writing-back point (the last step of its batch block) writes back is its block of the agreement-weighted sum. -/
theorem flushed0_2_eq (c : Dev nD) (t : Fin cfg0.N) (hf : (cfg0.win 2).flush t = true) :
    (dat0 V c).flushed 2 t = ((cfg0.win 2).blk t).view.read (Elt Ideal) (G0 V c) := by
  have hN : cfg0.N = 256 := N_0
  have ht : t.val < 256 := hN ▸ t.isLt
  have h63 : t.val % 64 = 63 := (flush0_2 t).mp hf
  obtain ⟨-, -, -, -, -, -, -, e0, e1, e2⟩ := idx_facts0 t
  show (cfg0.win 2).cut (grid0.coords t) ((dat0 V c).after 2 t) = _
  rw [after0_2]
  funext y
  obtain ⟨r, o, d, rfl⟩ : ∃ (r : Fin 8) (o : Fin 64) (d : Fin 16), y = ix3 r o d :=
    ⟨y 0, y 1, y 2, eq_ix3 (n0 := 8) (n1 := 64) (n2 := 16) y⟩
  rw [View.read_apply]
  have hbl : 8 * (t.val / 64) + r.val < 32 := by have := r.isLt; omega
  have hemb : ((cfg0.win 2).blk t).view.emb (ix3 r o d) = ix3 (⟨8 * (t.val / 64) + r.val, hbl⟩ : Fin 32) o d :=
    funext fun a => Fin.ext (by
      match a with
      | ⟨0, _⟩ => show win0_2.index t (0 : Fin 3) * 8 + 1 * r.val = 8 * (t.val / 64) + r.val; omega
      | ⟨1, _⟩ => show win0_2.index t (1 : Fin 3) * 64 + 1 * o.val = o.val; omega
      | ⟨2, _⟩ => show win0_2.index t (2 : Fin 3) * 16 + 1 * d.val = d.val; omega)
  show (accAt0 V c t.val t.isLt : FVec Ideal S8x64x16 .f32) (ix3 r o d) = G0 V c (((cfg0.win 2).blk t).view.emb (ix3 r o d))
  rw [hemb]
  show _ = Cert.Routing.weightedAt (V c main_arg0) (V c main_v0) ⟨8 * (t.val / 64) + r.val, hbl⟩ o d
  rw [weightedAt_eq_parts]
  have same : ∀ (u : ℕ) (hu : u < cfg0.N), u = t.val → accAt0 V c u hu = accAt0 V c t.val t.isLt :=
    fun u hu e => by subst e; rfl
  have h' : 64 * (t.val / 64) + 63 < cfg0.N := by omega
  rw [← same _ h' (by omega)]
  exact accAt0_apply V c (t.val / 64) r o d ⟨8 * (t.val / 64) + r.val, hbl⟩ rfl 63 (by decide) h'

/-- An index of the output array is in point t's block iff each coordinate is in the block's range on its axis. -/
theorem mem_blk0_2 (t : Fin cfg0.N) (i : S32x64x16.Idx) :
    i ∈ ((cfg0.win 2).blk t).view.set ↔ ∀ a : Fin 3, win0_2.index t a * S8x64x16.size a ≤ (i a).val
      ∧ (i a).val < win0_2.index t a * S8x64x16.size a + S8x64x16.size a := by
  show i ∈ ((View.whole main_v1).slice (win0_2.rect t)).set ↔ _
  rw [View.set_slice_whole, Rect.mem_set_unit]
  exact Iff.rfl

/-- Sample b of the output is covered by the last step of batch block b / 8. -/
theorem cover0_2 (i : S32x64x16.Idx) :
    ∃ t : Fin cfg0.N, (cfg0.win 2).flush t = true ∧ i ∈ ((cfg0.win 2).blk t).view.set := by
  have hN : cfg0.N = 256 := N_0
  have h0 : (i 0).val < 32 := (i 0).isLt
  have h1 : (i 1).val < 64 := (i 1).isLt
  have h2 : (i 2).val < 16 := (i 2).isLt
  have hlt : 64 * ((i 0).val / 8) + 63 < cfg0.N := by omega
  obtain ⟨-, -, -, -, -, -, -, e0, e1, e2⟩ := idx_facts0 ⟨64 * ((i 0).val / 8) + 63, hlt⟩
  have tv : (⟨64 * ((i 0).val / 8) + 63, hlt⟩ : Fin cfg0.N).val = 64 * ((i 0).val / 8) + 63 := rfl
  refine ⟨⟨64 * ((i 0).val / 8) + 63, hlt⟩, (flush0_2 _).mpr (by omega), ?_⟩
  rw [mem_blk0_2]
  intro a
  match a with
  | ⟨0, _⟩ =>
    show win0_2.index ⟨64 * ((i 0).val / 8) + 63, hlt⟩ (0 : Fin 3) * 8 ≤ (i 0).val
      ∧ (i 0).val < win0_2.index ⟨64 * ((i 0).val / 8) + 63, hlt⟩ (0 : Fin 3) * 8 + 8
    omega
  | ⟨1, _⟩ =>
    show win0_2.index ⟨64 * ((i 0).val / 8) + 63, hlt⟩ (1 : Fin 3) * 64 ≤ (i 1).val
      ∧ (i 1).val < win0_2.index ⟨64 * ((i 0).val / 8) + 63, hlt⟩ (1 : Fin 3) * 64 + 64
    omega
  | ⟨2, _⟩ =>
    show win0_2.index ⟨64 * ((i 0).val / 8) + 63, hlt⟩ (2 : Fin 3) * 16 ≤ (i 2).val
      ∧ (i 2).val < win0_2.index ⟨64 * ((i 0).val / 8) + 63, hlt⟩ (2 : Fin 3) * 16 + 16
    omega

/-- THE REGION'S VALUE: the output array ends holding the agreement-weighted sum of the inputs and logits arrays the region
    finds. -/
theorem arrAt0_2 (c : Dev nD) :
    (dat0 (F := Ideal) V c).arrAt 2 cfg0.N = Cert.Routing.weighted (V c main_arg0) (V c main_v0) :=
  (dat0 V c).arrAt_eq_of_cover 2 (G0 V c) (flushed0_2_eq V c) cover0_2

/-- The input windows' arrays are as the region found them. -/
theorem arrAt0_0 (c : Dev nD) : (dat0 (F := Ideal) V c).arrAt 0 cfg0.N = V c main_arg0 :=
  ((dat0 V c).arrAt_in 0 rfl _).trans (A_eq0 V c 0)
theorem arrAt0_1 (c : Dev nD) : (dat0 (F := Ideal) V c).arrAt 1 cfg0.N = V c main_v0 :=
  ((dat0 V c).arrAt_in 1 rfl _).trans (A_eq0 V c 1)

end Cert.KernelIdeal.Hand

end
-- ==== Proof.KI.Acc2Value.lean ====
/-
  The VALUE of the second weighted-sum region over the extended reals: after the region the output array holds, at
  (b, o, d), the sum over the 2048 input capsules n of the input (b, n, o, d) times the agreement of capsule (b, n) with
  output capsule o (the softmax of the logits over the output capsules).

  Grid point t = 64·i + j reads the inputs and logits blocks of samples 8·i … 8·i + 7 and input capsules 32·j … 32·j + 31;
  its body adds, at (r, o, d), that capsule block's share of the sum to the accumulator (zero at j = 0).  By induction on j
  the accumulator after point 64·i + j holds the shares of capsule blocks 0 … j; the point j = 63 writes it back as block
  i of the output, and the 64 blocks of 32 capsules are the 2048 capsules.  The four batch blocks cover the output array.
-/
import proofs.«130725_j52982716563714_2_alg».proof.Proof.KI.Acc2Defs
import proofs.«130725_j52982716563714_2_alg».proof.Proof.KI.Acc0Pay
import proofs.«130725_j52982716563714_2_alg».proof.Proof.Spec
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered, over the extended reals
variable (V : (c : Dev nD) → (b : Ref sig .tc) → Buf (Elt Ideal) ((c : Thread nD τ).loc b))

/-- The printed index maps, decided over the grid: at point t = 64·i + j the inputs block is (i, j, 0, 0), the logits
    block (i, j, 0), the output block (i, 0, 0). -/
theorem idx_facts2 : ∀ t : Fin cfg2.N,
    win2_0.index t (0 : Fin 4) = t.val / 64 ∧ win2_0.index t (1 : Fin 4) = t.val % 64
    ∧ win2_0.index t (2 : Fin 4) = 0 ∧ win2_0.index t (3 : Fin 4) = 0
    ∧ win2_1.index t (0 : Fin 3) = t.val / 64 ∧ win2_1.index t (1 : Fin 3) = t.val % 64 ∧ win2_1.index t (2 : Fin 3) = 0
    ∧ win2_2.index t (0 : Fin 3) = t.val / 64 ∧ win2_2.index t (1 : Fin 3) = 0 ∧ win2_2.index t (2 : Fin 3) = 0 :=
  (by decide +kernel : ∀ t : Fin grid2.N, _)

/-- The logits block at point t, read at the array: sample 8·(t/64) + r, input capsule 32·(t%64) + q. -/
theorem iblk2_1_apply (c : Dev nD) (t : Fin cfg2.N) (r : Fin 8) (q : Fin 32) (o : Fin 64) (b : Fin 32) (n : Fin 2048)
    (hb : b.val = 8 * (t.val / 64) + r.val) (hn : n.val = 32 * (t.val % 64) + q.val) :
    (iblk2 V c 1 t : FVec Ideal S8x32x64 .f32) (ix3 r q o) = (V c main_v18 : Cert.Routing.Pri) (ix3 b n o) := by
  obtain ⟨-, -, -, -, e0, e1, e2, -⟩ := idx_facts2 t
  unfold iblk2
  rw [View.read_apply]
  show V c main_v18 _ = V c main_v18 _
  refine congrArg (V c main_v18) (funext fun a => Fin.ext ?_)
  match a with
  | ⟨0, _⟩ => show win2_1.index t (0 : Fin 3) * 8 + 1 * r.val = b.val; omega
  | ⟨1, _⟩ => show win2_1.index t (1 : Fin 3) * 32 + 1 * q.val = n.val; omega
  | ⟨2, _⟩ => show win2_1.index t (2 : Fin 3) * 64 + 1 * o.val = o.val; omega

/-- The inputs block at point t, read at the array. -/
theorem iblk2_0_apply (c : Dev nD) (t : Fin cfg2.N) (r : Fin 8) (q : Fin 32) (o : Fin 64) (d : Fin 16) (b : Fin 32) (n : Fin 2048)
    (hb : b.val = 8 * (t.val / 64) + r.val) (hn : n.val = 32 * (t.val % 64) + q.val) :
    (iblk2 V c 0 t : FVec Ideal S8x32x64x16 .f32) (ix4 r q o d) = (V c main_arg0 : Cert.Routing.Inp) (ix4 b n o d) := by
  obtain ⟨e0, e1, e2, e3, -⟩ := idx_facts2 t
  unfold iblk2
  rw [View.read_apply]
  show V c main_arg0 _ = V c main_arg0 _
  refine congrArg (V c main_arg0) (funext fun a => Fin.ext ?_)
  match a with
  | ⟨0, _⟩ => show win2_0.index t (0 : Fin 4) * 8 + 1 * r.val = b.val; omega
  | ⟨1, _⟩ => show win2_0.index t (1 : Fin 4) * 32 + 1 * q.val = n.val; omega
  | ⟨2, _⟩ => show win2_0.index t (2 : Fin 4) * 64 + 1 * o.val = o.val; omega
  | ⟨3, _⟩ => show win2_0.index t (3 : Fin 4) * 16 + 1 * d.val = d.val; omega

/-- One grid point's body: the stored value at (r, o, d) is the accumulator's plus the point's capsule block's share. -/
theorem point2_apply (c : Dev nD) (t : Fin cfg2.N) (acc : FVec Ideal S8x64x16 .f32) (r : Fin 8) (o : Fin 64) (d : Fin 16)
    (b : Fin 32) (hb : b.val = 8 * (t.val / 64) + r.val) :
    k2_pay2 (F := Ideal) (iblk2 V c 1 t) (iblk2 V c 0 t) acc (ix3 r o d)
      = acc (ix3 r o d) + part (V c main_arg0) (V c main_v18) b o d (t.val % 64) := by
  refine (k2_pay2_apply _ _ _ r o d).trans ?_
  refine congrArg (acc (ix3 r o d) + ·) ?_
  have hs : t.val % 64 < 64 := Nat.mod_lt _ (by decide)
  unfold part
  rw [dif_pos hs]
  refine Finset.sum_congr rfl fun q _ => ?_
  rw [iblk2_0_apply V c t r q o d b (cap (t.val % 64) hs q) hb rfl,
    blkAgree_eq _ (V c main_v18) r q b (cap (t.val % 64) hs q) (fun o' => iblk2_1_apply V c t r q o' b (cap (t.val % 64) hs q) hb rfl) o]

/-- At the first step of a batch block the accumulator is the body's value over zeros. -/
theorem accAt2_reset (c : Dev nD) : ∀ (n : ℕ) (h : n < cfg2.N), n % 64 = 0 →
    accAt2 V c n h = k2_pay2 (iblk2 V c 1 ⟨n, h⟩) (iblk2 V c 0 ⟨n, h⟩) (k2_pay1 (F := Ideal))
  | 0, h, _ => by rw [accAt2]
  | n + 1, h, hm => by rw [accAt2, if_pos hm]

/-- At every other step it is the body's value over what the step before left. -/
theorem accAt2_step (c : Dev nD) (n : ℕ) (h : n + 1 < cfg2.N) (hm : ¬(n + 1) % 64 = 0) :
    accAt2 V c (n + 1) h = k2_pay2 (iblk2 V c 1 ⟨n + 1, h⟩) (iblk2 V c 0 ⟨n + 1, h⟩) (accAt2 V c n (Nat.lt_of_succ_lt h)) := by
  rw [accAt2, if_neg hm]

/-- After step s of batch block i the accumulator holds, at (r, o, d), the shares of capsule blocks 0 … s at sample 8·i + r:
    by induction on the step. -/
theorem accAt2_apply (c : Dev nD) (i : ℕ) (r : Fin 8) (o : Fin 64) (d : Fin 16) (b : Fin 32) (hb : b.val = 8 * i + r.val) :
    ∀ (s : ℕ) (hs : s < 64) (h : 64 * i + s < cfg2.N),
      (accAt2 V c (64 * i + s) h : FVec Ideal S8x64x16 .f32) (ix3 r o d)
        = ∑ s' ∈ Finset.range (s + 1), part (V c main_arg0) (V c main_v18) b o d s'
  | 0, hs, h => by
    rw [accAt2_reset V c _ h (by omega)]
    refine (point2_apply V c ⟨64 * i + 0, h⟩ _ r o d b (by show b.val = 8 * ((64 * i + 0) / 64) + r.val; omega)).trans ?_
    rw [Finset.sum_range_one, k2_pay1_apply, zero_add]
    exact congrArg (part (V c main_arg0) (V c main_v18) b o d) (by show (64 * i + 0) % 64 = 0; omega)
  | s + 1, hs, h => by
    have h' : 64 * i + s + 1 < cfg2.N := h
    show (accAt2 V c (64 * i + s + 1) h' : FVec Ideal S8x64x16 .f32) (ix3 r o d) = _
    rw [accAt2_step V c (64 * i + s) h' (by omega)]
    refine (point2_apply V c ⟨64 * i + s + 1, h'⟩ _ r o d b (by show b.val = 8 * ((64 * i + s + 1) / 64) + r.val; omega)).trans ?_
    rw [accAt2_apply c i r o d b hb s (by omega) (Nat.lt_of_succ_lt h'), Finset.sum_range_succ _ (s + 1)]
    exact congrArg (_ + part (V c main_arg0) (V c main_v18) b o d ·) (by show (64 * i + s + 1) % 64 = s + 1; omega)

/-- The agreement-weighted sum of the arrays the region finds, as the contents of the output window's array. -/
abbrev G2 (c : Dev nD) : Buf (Elt Ideal) ((cfg2.win 2).arr.view.loc (c.tc : Thread nD τ)) :=
  Cert.Routing.weighted (V c main_arg0) (V c main_v18)

/-- What a writing-back point (the last step of its batch block) writes back is its block of the agreement-weighted sum. -/
theorem flushed2_2_eq (c : Dev nD) (t : Fin cfg2.N) (hf : (cfg2.win 2).flush t = true) :
    (dat2 V c).flushed 2 t = ((cfg2.win 2).blk t).view.read (Elt Ideal) (G2 V c) := by
  have hN : cfg2.N = 256 := N_2
  have ht : t.val < 256 := hN ▸ t.isLt
  have h63 : t.val % 64 = 63 := (flush2_2 t).mp hf
  obtain ⟨-, -, -, -, -, -, -, e0, e1, e2⟩ := idx_facts2 t
  show (cfg2.win 2).cut (grid2.coords t) ((dat2 V c).after 2 t) = _
  rw [after2_2]
  funext y
  obtain ⟨r, o, d, rfl⟩ : ∃ (r : Fin 8) (o : Fin 64) (d : Fin 16), y = ix3 r o d :=
    ⟨y 0, y 1, y 2, eq_ix3 (n0 := 8) (n1 := 64) (n2 := 16) y⟩
  rw [View.read_apply]
  have hbl : 8 * (t.val / 64) + r.val < 32 := by have := r.isLt; omega
  have hemb : ((cfg2.win 2).blk t).view.emb (ix3 r o d) = ix3 (⟨8 * (t.val / 64) + r.val, hbl⟩ : Fin 32) o d :=
    funext fun a => Fin.ext (by
      match a with
      | ⟨0, _⟩ => show win2_2.index t (0 : Fin 3) * 8 + 1 * r.val = 8 * (t.val / 64) + r.val; omega
      | ⟨1, _⟩ => show win2_2.index t (1 : Fin 3) * 64 + 1 * o.val = o.val; omega
      | ⟨2, _⟩ => show win2_2.index t (2 : Fin 3) * 16 + 1 * d.val = d.val; omega)
  show (accAt2 V c t.val t.isLt : FVec Ideal S8x64x16 .f32) (ix3 r o d) = G2 V c (((cfg2.win 2).blk t).view.emb (ix3 r o d))
  rw [hemb]
  show _ = Cert.Routing.weightedAt (V c main_arg0) (V c main_v18) ⟨8 * (t.val / 64) + r.val, hbl⟩ o d
  rw [weightedAt_eq_parts]
  have same : ∀ (u : ℕ) (hu : u < cfg2.N), u = t.val → accAt2 V c u hu = accAt2 V c t.val t.isLt :=
    fun u hu e => by subst e; rfl
  have h' : 64 * (t.val / 64) + 63 < cfg2.N := by omega
  rw [← same _ h' (by omega)]
  exact accAt2_apply V c (t.val / 64) r o d ⟨8 * (t.val / 64) + r.val, hbl⟩ rfl 63 (by decide) h'

/-- An index of the output array is in point t's block iff each coordinate is in the block's range on its axis. -/
theorem mem_blk2_2 (t : Fin cfg2.N) (i : S32x64x16.Idx) :
    i ∈ ((cfg2.win 2).blk t).view.set ↔ ∀ a : Fin 3, win2_2.index t a * S8x64x16.size a ≤ (i a).val
      ∧ (i a).val < win2_2.index t a * S8x64x16.size a + S8x64x16.size a := by
  show i ∈ ((View.whole main_v19).slice (win2_2.rect t)).set ↔ _
  rw [View.set_slice_whole, Rect.mem_set_unit]
  exact Iff.rfl

/-- Sample b of the output is covered by the last step of batch block b / 8. -/
theorem cover2_2 (i : S32x64x16.Idx) :
    ∃ t : Fin cfg2.N, (cfg2.win 2).flush t = true ∧ i ∈ ((cfg2.win 2).blk t).view.set := by
  have hN : cfg2.N = 256 := N_2
  have h0 : (i 0).val < 32 := (i 0).isLt
  have h1 : (i 1).val < 64 := (i 1).isLt
  have h2 : (i 2).val < 16 := (i 2).isLt
  have hlt : 64 * ((i 0).val / 8) + 63 < cfg2.N := by omega
  obtain ⟨-, -, -, -, -, -, -, e0, e1, e2⟩ := idx_facts2 ⟨64 * ((i 0).val / 8) + 63, hlt⟩
  have tv : (⟨64 * ((i 0).val / 8) + 63, hlt⟩ : Fin cfg2.N).val = 64 * ((i 0).val / 8) + 63 := rfl
  refine ⟨⟨64 * ((i 0).val / 8) + 63, hlt⟩, (flush2_2 _).mpr (by omega), ?_⟩
  rw [mem_blk2_2]
  intro a
  match a with
  | ⟨0, _⟩ =>
    show win2_2.index ⟨64 * ((i 0).val / 8) + 63, hlt⟩ (0 : Fin 3) * 8 ≤ (i 0).val
      ∧ (i 0).val < win2_2.index ⟨64 * ((i 0).val / 8) + 63, hlt⟩ (0 : Fin 3) * 8 + 8
    omega
  | ⟨1, _⟩ =>
    show win2_2.index ⟨64 * ((i 0).val / 8) + 63, hlt⟩ (1 : Fin 3) * 64 ≤ (i 1).val
      ∧ (i 1).val < win2_2.index ⟨64 * ((i 0).val / 8) + 63, hlt⟩ (1 : Fin 3) * 64 + 64
    omega
  | ⟨2, _⟩ =>
    show win2_2.index ⟨64 * ((i 0).val / 8) + 63, hlt⟩ (2 : Fin 3) * 16 ≤ (i 2).val
      ∧ (i 2).val < win2_2.index ⟨64 * ((i 0).val / 8) + 63, hlt⟩ (2 : Fin 3) * 16 + 16
    omega

/-- THE REGION'S VALUE: the output array ends holding the agreement-weighted sum of the inputs and logits arrays the region
    finds. -/
theorem arrAt2_2 (c : Dev nD) :
    (dat2 (F := Ideal) V c).arrAt 2 cfg2.N = Cert.Routing.weighted (V c main_arg0) (V c main_v18) :=
  (dat2 V c).arrAt_eq_of_cover 2 (G2 V c) (flushed2_2_eq V c) cover2_2

/-- The input windows' arrays are as the region found them. -/
theorem arrAt2_0 (c : Dev nD) : (dat2 (F := Ideal) V c).arrAt 0 cfg2.N = V c main_arg0 :=
  ((dat2 V c).arrAt_in 0 rfl _).trans (A_eq2 V c 0)
theorem arrAt2_1 (c : Dev nD) : (dat2 (F := Ideal) V c).arrAt 1 cfg2.N = V c main_v18 :=
  ((dat2 V c).arrAt_in 1 rfl _).trans (A_eq2 V c 1)

end Cert.KernelIdeal.Hand

end
-- ==== Proof.KI.Acc4Value.lean ====
/-
  The VALUE of the third weighted-sum region over the extended reals: after the region the output array holds, at
  (b, o, d), the sum over the 2048 input capsules n of the input (b, n, o, d) times the agreement of capsule (b, n) with
  output capsule o (the softmax of the logits over the output capsules).

  Grid point t = 64·i + j reads the inputs and logits blocks of samples 8·i … 8·i + 7 and input capsules 32·j … 32·j + 31;
  its body adds, at (r, o, d), that capsule block's share of the sum to the accumulator (zero at j = 0).  By induction on j
  the accumulator after point 64·i + j holds the shares of capsule blocks 0 … j; the point j = 63 writes it back as block
  i of the output, and the 64 blocks of 32 capsules are the 2048 capsules.  The four batch blocks cover the output array.
-/
import proofs.«130725_j52982716563714_2_alg».proof.Proof.KI.Acc4Defs
import proofs.«130725_j52982716563714_2_alg».proof.Proof.KI.Acc0Pay
import proofs.«130725_j52982716563714_2_alg».proof.Proof.Spec
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered, over the extended reals
variable (V : (c : Dev nD) → (b : Ref sig .tc) → Buf (Elt Ideal) ((c : Thread nD τ).loc b))

/-- The printed index maps, decided over the grid: at point t = 64·i + j the inputs block is (i, j, 0, 0), the logits
    block (i, j, 0), the output block (i, 0, 0). -/
theorem idx_facts4 : ∀ t : Fin cfg4.N,
    win4_0.index t (0 : Fin 4) = t.val / 64 ∧ win4_0.index t (1 : Fin 4) = t.val % 64
    ∧ win4_0.index t (2 : Fin 4) = 0 ∧ win4_0.index t (3 : Fin 4) = 0
    ∧ win4_1.index t (0 : Fin 3) = t.val / 64 ∧ win4_1.index t (1 : Fin 3) = t.val % 64 ∧ win4_1.index t (2 : Fin 3) = 0
    ∧ win4_2.index t (0 : Fin 3) = t.val / 64 ∧ win4_2.index t (1 : Fin 3) = 0 ∧ win4_2.index t (2 : Fin 3) = 0 :=
  (by decide +kernel : ∀ t : Fin grid4.N, _)

/-- The logits block at point t, read at the array: sample 8·(t/64) + r, input capsule 32·(t%64) + q. -/
theorem iblk4_1_apply (c : Dev nD) (t : Fin cfg4.N) (r : Fin 8) (q : Fin 32) (o : Fin 64) (b : Fin 32) (n : Fin 2048)
    (hb : b.val = 8 * (t.val / 64) + r.val) (hn : n.val = 32 * (t.val % 64) + q.val) :
    (iblk4 V c 1 t : FVec Ideal S8x32x64 .f32) (ix3 r q o) = (V c main_v36 : Cert.Routing.Pri) (ix3 b n o) := by
  obtain ⟨-, -, -, -, e0, e1, e2, -⟩ := idx_facts4 t
  unfold iblk4
  rw [View.read_apply]
  show V c main_v36 _ = V c main_v36 _
  refine congrArg (V c main_v36) (funext fun a => Fin.ext ?_)
  match a with
  | ⟨0, _⟩ => show win4_1.index t (0 : Fin 3) * 8 + 1 * r.val = b.val; omega
  | ⟨1, _⟩ => show win4_1.index t (1 : Fin 3) * 32 + 1 * q.val = n.val; omega
  | ⟨2, _⟩ => show win4_1.index t (2 : Fin 3) * 64 + 1 * o.val = o.val; omega

/-- The inputs block at point t, read at the array. -/
theorem iblk4_0_apply (c : Dev nD) (t : Fin cfg4.N) (r : Fin 8) (q : Fin 32) (o : Fin 64) (d : Fin 16) (b : Fin 32) (n : Fin 2048)
    (hb : b.val = 8 * (t.val / 64) + r.val) (hn : n.val = 32 * (t.val % 64) + q.val) :
    (iblk4 V c 0 t : FVec Ideal S8x32x64x16 .f32) (ix4 r q o d) = (V c main_arg0 : Cert.Routing.Inp) (ix4 b n o d) := by
  obtain ⟨e0, e1, e2, e3, -⟩ := idx_facts4 t
  unfold iblk4
  rw [View.read_apply]
  show V c main_arg0 _ = V c main_arg0 _
  refine congrArg (V c main_arg0) (funext fun a => Fin.ext ?_)
  match a with
  | ⟨0, _⟩ => show win4_0.index t (0 : Fin 4) * 8 + 1 * r.val = b.val; omega
  | ⟨1, _⟩ => show win4_0.index t (1 : Fin 4) * 32 + 1 * q.val = n.val; omega
  | ⟨2, _⟩ => show win4_0.index t (2 : Fin 4) * 64 + 1 * o.val = o.val; omega
  | ⟨3, _⟩ => show win4_0.index t (3 : Fin 4) * 16 + 1 * d.val = d.val; omega

/-- One grid point's body: the stored value at (r, o, d) is the accumulator's plus the point's capsule block's share. -/
theorem point4_apply (c : Dev nD) (t : Fin cfg4.N) (acc : FVec Ideal S8x64x16 .f32) (r : Fin 8) (o : Fin 64) (d : Fin 16)
    (b : Fin 32) (hb : b.val = 8 * (t.val / 64) + r.val) :
    k4_pay2 (F := Ideal) (iblk4 V c 1 t) (iblk4 V c 0 t) acc (ix3 r o d)
      = acc (ix3 r o d) + part (V c main_arg0) (V c main_v36) b o d (t.val % 64) := by
  refine (k4_pay2_apply _ _ _ r o d).trans ?_
  refine congrArg (acc (ix3 r o d) + ·) ?_
  have hs : t.val % 64 < 64 := Nat.mod_lt _ (by decide)
  unfold part
  rw [dif_pos hs]
  refine Finset.sum_congr rfl fun q _ => ?_
  rw [iblk4_0_apply V c t r q o d b (cap (t.val % 64) hs q) hb rfl,
    blkAgree_eq _ (V c main_v36) r q b (cap (t.val % 64) hs q) (fun o' => iblk4_1_apply V c t r q o' b (cap (t.val % 64) hs q) hb rfl) o]

/-- At the first step of a batch block the accumulator is the body's value over zeros. -/
theorem accAt4_reset (c : Dev nD) : ∀ (n : ℕ) (h : n < cfg4.N), n % 64 = 0 →
    accAt4 V c n h = k4_pay2 (iblk4 V c 1 ⟨n, h⟩) (iblk4 V c 0 ⟨n, h⟩) (k4_pay1 (F := Ideal))
  | 0, h, _ => by rw [accAt4]
  | n + 1, h, hm => by rw [accAt4, if_pos hm]

/-- At every other step it is the body's value over what the step before left. -/
theorem accAt4_step (c : Dev nD) (n : ℕ) (h : n + 1 < cfg4.N) (hm : ¬(n + 1) % 64 = 0) :
    accAt4 V c (n + 1) h = k4_pay2 (iblk4 V c 1 ⟨n + 1, h⟩) (iblk4 V c 0 ⟨n + 1, h⟩) (accAt4 V c n (Nat.lt_of_succ_lt h)) := by
  rw [accAt4, if_neg hm]

/-- After step s of batch block i the accumulator holds, at (r, o, d), the shares of capsule blocks 0 … s at sample 8·i + r:
    by induction on the step. -/
theorem accAt4_apply (c : Dev nD) (i : ℕ) (r : Fin 8) (o : Fin 64) (d : Fin 16) (b : Fin 32) (hb : b.val = 8 * i + r.val) :
    ∀ (s : ℕ) (hs : s < 64) (h : 64 * i + s < cfg4.N),
      (accAt4 V c (64 * i + s) h : FVec Ideal S8x64x16 .f32) (ix3 r o d)
        = ∑ s' ∈ Finset.range (s + 1), part (V c main_arg0) (V c main_v36) b o d s'
  | 0, hs, h => by
    rw [accAt4_reset V c _ h (by omega)]
    refine (point4_apply V c ⟨64 * i + 0, h⟩ _ r o d b (by show b.val = 8 * ((64 * i + 0) / 64) + r.val; omega)).trans ?_
    rw [Finset.sum_range_one, k4_pay1_apply, zero_add]
    exact congrArg (part (V c main_arg0) (V c main_v36) b o d) (by show (64 * i + 0) % 64 = 0; omega)
  | s + 1, hs, h => by
    have h' : 64 * i + s + 1 < cfg4.N := h
    show (accAt4 V c (64 * i + s + 1) h' : FVec Ideal S8x64x16 .f32) (ix3 r o d) = _
    rw [accAt4_step V c (64 * i + s) h' (by omega)]
    refine (point4_apply V c ⟨64 * i + s + 1, h'⟩ _ r o d b (by show b.val = 8 * ((64 * i + s + 1) / 64) + r.val; omega)).trans ?_
    rw [accAt4_apply c i r o d b hb s (by omega) (Nat.lt_of_succ_lt h'), Finset.sum_range_succ _ (s + 1)]
    exact congrArg (_ + part (V c main_arg0) (V c main_v36) b o d ·) (by show (64 * i + s + 1) % 64 = s + 1; omega)

/-- The agreement-weighted sum of the arrays the region finds, as the contents of the output window's array. -/
abbrev G4 (c : Dev nD) : Buf (Elt Ideal) ((cfg4.win 2).arr.view.loc (c.tc : Thread nD τ)) :=
  Cert.Routing.weighted (V c main_arg0) (V c main_v36)

/-- What a writing-back point (the last step of its batch block) writes back is its block of the agreement-weighted sum. -/
theorem flushed4_2_eq (c : Dev nD) (t : Fin cfg4.N) (hf : (cfg4.win 2).flush t = true) :
    (dat4 V c).flushed 2 t = ((cfg4.win 2).blk t).view.read (Elt Ideal) (G4 V c) := by
  have hN : cfg4.N = 256 := N_4
  have ht : t.val < 256 := hN ▸ t.isLt
  have h63 : t.val % 64 = 63 := (flush4_2 t).mp hf
  obtain ⟨-, -, -, -, -, -, -, e0, e1, e2⟩ := idx_facts4 t
  show (cfg4.win 2).cut (grid4.coords t) ((dat4 V c).after 2 t) = _
  rw [after4_2]
  funext y
  obtain ⟨r, o, d, rfl⟩ : ∃ (r : Fin 8) (o : Fin 64) (d : Fin 16), y = ix3 r o d :=
    ⟨y 0, y 1, y 2, eq_ix3 (n0 := 8) (n1 := 64) (n2 := 16) y⟩
  rw [View.read_apply]
  have hbl : 8 * (t.val / 64) + r.val < 32 := by have := r.isLt; omega
  have hemb : ((cfg4.win 2).blk t).view.emb (ix3 r o d) = ix3 (⟨8 * (t.val / 64) + r.val, hbl⟩ : Fin 32) o d :=
    funext fun a => Fin.ext (by
      match a with
      | ⟨0, _⟩ => show win4_2.index t (0 : Fin 3) * 8 + 1 * r.val = 8 * (t.val / 64) + r.val; omega
      | ⟨1, _⟩ => show win4_2.index t (1 : Fin 3) * 64 + 1 * o.val = o.val; omega
      | ⟨2, _⟩ => show win4_2.index t (2 : Fin 3) * 16 + 1 * d.val = d.val; omega)
  show (accAt4 V c t.val t.isLt : FVec Ideal S8x64x16 .f32) (ix3 r o d) = G4 V c (((cfg4.win 2).blk t).view.emb (ix3 r o d))
  rw [hemb]
  show _ = Cert.Routing.weightedAt (V c main_arg0) (V c main_v36) ⟨8 * (t.val / 64) + r.val, hbl⟩ o d
  rw [weightedAt_eq_parts]
  have same : ∀ (u : ℕ) (hu : u < cfg4.N), u = t.val → accAt4 V c u hu = accAt4 V c t.val t.isLt :=
    fun u hu e => by subst e; rfl
  have h' : 64 * (t.val / 64) + 63 < cfg4.N := by omega
  rw [← same _ h' (by omega)]
  exact accAt4_apply V c (t.val / 64) r o d ⟨8 * (t.val / 64) + r.val, hbl⟩ rfl 63 (by decide) h'

/-- An index of the output array is in point t's block iff each coordinate is in the block's range on its axis. -/
theorem mem_blk4_2 (t : Fin cfg4.N) (i : S32x64x16.Idx) :
    i ∈ ((cfg4.win 2).blk t).view.set ↔ ∀ a : Fin 3, win4_2.index t a * S8x64x16.size a ≤ (i a).val
      ∧ (i a).val < win4_2.index t a * S8x64x16.size a + S8x64x16.size a := by
  show i ∈ ((View.whole main_v37).slice (win4_2.rect t)).set ↔ _
  rw [View.set_slice_whole, Rect.mem_set_unit]
  exact Iff.rfl

/-- Sample b of the output is covered by the last step of batch block b / 8. -/
theorem cover4_2 (i : S32x64x16.Idx) :
    ∃ t : Fin cfg4.N, (cfg4.win 2).flush t = true ∧ i ∈ ((cfg4.win 2).blk t).view.set := by
  have hN : cfg4.N = 256 := N_4
  have h0 : (i 0).val < 32 := (i 0).isLt
  have h1 : (i 1).val < 64 := (i 1).isLt
  have h2 : (i 2).val < 16 := (i 2).isLt
  have hlt : 64 * ((i 0).val / 8) + 63 < cfg4.N := by omega
  obtain ⟨-, -, -, -, -, -, -, e0, e1, e2⟩ := idx_facts4 ⟨64 * ((i 0).val / 8) + 63, hlt⟩
  have tv : (⟨64 * ((i 0).val / 8) + 63, hlt⟩ : Fin cfg4.N).val = 64 * ((i 0).val / 8) + 63 := rfl
  refine ⟨⟨64 * ((i 0).val / 8) + 63, hlt⟩, (flush4_2 _).mpr (by omega), ?_⟩
  rw [mem_blk4_2]
  intro a
  match a with
  | ⟨0, _⟩ =>
    show win4_2.index ⟨64 * ((i 0).val / 8) + 63, hlt⟩ (0 : Fin 3) * 8 ≤ (i 0).val
      ∧ (i 0).val < win4_2.index ⟨64 * ((i 0).val / 8) + 63, hlt⟩ (0 : Fin 3) * 8 + 8
    omega
  | ⟨1, _⟩ =>
    show win4_2.index ⟨64 * ((i 0).val / 8) + 63, hlt⟩ (1 : Fin 3) * 64 ≤ (i 1).val
      ∧ (i 1).val < win4_2.index ⟨64 * ((i 0).val / 8) + 63, hlt⟩ (1 : Fin 3) * 64 + 64
    omega
  | ⟨2, _⟩ =>
    show win4_2.index ⟨64 * ((i 0).val / 8) + 63, hlt⟩ (2 : Fin 3) * 16 ≤ (i 2).val
      ∧ (i 2).val < win4_2.index ⟨64 * ((i 0).val / 8) + 63, hlt⟩ (2 : Fin 3) * 16 + 16
    omega

/-- THE REGION'S VALUE: the output array ends holding the agreement-weighted sum of the inputs and logits arrays the region
    finds. -/
theorem arrAt4_2 (c : Dev nD) :
    (dat4 (F := Ideal) V c).arrAt 2 cfg4.N = Cert.Routing.weighted (V c main_arg0) (V c main_v36) :=
  (dat4 V c).arrAt_eq_of_cover 2 (G4 V c) (flushed4_2_eq V c) cover4_2

/-- The input windows' arrays are as the region found them. -/
theorem arrAt4_0 (c : Dev nD) : (dat4 (F := Ideal) V c).arrAt 0 cfg4.N = V c main_arg0 :=
  ((dat4 V c).arrAt_in 0 rfl _).trans (A_eq4 V c 0)
theorem arrAt4_1 (c : Dev nD) : (dat4 (F := Ideal) V c).arrAt 1 cfg4.N = V c main_v36 :=
  ((dat4 V c).arrAt_in 1 rfl _).trans (A_eq4 V c 1)

end Cert.KernelIdeal.Hand

end
-- ==== Proof.KI.Upd1Value.lean ====
/-
  The first logits-update region, read over the extended reals: the new-logits array after the region is the update
  p'(b, n, o) = p(b, n, o) + Σ_d x(b, n, o, d) · v(b, o, d) of the three arrays the region is entered with, as ONE function.
  The body's payload at an index; each window's block index at a grid point t = 64·i + j (batch block i = t / 64,
  input-capsule block j = t % 64), decided over the grid; each input block as the rows of its array; what point t writes
  back; the blocks cover the array (row (b, n) is in the block of point 64·(b / 8) + n / 32).
-/
import proofs.«130725_j52982716563714_2_alg».proof.Proof.KI.Upd1Defs
import proofs.«130725_j52982716563714_2_alg».proof.Proof.Spec
import proofs.«130725_j52982716563714_2_alg».proof.Proof.LaunchKernelIdeal
import Idealize.ShloMosaic.Lib.Pipeline.Value
import Idealize.ShloMosaic.Lib.ValueIdx
import Idealize.ShloMosaic.PureOps.Ideal.Laws
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered, over the extended reals
variable (V : (c : Dev nD) → (b : Ref sig .tc) → Buf (Elt Ideal) ((c : Thread nD τ).loc b))

/-! ## The body's payload at an index -/

/-- The sum over the 16 components, read at (b, n, o). -/
theorem laneSum1 (src : FVec Ideal S8x32x64x16 .f32) (h : S8x32x64x16.Reduces [3] S8x32x64) (hφ : FKind.Formats .f32)
    (hacc : (0x00000000#32 : BitVec 32) = FKind.add.neutral .f32 hφ) (b : Fin 8) (n : Fin 32) (o : Fin 64) :
    multiReduction .add [3] S8x32x64 src 0x00000000#32 h hφ hacc (ix3 b n o) = ∑ d : Fin 16, src (ix4 b n o d) := by
  refine (Ideal.multiReduction_add_single src 0x00000000#32 h hφ hacc (ix3 b n o)).trans ?_
  refine Finset.sum_congr rfl fun d _ => congrArg src ?_
  funext a; apply Fin.ext
  match a with
  | ⟨0, _⟩ => rfl
  | ⟨1, _⟩ => rfl
  | ⟨2, _⟩ => rfl
  | ⟨3, _⟩ => rfl

/-- The outputs block, given a unit axis for the input capsules and repeated along it, read at (b, n, o, d): the
    outputs block at (b, o, d). -/
theorem bcast1 (x1 : Vec Ideal S8x64x16 .f32) (h1 : S8x64x16.ShapeCasts S8x1x64x16) (h2 : S8x1x64x16.Broadcasts S8x32x64x16)
    (b : Fin 8) (n : Fin 32) (o : Fin 64) (d : Fin 16) :
    broadcastTo S8x32x64x16 (shapeCast S8x1x64x16 x1 h1) h2 (ix4 b n o d) = x1 (ix3 b o d) := by
  refine (broadcastTo_apply _ h2 (ix4 b n o d) (ix4 b (0 : Fin 1) o d) ?_).trans ?_
  · intro a
    match a with
    | ⟨0, _⟩ => rfl
    | ⟨1, _⟩ => rfl
    | ⟨2, _⟩ => rfl
    | ⟨3, _⟩ => rfl
  · refine shapeCast_apply x1 h1 (ix4 b (0 : Fin 1) o d) (ix3 b o d) ?_
    rw [Shape.rowMajor_val_three, Shape.rowMajor_val_four]
    show ((b.val * 64 + o.val) * 16 + d.val) = (((b.val * 1 + 0) * 64 + o.val) * 16 + d.val)
    omega

/-- The body's payload at (b, n, o): the logit plus the inner product of the input vector with the output capsule's. -/
theorem pay1_at (x0 : Vec Ideal S8x32x64x16 .f32) (x1 : Vec Ideal S8x64x16 .f32) (x2 : Vec Ideal S8x32x64 .f32)
    (b : Fin 8) (n : Fin 32) (o : Fin 64) :
    k1_pay1 (F := Ideal) x0 x1 x2 (ix3 b n o) = x2 (ix3 b n o) + ∑ d : Fin 16, x0 (ix4 b n o d) * x1 (ix3 b o d) := by
  unfold k1_pay1
  simp only [shapeCast_self]
  rw [addf_apply]
  congr 1
  refine (laneSum1 _ _ _ _ b n o).trans ?_
  refine Finset.sum_congr rfl fun d _ => ?_
  rw [mulf_apply]
  congr 1
  exact bcast1 x1 _ _ b n o d

/-- The same at any index of the block. -/
theorem pay1_block (x0 : Vec Ideal S8x32x64x16 .f32) (x1 : Vec Ideal S8x64x16 .f32) (x2 : Vec Ideal S8x32x64 .f32) (y : S8x32x64.Idx) :
    k1_pay1 (F := Ideal) x0 x1 x2 y
      = x2 (ix3 (y 0) (y 1) (y 2)) + ∑ d : Fin 16, x0 (ix4 (y 0) (y 1) (y 2) d) * x1 (ix3 (y 0) (y 2) d) := by
  obtain ⟨b, n, o, rfl⟩ : ∃ (b : Fin 8) (n : Fin 32) (o : Fin 64), y = ix3 b n o := ⟨y 0, y 1, y 2, eq_ix3 y⟩
  exact pay1_at x0 x1 x2 b n o

/-! ## The index maps, decided over the grid -/

/-- Point t = 64·i + j: every window's block index on the batch axis is i = t / 64; the inputs', the logits' and the new
    logits' on the input-capsule axis is j = t % 64; every other is 0. -/
theorem idx1 : ∀ t : Fin cfg1.N,
    win1_0.index t (0 : Fin 4) = t.val / 64 ∧ win1_0.index t (1 : Fin 4) = t.val % 64 ∧ win1_0.index t (2 : Fin 4) = 0 ∧ win1_0.index t (3 : Fin 4) = 0
    ∧ win1_1.index t (0 : Fin 3) = t.val / 64 ∧ win1_1.index t (1 : Fin 3) = 0 ∧ win1_1.index t (2 : Fin 3) = 0
    ∧ win1_2.index t (0 : Fin 3) = t.val / 64 ∧ win1_2.index t (1 : Fin 3) = t.val % 64 ∧ win1_2.index t (2 : Fin 3) = 0
    ∧ win1_3.index t (0 : Fin 3) = t.val / 64 ∧ win1_3.index t (1 : Fin 3) = t.val % 64 ∧ win1_3.index t (2 : Fin 3) = 0 :=
  (by decide +kernel : ∀ t : Fin grid1.N, _)

theorem hz1_3 : (![0, 0, 0] : Fin 3 → Nat) = fun _ => 0 := funext fun a => by fin_cases a <;> rfl
theorem hz1_4 : (![0, 0, 0, 0] : Fin 4 → Nat) = fun _ => 0 := funext fun a => by fin_cases a <;> rfl

/-! ## Each input block at an index, as the array it is read off -/

/-- The inputs block of point t at (b, n, o, d) is the inputs array at (8·(t/64) + b, 32·(t%64) + n, o, d). -/
theorem iblk1_0_apply (c : Dev nD) (t : Fin cfg1.N) (k : S8x32x64x16.Idx) (k' : S32x2048x64x16.Idx)
    (h0 : (k' 0).val = t.val / 64 * 8 + (k 0).val) (h1 : (k' 1).val = t.val % 64 * 32 + (k 1).val)
    (h2 : (k' 2).val = (k 2).val) (h3 : (k' 3).val = (k 3).val) :
    (iblk1 V c 0 t : Vec Ideal S8x32x64x16 .f32) k = (V c main_arg0 : S32x2048x64x16.Idx → Elt Ideal .f32) k' := by
  obtain ⟨e0, e1, e2, e3, -⟩ := idx1 t
  unfold iblk1
  rw [View.read_apply]
  show V c main_arg0 _ = V c main_arg0 _
  congr 1
  funext a; apply Fin.ext
  match a with
  | ⟨0, _⟩ => show win1_0.index t 0 * 8 + 1 * (k 0).val = (k' 0).val; rw [e0, h0]; omega
  | ⟨1, _⟩ => show win1_0.index t 1 * 32 + 1 * (k 1).val = (k' 1).val; rw [e1, h1]; omega
  | ⟨2, _⟩ => show win1_0.index t 2 * 64 + 1 * (k 2).val = (k' 2).val; rw [e2, h2]; omega
  | ⟨3, _⟩ => show win1_0.index t 3 * 16 + 1 * (k 3).val = (k' 3).val; rw [e3, h3]; omega

/-- The outputs block of point t at (b, o, d) is the outputs array at (8·(t/64) + b, o, d). -/
theorem iblk1_1_apply (c : Dev nD) (t : Fin cfg1.N) (k : S8x64x16.Idx) (k' : S32x64x16.Idx)
    (h0 : (k' 0).val = t.val / 64 * 8 + (k 0).val) (h1 : (k' 1).val = (k 1).val) (h2 : (k' 2).val = (k 2).val) :
    (iblk1 V c 1 t : Vec Ideal S8x64x16 .f32) k = (V c main_v17 : S32x64x16.Idx → Elt Ideal .f32) k' := by
  obtain ⟨-, -, -, -, e0, e1, e2, -⟩ := idx1 t
  unfold iblk1
  rw [View.read_apply]
  show V c main_v17 _ = V c main_v17 _
  congr 1
  funext a; apply Fin.ext
  match a with
  | ⟨0, _⟩ => show win1_1.index t 0 * 8 + 1 * (k 0).val = (k' 0).val; rw [e0, h0]; omega
  | ⟨1, _⟩ => show win1_1.index t 1 * 64 + 1 * (k 1).val = (k' 1).val; rw [e1, h1]; omega
  | ⟨2, _⟩ => show win1_1.index t 2 * 16 + 1 * (k 2).val = (k' 2).val; rw [e2, h2]; omega

/-- The logits block of point t at (b, n, o) is the logits array at (8·(t/64) + b, 32·(t%64) + n, o). -/
theorem iblk1_2_apply (c : Dev nD) (t : Fin cfg1.N) (k : S8x32x64.Idx) (k' : S32x2048x64.Idx)
    (h0 : (k' 0).val = t.val / 64 * 8 + (k 0).val) (h1 : (k' 1).val = t.val % 64 * 32 + (k 1).val) (h2 : (k' 2).val = (k 2).val) :
    (iblk1 V c 2 t : Vec Ideal S8x32x64 .f32) k = (V c main_v0 : S32x2048x64.Idx → Elt Ideal .f32) k' := by
  obtain ⟨-, -, -, -, -, -, -, e0, e1, e2, -⟩ := idx1 t
  unfold iblk1
  rw [View.read_apply]
  show V c main_v0 _ = V c main_v0 _
  congr 1
  funext a; apply Fin.ext
  match a with
  | ⟨0, _⟩ => show win1_2.index t 0 * 8 + 1 * (k 0).val = (k' 0).val; rw [e0, h0]; omega
  | ⟨1, _⟩ => show win1_2.index t 1 * 32 + 1 * (k 1).val = (k' 1).val; rw [e1, h1]; omega
  | ⟨2, _⟩ => show win1_2.index t 2 * 64 + 1 * (k 2).val = (k' 2).val; rw [e2, h2]; omega

/-! ## What each point writes back -/

/-- Point t writes back block t of the update of the three arrays the region is entered with. -/
theorem flushed1_3_eq (c : Dev nD) (t : Fin cfg1.N) :
    (dat1 (F := Ideal) V c).flushed 3 t
      = ((cfg1.win 3).blk t).view.read (Elt Ideal) (Cert.Routing.update (V c main_arg0) (V c main_v17) (V c main_v0)) := by
  show (cfg1.win 3).cut (grid1.coords t) ((dat1 V c).after 3 t) = _
  rw [after1_3]
  unfold out1_3
  rw [View.canon_unit_zero hz1_3]
  simp only [View.ld_unit_zero (S := S8x32x64x16) hz1_4, View.ld_unit_zero (S := S8x64x16) hz1_3, View.ld_unit_zero (S := S8x32x64) hz1_3]
  obtain ⟨-, -, -, -, -, -, -, -, -, -, e0, e1, e2⟩ := idx1 t
  funext j
  show k1_pay1 (F := Ideal) (iblk1 V c 0 t) (iblk1 V c 1 t) (iblk1 V c 2 t) ((win1 3).xinj (grid1.coords t) j)
    = Cert.Routing.update (V c main_arg0) (V c main_v17) (V c main_v0) (((cfg1.win 3).blk t).view.emb j)
  refine (pay1_block _ _ _ _).trans ?_
  have hI0 : ((((cfg1.win 3).blk t).view.emb j) 0).val = t.val / 64 * 8 + (j 0).val := by
    show win1_3.index t 0 * 8 + 1 * (j 0).val = _; rw [e0]; omega
  have hI1 : ((((cfg1.win 3).blk t).view.emb j) 1).val = t.val % 64 * 32 + (j 1).val := by
    show win1_3.index t 1 * 32 + 1 * (j 1).val = _; rw [e1]; omega
  have hI2 : ((((cfg1.win 3).blk t).view.emb j) 2).val = (j 2).val := by
    show win1_3.index t 2 * 64 + 1 * (j 2).val = _; rw [e2]; omega
  unfold Cert.Routing.update Cert.Routing.updateAt
  refine congrArg₂ (· + ·) ?_ (Finset.sum_congr rfl fun d _ => congrArg₂ (· * ·) ?_ ?_)
  · exact iblk1_2_apply V c t _ _ hI0 hI1 hI2
  · exact iblk1_0_apply V c t _ _ hI0 hI1 hI2 rfl
  · exact iblk1_1_apply V c t _ _ hI0 hI2 rfl

/-! ## The blocks cover the array -/

/-- An index of the new-logits array is in point t's block iff each coordinate is in the block's range on its axis. -/
theorem mem_blk1_3 (t : Fin cfg1.N) (i : S32x2048x64.Idx) :
    i ∈ ((cfg1.win 3).blk t).view.set ↔ ∀ a : Fin 3, win1_3.index t a * S8x32x64.size a ≤ (i a).val ∧ (i a).val < win1_3.index t a * S8x32x64.size a + S8x32x64.size a := by
  show i ∈ ((View.whole main_v18).slice (win1_3.rect t)).set ↔ _
  rw [View.set_slice_whole, Rect.mem_set_unit]
  exact Iff.rfl

/-- Row (b, n) of the array is in the block of point 64·(b / 8) + n / 32, which is written back like every point. -/
theorem covered1_3 (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hN : grid1.N = 256 := N_1
  have hlt : 64 * ((i 0).val / 8) + (i 1).val / 32 < grid1.N := by rw [hN]; omega
  obtain ⟨-, -, -, -, -, -, -, -, -, -, e0, e1, e2⟩ := idx1 ⟨64 * ((i 0).val / 8) + (i 1).val / 32, hlt⟩
  refine ⟨⟨64 * ((i 0).val / 8) + (i 1).val / 32, hlt⟩, flush1_3 _, ?_⟩
  rw [mem_blk1_3]
  intro a
  match a with
  | ⟨0, _⟩ =>
    show win1_3.index ⟨64 * ((i 0).val / 8) + (i 1).val / 32, hlt⟩ 0 * 8 ≤ (i 0).val
      ∧ (i 0).val < win1_3.index ⟨64 * ((i 0).val / 8) + (i 1).val / 32, hlt⟩ 0 * 8 + 8
    rw [e0]; simp only; omega
  | ⟨1, _⟩ =>
    show win1_3.index ⟨64 * ((i 0).val / 8) + (i 1).val / 32, hlt⟩ 1 * 32 ≤ (i 1).val
      ∧ (i 1).val < win1_3.index ⟨64 * ((i 0).val / 8) + (i 1).val / 32, hlt⟩ 1 * 32 + 32
    rw [e1]; simp only; omega
  | ⟨2, _⟩ =>
    show win1_3.index ⟨64 * ((i 0).val / 8) + (i 1).val / 32, hlt⟩ 2 * 64 ≤ (i 2).val
      ∧ (i 2).val < win1_3.index ⟨64 * ((i 0).val / 8) + (i 1).val / 32, hlt⟩ 2 * 64 + 64
    rw [e2]; omega

/-! ## The region's output array -/

/-- The new-logits array after the region: the update of the inputs, outputs and logits arrays the region is entered
    with, as one function. -/
theorem arrAt1_3 (c : Dev nD) :
    (dat1 (F := Ideal) V c).arrAt 3 cfg1.N = Cert.Routing.update (V c main_arg0) (V c main_v17) (V c main_v0) :=
  (dat1 (F := Ideal) V c).arrAt_eq_of_cover 3 _ (fun t _ => flushed1_3_eq V c t) covered1_3

end Cert.KernelIdeal.Hand

end
-- ==== Proof.KI.Upd3Value.lean ====
/-
  The second logits-update region, read over the extended reals: the new-logits array after the region is the update
  p'(b, n, o) = p(b, n, o) + Σ_d x(b, n, o, d) · v(b, o, d) of the three arrays the region is entered with, as ONE function.
  The body's payload at an index; each window's block index at a grid point t = 64·i + j (batch block i = t / 64,
  input-capsule block j = t % 64), decided over the grid; each input block as the rows of its array; what point t writes
  back; the blocks cover the array (row (b, n) is in the block of point 64·(b / 8) + n / 32).
-/
import proofs.«130725_j52982716563714_2_alg».proof.Proof.KI.Upd3Defs
import proofs.«130725_j52982716563714_2_alg».proof.Proof.Spec
import proofs.«130725_j52982716563714_2_alg».proof.Proof.LaunchKernelIdeal
import Idealize.ShloMosaic.Lib.Pipeline.Value
import Idealize.ShloMosaic.Lib.ValueIdx
import Idealize.ShloMosaic.PureOps.Ideal.Laws
import proofs.«130725_j52982716563714_2_alg».proof.Proof.Gen.KernelIdeal.Skeleton
import proofs.«130725_j52982716563714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered, over the extended reals
variable (V : (c : Dev nD) → (b : Ref sig .tc) → Buf (Elt Ideal) ((c : Thread nD τ).loc b))

/-! ## The body's payload at an index -/

/-- The sum over the 16 components, read at (b, n, o). -/
theorem laneSum3 (src : FVec Ideal S8x32x64x16 .f32) (h : S8x32x64x16.Reduces [3] S8x32x64) (hφ : FKind.Formats .f32)
    (hacc : (0x00000000#32 : BitVec 32) = FKind.add.neutral .f32 hφ) (b : Fin 8) (n : Fin 32) (o : Fin 64) :
    multiReduction .add [3] S8x32x64 src 0x00000000#32 h hφ hacc (ix3 b n o) = ∑ d : Fin 16, src (ix4 b n o d) := by
  refine (Ideal.multiReduction_add_single src 0x00000000#32 h hφ hacc (ix3 b n o)).trans ?_
  refine Finset.sum_congr rfl fun d _ => congrArg src ?_
  funext a; apply Fin.ext
  match a with
  | ⟨0, _⟩ => rfl
  | ⟨1, _⟩ => rfl
  | ⟨2, _⟩ => rfl
  | ⟨3, _⟩ => rfl

/-- The outputs block, given a unit axis for the input capsules and repeated along it, read at (b, n, o, d): the
    outputs block at (b, o, d). -/
theorem bcast3 (x1 : Vec Ideal S8x64x16 .f32) (h1 : S8x64x16.ShapeCasts S8x1x64x16) (h2 : S8x1x64x16.Broadcasts S8x32x64x16)
    (b : Fin 8) (n : Fin 32) (o : Fin 64) (d : Fin 16) :
    broadcastTo S8x32x64x16 (shapeCast S8x1x64x16 x1 h1) h2 (ix4 b n o d) = x1 (ix3 b o d) := by
  refine (broadcastTo_apply _ h2 (ix4 b n o d) (ix4 b (0 : Fin 1) o d) ?_).trans ?_
  · intro a
    match a with
    | ⟨0, _⟩ => rfl
    | ⟨1, _⟩ => rfl
    | ⟨2, _⟩ => rfl
    | ⟨3, _⟩ => rfl
  · refine shapeCast_apply x1 h1 (ix4 b (0 : Fin 1) o d) (ix3 b o d) ?_
    rw [Shape.rowMajor_val_three, Shape.rowMajor_val_four]
    show ((b.val * 64 + o.val) * 16 + d.val) = (((b.val * 1 + 0) * 64 + o.val) * 16 + d.val)
    omega

/-- The body's payload at (b, n, o): the logit plus the inner product of the input vector with the output capsule's. -/
theorem pay3_at (x0 : Vec Ideal S8x32x64x16 .f32) (x1 : Vec Ideal S8x64x16 .f32) (x2 : Vec Ideal S8x32x64 .f32)
    (b : Fin 8) (n : Fin 32) (o : Fin 64) :
    k3_pay1 (F := Ideal) x0 x1 x2 (ix3 b n o) = x2 (ix3 b n o) + ∑ d : Fin 16, x0 (ix4 b n o d) * x1 (ix3 b o d) := by
  unfold k3_pay1
  simp only [shapeCast_self]
  rw [addf_apply]
  congr 1
  refine (laneSum3 _ _ _ _ b n o).trans ?_
  refine Finset.sum_congr rfl fun d _ => ?_
  rw [mulf_apply]
  congr 1
  exact bcast3 x1 _ _ b n o d

/-- The same at any index of the block. -/
theorem pay3_block (x0 : Vec Ideal S8x32x64x16 .f32) (x1 : Vec Ideal S8x64x16 .f32) (x2 : Vec Ideal S8x32x64 .f32) (y : S8x32x64.Idx) :
    k3_pay1 (F := Ideal) x0 x1 x2 y
      = x2 (ix3 (y 0) (y 1) (y 2)) + ∑ d : Fin 16, x0 (ix4 (y 0) (y 1) (y 2) d) * x1 (ix3 (y 0) (y 2) d) := by
  obtain ⟨b, n, o, rfl⟩ : ∃ (b : Fin 8) (n : Fin 32) (o : Fin 64), y = ix3 b n o := ⟨y 0, y 1, y 2, eq_ix3 y⟩
  exact pay3_at x0 x1 x2 b n o

/-! ## The index maps, decided over the grid -/

/-- Point t = 64·i + j: every window's block index on the batch axis is i = t / 64; the inputs', the logits' and the new
    logits' on the input-capsule axis is j = t % 64; every other is 0. -/
theorem idx3 : ∀ t : Fin cfg3.N,
    win3_0.index t (0 : Fin 4) = t.val / 64 ∧ win3_0.index t (1 : Fin 4) = t.val % 64 ∧ win3_0.index t (2 : Fin 4) = 0 ∧ win3_0.index t (3 : Fin 4) = 0
    ∧ win3_1.index t (0 : Fin 3) = t.val / 64 ∧ win3_1.index t (1 : Fin 3) = 0 ∧ win3_1.index t (2 : Fin 3) = 0
    ∧ win3_2.index t (0 : Fin 3) = t.val / 64 ∧ win3_2.index t (1 : Fin 3) = t.val % 64 ∧ win3_2.index t (2 : Fin 3) = 0
    ∧ win3_3.index t (0 : Fin 3) = t.val / 64 ∧ win3_3.index t (1 : Fin 3) = t.val % 64 ∧ win3_3.index t (2 : Fin 3) = 0 :=
  (by decide +kernel : ∀ t : Fin grid3.N, _)

theorem hzU3_3 : (![0, 0, 0] : Fin 3 → Nat) = fun _ => 0 := funext fun a => by fin_cases a <;> rfl
theorem hzU3_4 : (![0, 0, 0, 0] : Fin 4 → Nat) = fun _ => 0 := funext fun a => by fin_cases a <;> rfl

/-! ## Each input block at an index, as the array it is read off -/

/-- The inputs block of point t at (b, n, o, d) is the inputs array at (8·(t/64) + b, 32·(t%64) + n, o, d). -/
theorem iblk3_0_apply (c : Dev nD) (t : Fin cfg3.N) (k : S8x32x64x16.Idx) (k' : S32x2048x64x16.Idx)
    (h0 : (k' 0).val = t.val / 64 * 8 + (k 0).val) (h1 : (k' 1).val = t.val % 64 * 32 + (k 1).val)
    (h2 : (k' 2).val = (k 2).val) (h3 : (k' 3).val = (k 3).val) :
    (iblk3 V c 0 t : Vec Ideal S8x32x64x16 .f32) k = (V c main_arg0 : S32x2048x64x16.Idx → Elt Ideal .f32) k' := by
  obtain ⟨e0, e1, e2, e3, -⟩ := idx3 t
  unfold iblk3
  rw [View.read_apply]
  show V c main_arg0 _ = V c main_arg0 _
  congr 1
  funext a; apply Fin.ext
  match a with
  | ⟨0, _⟩ => show win3_0.index t 0 * 8 + 1 * (k 0).val = (k' 0).val; rw [e0, h0]; omega
  | ⟨1, _⟩ => show win3_0.index t 1 * 32 + 1 * (k 1).val = (k' 1).val; rw [e1, h1]; omega
  | ⟨2, _⟩ => show win3_0.index t 2 * 64 + 1 * (k 2).val = (k' 2).val; rw [e2, h2]; omega
  | ⟨3, _⟩ => show win3_0.index t 3 * 16 + 1 * (k 3).val = (k' 3).val; rw [e3, h3]; omega

/-- The outputs block of point t at (b, o, d) is the outputs array at (8·(t/64) + b, o, d). -/
theorem iblk3_1_apply (c : Dev nD) (t : Fin cfg3.N) (k : S8x64x16.Idx) (k' : S32x64x16.Idx)
    (h0 : (k' 0).val = t.val / 64 * 8 + (k 0).val) (h1 : (k' 1).val = (k 1).val) (h2 : (k' 2).val = (k 2).val) :
    (iblk3 V c 1 t : Vec Ideal S8x64x16 .f32) k = (V c main_v35 : S32x64x16.Idx → Elt Ideal .f32) k' := by
  obtain ⟨-, -, -, -, e0, e1, e2, -⟩ := idx3 t
  unfold iblk3
  rw [View.read_apply]
  show V c main_v35 _ = V c main_v35 _
  congr 1
  funext a; apply Fin.ext
  match a with
  | ⟨0, _⟩ => show win3_1.index t 0 * 8 + 1 * (k 0).val = (k' 0).val; rw [e0, h0]; omega
  | ⟨1, _⟩ => show win3_1.index t 1 * 64 + 1 * (k 1).val = (k' 1).val; rw [e1, h1]; omega
  | ⟨2, _⟩ => show win3_1.index t 2 * 16 + 1 * (k 2).val = (k' 2).val; rw [e2, h2]; omega

/-- The logits block of point t at (b, n, o) is the logits array at (8·(t/64) + b, 32·(t%64) + n, o). -/
theorem iblk3_2_apply (c : Dev nD) (t : Fin cfg3.N) (k : S8x32x64.Idx) (k' : S32x2048x64.Idx)
    (h0 : (k' 0).val = t.val / 64 * 8 + (k 0).val) (h1 : (k' 1).val = t.val % 64 * 32 + (k 1).val) (h2 : (k' 2).val = (k 2).val) :
    (iblk3 V c 2 t : Vec Ideal S8x32x64 .f32) k = (V c main_v18 : S32x2048x64.Idx → Elt Ideal .f32) k' := by
  obtain ⟨-, -, -, -, -, -, -, e0, e1, e2, -⟩ := idx3 t
  unfold iblk3
  rw [View.read_apply]
  show V c main_v18 _ = V c main_v18 _
  congr 1
  funext a; apply Fin.ext
  match a with
  | ⟨0, _⟩ => show win3_2.index t 0 * 8 + 1 * (k 0).val = (k' 0).val; rw [e0, h0]; omega
  | ⟨1, _⟩ => show win3_2.index t 1 * 32 + 1 * (k 1).val = (k' 1).val; rw [e1, h1]; omega
  | ⟨2, _⟩ => show win3_2.index t 2 * 64 + 1 * (k 2).val = (k' 2).val; rw [e2, h2]; omega

/-! ## What each point writes back -/

/-- Point t writes back block t of the update of the three arrays the region is entered with. -/
theorem flushed3_3_eq (c : Dev nD) (t : Fin cfg3.N) :
    (dat3 (F := Ideal) V c).flushed 3 t
      = ((cfg3.win 3).blk t).view.read (Elt Ideal) (Cert.Routing.update (V c main_arg0) (V c main_v35) (V c main_v18)) := by
  show (cfg3.win 3).cut (grid3.coords t) ((dat3 V c).after 3 t) = _
  rw [after3_3]
  unfold out3_3
  rw [View.canon_unit_zero hzU3_3]
  simp only [View.ld_unit_zero (S := S8x32x64x16) hzU3_4, View.ld_unit_zero (S := S8x64x16) hzU3_3, View.ld_unit_zero (S := S8x32x64) hzU3_3]
  obtain ⟨-, -, -, -, -, -, -, -, -, -, e0, e1, e2⟩ := idx3 t
  funext j
  show k3_pay1 (F := Ideal) (iblk3 V c 0 t) (iblk3 V c 1 t) (iblk3 V c 2 t) ((win3 3).xinj (grid3.coords t) j)
    = Cert.Routing.update (V c main_arg0) (V c main_v35) (V c main_v18) (((cfg3.win 3).blk t).view.emb j)
  refine (pay3_block _ _ _ _).trans ?_
  have hI0 : ((((cfg3.win 3).blk t).view.emb j) 0).val = t.val / 64 * 8 + (j 0).val := by
    show win3_3.index t 0 * 8 + 1 * (j 0).val = _; rw [e0]; omega
  have hI1 : ((((cfg3.win 3).blk t).view.emb j) 1).val = t.val % 64 * 32 + (j 1).val := by
    show win3_3.index t 1 * 32 + 1 * (j 1).val = _; rw [e1]; omega
  have hI2 : ((((cfg3.win 3).blk t).view.emb j) 2).val = (j 2).val := by
    show win3_3.index t 2 * 64 + 1 * (j 2).val = _; rw [e2]; omega
  unfold Cert.Routing.update Cert.Routing.updateAt
  refine congrArg₂ (· + ·) ?_ (Finset.sum_congr rfl fun d _ => congrArg₂ (· * ·) ?_ ?_)
  · exact iblk3_2_apply V c t _ _ hI0 hI1 hI2
  · exact iblk3_0_apply V c t _ _ hI0 hI1 hI2 rfl
  · exact iblk3_1_apply V c t _ _ hI0 hI2 rfl

/-! ## The blocks cover the array -/

/-- An index of the new-logits array is in point t's block iff each coordinate is in the block's range on its axis. -/
theorem mem_blk3_3 (t : Fin cfg3.N) (i : S32x2048x64.Idx) :
    i ∈ ((cfg3.win 3).blk t).view.set ↔ ∀ a : Fin 3, win3_3.index t a * S8x32x64.size a ≤ (i a).val ∧ (i a).val < win3_3.index t a * S8x32x64.size a + S8x32x64.size a := by
  show i ∈ ((View.whole main_v36).slice (win3_3.rect t)).set ↔ _
  rw [View.set_slice_whole, Rect.mem_set_unit]
  exact Iff.rfl

/-- Row (b, n) of the array is in the block of point 64·(b / 8) + n / 32, which is written back like every point. -/
theorem covered3_3 (i : S32x2048x64.Idx) :
    ∃ t : Fin cfg3.N, (cfg3.win 3).flush t = true ∧ i ∈ ((cfg3.win 3).blk t).view.set := by
  have hi0 : (i 0).val < 32 := (i 0).isLt
  have hi1 : (i 1).val < 2048 := (i 1).isLt
  have hi2 : (i 2).val < 64 := (i 2).isLt
  have hN : grid3.N = 256 := N_3
  have hlt : 64 * ((i 0).val / 8) + (i 1).val / 32 < grid3.N := by rw [hN]; omega
  obtain ⟨-, -, -, -, -, -, -, -, -, -, e0, e1, e2⟩ := idx3 ⟨64 * ((i 0).val / 8) + (i 1).val / 32, hlt⟩
  refine ⟨⟨64 * ((i 0).val / 8) + (i 1).val / 32, hlt⟩, flush3_3 _, ?_⟩
  rw [mem_blk3_3]
  intro a
  match a with
  | ⟨0, _⟩ =>
    show win3_3.index ⟨64 * ((i 0).val / 8) + (i 1).val / 32, hlt⟩ 0 * 8 ≤ (i 0).val
      ∧ (i 0).val < win3_3.index ⟨64 * ((i 0).val / 8) + (i 1).val / 32, hlt⟩ 0 * 8 + 8
    rw [e0]; simp only; omega
  | ⟨1, _⟩ =>
    show win3_3.index ⟨64 * ((i 0).val / 8) + (i 1).val / 32, hlt⟩ 1 * 32 ≤ (i 1).val
      ∧ (i 1).val < win3_3.index ⟨64 * ((i 0).val / 8) + (i 1).val / 32, hlt⟩ 1 * 32 + 32
    rw [e1]; simp only; omega
  | ⟨2, _⟩ =>
    show win3_3.index ⟨64 * ((i 0).val / 8) + (i 1).val / 32, hlt⟩ 2 * 64 ≤ (i 2).val
      ∧ (i 2).val < win3_3.index ⟨64 * ((i 0).val / 8) + (i 1).val / 32, hlt⟩ 2 * 64 + 64
    rw [e2]; omega

/-! ## The region's output array -/

/-- The new-logits array after the region: the update of the inputs, outputs and logits arrays the region is entered
    with, as one function. -/
theorem arrAt3_3 (c : Dev nD) :
    (dat3 (F := Ideal) V c).arrAt 3 cfg3.N = Cert.Routing.update (V c main_arg0) (V c main_v35) (V c main_v18) :=
  (dat3 (F := Ideal) V c).arrAt_eq_of_cover 3 _ (fun t _ => flushed3_3_eq V c t) covered3_3

end Cert.KernelIdeal.Hand

end
-- ==== Proof.KI.Values.lean ====
/-
  The value of the kernel program at the extended reals: with x the inputs array and bias the bias array at launch, the
  buffers at the boundaries are the specification's iterates — the zero logits p0; the first weighted sum and its squash v1;
  the updated logits p1; the second weighted sum and its squash v2; the updated logits p2; the third weighted sum and its
  squash v3, which is the result.
-/
import proofs.«130725_j52982716563714_2_alg».proof.Proof.KI.Kept
import proofs.«130725_j52982716563714_2_alg».proof.Proof.KI.HostSquash
import proofs.«130725_j52982716563714_2_alg».proof.Proof.KI.Acc0Value
import proofs.«130725_j52982716563714_2_alg».proof.Proof.KI.Acc2Value
import proofs.«130725_j52982716563714_2_alg».proof.Proof.KI.Acc4Value
import proofs.«130725_j52982716563714_2_alg».proof.Proof.KI.Upd1Value
import proofs.«130725_j52982716563714_2_alg».proof.Proof.KI.Upd3Value
import Idealize.ShloMosaic.Lib.StableHlo.Run
import Idealize.ShloMosaic.Lib.IdealHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Routing

variable (m : (ℓ : Loc nD τ sig) → Buf (Elt Ideal) ℓ)

/-- The inputs and the bias at launch, on core `c`. -/
abbrev xIn (c : Dev nD) : Inp := m ((c : Thread nD τ).loc main_arg0)
abbrev bIn (c : Dev nD) : Bia := m ((c : Thread nD τ).loc main_arg1)

/-- The zero logits. -/
theorem W1_main_v0 (c : Dev nD) : (W1 m c (Proc.devRef .tc main_v0) : Pri) = p0 := by
  have e : (W1 m c (Proc.devRef .tc main_v0) : Pri)
      = broadcastInDim S32x2048x64 ![] bcast_S_S32x2048x64 (constant (F := Ideal) S_ .f32 0x00000000#32) := by
    show StableHlo.after hostOps0 (W0 m c) (Proc.devRef .tc main_v0) = _
    after_results
    try rfl
  rw [e]; funext i; rw [broadcastInDim_scalar_apply]; rfl

/-! Each squash stretch, over ANY contents before it: its last buffer is the host operations' one function of the weighted
    sum's buffer and the bias. -/
set_option maxHeartbeats 4000000 in
theorem squash_after1 (V : Valuation τ sig (Elt Ideal)) : (StableHlo.after hostOps1 V (Proc.devRef .tc main_v17) : Out)
    = hostSquash (F := Ideal) (V (Proc.devRef .tc main_v1) : Out) (V (Proc.devRef .tc main_arg1) : Bia) := by
  after_results
  try rfl
set_option maxHeartbeats 4000000 in
theorem squash_after3 (V : Valuation τ sig (Elt Ideal)) : (StableHlo.after hostOps3 V (Proc.devRef .tc main_v35) : Out)
    = hostSquash (F := Ideal) (V (Proc.devRef .tc main_v19) : Out) (V (Proc.devRef .tc main_arg1) : Bia) := by
  after_results
  try rfl
set_option maxHeartbeats 4000000 in
theorem squash_after5 (V : Valuation τ sig (Elt Ideal)) : (StableHlo.after hostOps5 V (Proc.devRef .tc main_v53) : Out)
    = hostSquash (F := Ideal) (V (Proc.devRef .tc main_v37) : Out) (V (Proc.devRef .tc main_arg1) : Bia) := by
  after_results
  try rfl

theorem W3_main_v17 (c : Dev nD) : (W3 m c (Proc.devRef .tc main_v17) : Out)
    = hostSquash (F := Ideal) (W2 m c (Proc.devRef .tc main_v1) : Out) (W2 m c (Proc.devRef .tc main_arg1) : Bia) :=
  squash_after1 (W2 m c)
theorem W6_main_v35 (c : Dev nD) : (W6 m c (Proc.devRef .tc main_v35) : Out)
    = hostSquash (F := Ideal) (W5 m c (Proc.devRef .tc main_v19) : Out) (W5 m c (Proc.devRef .tc main_arg1) : Bia) :=
  squash_after3 (W5 m c)
theorem W9_main_v53 (c : Dev nD) : (W9 m c (Proc.devRef .tc main_v53) : Out)
    = hostSquash (F := Ideal) (W8 m c (Proc.devRef .tc main_v37) : Out) (W8 m c (Proc.devRef .tc main_arg1) : Bia) :=
  squash_after5 (W8 m c)

/-- The first weighted sum. -/
theorem W2_main_v1 (c : Dev nD) : (W2 m c (Proc.devRef .tc main_v1) : Out) = weighted (xIn m c) p0 := by
  refine (W2_arr m c 2).trans ((arrAt0_2 (V1 m) c).trans ?_)
  rw [show (V1 m c main_arg0 : Inp) = xIn m c from W1_main_arg0 m c, show (V1 m c main_v0 : Pri) = p0 from W1_main_v0 m c]
/-- The first squash. -/
theorem W3_v1 (c : Dev nD) : (W3 m c (Proc.devRef .tc main_v17) : Out) = v1 (xIn m c) (bIn m c) := by
  rw [W3_main_v17, hostSquash_eq, W2_main_v1, show (W2 m c (Proc.devRef .tc main_arg1) : Bia) = bIn m c from W2_main_arg1 m c]; rfl
/-- The first update. -/
theorem W4_main_v18 (c : Dev nD) : (W4 m c (Proc.devRef .tc main_v18) : Pri) = p1 (xIn m c) (bIn m c) := by
  refine (W4_arr m c 3).trans ((arrAt1_3 (V3 m) c).trans ?_)
  rw [show (V3 m c main_arg0 : Inp) = xIn m c from W3_main_arg0 m c, show (V3 m c main_v17 : Out) = v1 (xIn m c) (bIn m c) from W3_v1 m c,
    show (V3 m c main_v0 : Pri) = p0 from (W3_main_v0 m c).trans (W1_main_v0 m c)]; rfl
/-- The second weighted sum. -/
theorem W5_main_v19 (c : Dev nD) : (W5 m c (Proc.devRef .tc main_v19) : Out) = weighted (xIn m c) (p1 (xIn m c) (bIn m c)) := by
  refine (W5_arr m c 2).trans ((arrAt2_2 (V4 m) c).trans ?_)
  rw [show (V4 m c main_arg0 : Inp) = xIn m c from W4_main_arg0 m c, show (V4 m c main_v18 : Pri) = p1 (xIn m c) (bIn m c) from W4_main_v18 m c]
/-- The second squash. -/
theorem W6_v2 (c : Dev nD) : (W6 m c (Proc.devRef .tc main_v35) : Out) = v2 (xIn m c) (bIn m c) := by
  rw [W6_main_v35, hostSquash_eq, W5_main_v19, show (W5 m c (Proc.devRef .tc main_arg1) : Bia) = bIn m c from W5_main_arg1 m c]; rfl
/-- The second update. -/
theorem W7_main_v36 (c : Dev nD) : (W7 m c (Proc.devRef .tc main_v36) : Pri) = p2 (xIn m c) (bIn m c) := by
  refine (W7_arr m c 3).trans ((arrAt3_3 (V6 m) c).trans ?_)
  rw [show (V6 m c main_arg0 : Inp) = xIn m c from W6_main_arg0 m c, show (V6 m c main_v35 : Out) = v2 (xIn m c) (bIn m c) from W6_v2 m c,
    show (V6 m c main_v18 : Pri) = p1 (xIn m c) (bIn m c) from (W6_main_v18 m c).trans (W4_main_v18 m c)]; rfl
/-- The third weighted sum. -/
theorem W8_main_v37 (c : Dev nD) : (W8 m c (Proc.devRef .tc main_v37) : Out) = weighted (xIn m c) (p2 (xIn m c) (bIn m c)) := by
  refine (W8_arr m c 2).trans ((arrAt4_2 (V7 m) c).trans ?_)
  rw [show (V7 m c main_arg0 : Inp) = xIn m c from W7_main_arg0 m c, show (V7 m c main_v36 : Pri) = p2 (xIn m c) (bIn m c) from W7_main_v36 m c]
/-- THE RESULT: the third squash. -/
theorem W9_result (c : Dev nD) : (W9 m c (Proc.devRef .tc main_v53) : Out) = v3 (xIn m c) (bIn m c) := by
  rw [W9_main_v53, hostSquash_eq, W8_main_v37, show (W8 m c (Proc.devRef .tc main_arg1) : Bia) = bIn m c from W8_main_arg1 m c]; rfl

end Cert.KernelIdeal.Hand

end
-- ==== Proof.KI.Claims.lean ====
/-
  The kernel program read at the extended reals, in the form the claim's conjuncts take: its frame (the run, read at the two arguments) and its run with
  the result named — the specification's third iterate of the arguments at launch.
-/
import proofs.«130725_j52982716563714_2_alg».proof.Defs
import proofs.«130725_j52982716563714_2_alg».proof.Proof.KI.Values
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Routing

/-- Every weakly fair execution of the kernel program, read at the extended reals, terminates, faults nowhere, and leaves the arguments as launched. -/
theorem frame_pi [Cert.Pre_finite_inputs.Facts] : Cert.frame_KernelIdeal := fun m ρ _ =>
  (θ_run (Cert.KernelIdeal.defs (F := Ideal)) _ _).mono
    (fun r h c => ⟨(h c _ (mem_uc main_arg0 (by decide))).trans (W9_main_arg0 m c),
      (h c _ (mem_uc main_arg1 (by decide))).trans (W9_main_arg1 m c)⟩)
    (run_main (F := Ideal) m ρ)

/-- … and ends with the result buffer at the specification's value of the arguments at launch. -/
theorem kernel_run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v53)
            = v3 (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run (Cert.KernelIdeal.defs (F := Ideal)) _ _).mono
    (fun r h c => ⟨(h c _ (mem_uc main_v53 (by decide))).trans (W9_result m c),
      (h c _ (mem_uc main_arg0 (by decide))).trans (W9_main_arg0 m c),
      (h c _ (mem_uc main_arg1 (by decide))).trans (W9_main_arg1 m c)⟩)
    (run_main (F := Ideal) m ρ)

end Cert.KernelIdeal.Hand

end
-- ==== Proof.RefExp.lean ====
import proofs.«130725_j52982716563714_2_alg».proof.Proof.Gen.ReferenceIdeal
import proofs.«130725_j52982716563714_2_alg».proof.Proof.Spec
import Idealize.ShloMosaic.PureOps.Ideal.Laws
import Idealize.ShloMosaic.Lib.Pipeline.Value

noncomputable section

namespace Cert.ReferenceIdeal.RefValue

open Cert.ReferenceIdeal Cert.ReferenceIdeal.Gen Idealize.ShloMosaic Idealize.ShloMosaic.ValueIdx Cert.Routing

/-- The 4-D array type of the inputs and of the logits carried along the component axis. -/
abbrev A4 : Type := FVec Ideal S32x2048x64x16 .f32

/-- The shifted exponentials of the 4-D logits, as the program spells them: subtract the maximum over the output-capsule
    axis (folded from -∞, then capped below by -∞ once more), exponentiate. -/
def refExp (P4 : A4) : A4 :=
  Host.exp (F := Ideal) (subf P4 (broadcastInDim S32x2048x64x16 ![0, 1, 2, 3] bcast_S32x2048x1x16_S32x2048x64x16_0_1_2_3 (broadcastInDim S32x2048x1x16 ![0, 1, 3] bcast_S32x2048x16_S32x2048x1x16_0_1_3 (maximumf (broadcastInDim S32x2048x16 ![] bcast_S_S32x2048x16 (constant (F := Ideal) S_ .f32 0xFF800000#32)) (Host.reduce (FloatOps.maximumf (F := Ideal) (φ := .f32)) P4 (constant (F := Ideal) S_ .f32 0xFF800000#32) reducesTo_S32x2048x64x16_S32x2048x16_d2 h_S_)))))

/-- The maximum the program subtracts, read at (b, n, d), when the 4-D logits are a 3-D array repeated along d. -/
theorem refMax_apply (P4 : A4) (p : Pri) (hP : ∀ b n o d, P4 (ix4 b n o d) = p (ix3 b n o)) (b : Fin 32) (n : Fin 2048) (d : Fin 16) :
    maximumf (broadcastInDim S32x2048x16 ![] bcast_S_S32x2048x16 (constant (F := Ideal) S_ .f32 0xFF800000#32)) (Host.reduce (FloatOps.maximumf (F := Ideal) (φ := .f32)) P4 (constant (F := Ideal) S_ .f32 0xFF800000#32) reducesTo_S32x2048x64x16_S32x2048x16_d2 h_S_) (ix3 b n d)
      = rowMax p b n := by
  rw [maximumf_apply]
  unfold rowMax
  refine congrArg₂ max rfl ?_
  rw [Host.reduce_eq_fold_single (FloatOps.maximumf (F := Ideal) (φ := .f32)) P4 _ reducesTo_S32x2048x64x16_S32x2048x16_d2 (by decide) h_S_ (ix3 b n d)]
  refine Finset.fold_congr (fun o _ => ?_)
  refine Eq.trans ?_ (hP b n o d)
  exact congrArg P4 (funext fun a => Fin.ext (by match a with | ⟨0, _⟩ => rfl | ⟨1, _⟩ => rfl | ⟨2, _⟩ => rfl | ⟨3, _⟩ => rfl))

theorem refExp_apply (P4 : A4) (p : Pri) (hP : ∀ b n o d, P4 (ix4 b n o d) = p (ix3 b n o)) (b : Fin 32) (n : Fin 2048) (o : Fin 64) (d : Fin 16) :
    refExp P4 (ix4 b n o d) = expShift p b n o := by
  unfold refExp expShift
  show Ideal.exp (P4 (ix4 b n o d) - _) = _
  rw [hP]
  refine congrArg (fun z => Ideal.exp (p (ix3 b n o) - z)) ?_
  rw [broadcastInDim_apply _ _ _ (ix4 b n o d) (ix4 b n (0 : Fin 1) d) (fun a => by match a with | ⟨0, _⟩ => rfl | ⟨1, _⟩ => rfl | ⟨2, _⟩ => rfl | ⟨3, _⟩ => rfl)]
  rw [broadcastInDim_apply _ _ _ (ix4 b n (0 : Fin 1) d) (ix3 b n d) (fun a => by match a with | ⟨0, _⟩ => rfl | ⟨1, _⟩ => rfl | ⟨2, _⟩ => rfl)]
  exact refMax_apply P4 p hP b n d

end Cert.ReferenceIdeal.RefValue

end
-- ==== Proof.RefShift.lean ====
import proofs.«130725_j52982716563714_2_alg».proof.Proof.RefExp

noncomputable section

namespace Cert.ReferenceIdeal.RefValue

open Cert.ReferenceIdeal Cert.ReferenceIdeal.Gen Idealize.ShloMosaic Idealize.ShloMosaic.ValueIdx Cert.Routing

/-- The host's sum from the zero word over one axis, read at an index: the sum over that axis's coordinates. -/
theorem sumZero_apply {s t : Shape} {a : Fin s.rank} (h' : s.ReducesTo [a] t) (h : s.Reduces [a] t) (x : FVec Ideal s .f32) (j : t.Idx) :
    Host.reduceAdd (F := Ideal) x (constant (F := Ideal) S_ .f32 0x00000000#32) h' h_S_ j = ∑ k : Fin (s.size a), x (h.lift j k) := by
  show Ideal.hostReduceAdd h' x (Ideal.ofBits .f32 0x00000000#32) j = _
  rw [Ideal.hostReduceAdd_single h' h, Ideal.ofBits_zero_f32, zero_add]

/-- The sum over the 64 output capsules, read at (b, n, d). -/
theorem sumO_apply (E : A4) (b : Fin 32) (n : Fin 2048) (d : Fin 16) :
    Host.reduceAdd (F := Ideal) E (constant (F := Ideal) S_ .f32 0x00000000#32) reducesTo_S32x2048x64x16_S32x2048x16_d2 h_S_ (ix3 b n d)
      = ∑ o : Fin 64, E (ix4 b n o d) := by
  rw [sumZero_apply _ (by decide)]
  exact Finset.sum_congr rfl fun o _ => congrArg E (funext fun a => Fin.ext (by match a with | ⟨0, _⟩ => rfl | ⟨1, _⟩ => rfl | ⟨2, _⟩ => rfl | ⟨3, _⟩ => rfl))

/-- The sum over the 2048 input capsules, read at (b, o, d). -/
theorem sumN_apply (Y : A4) (b : Fin 32) (o : Fin 64) (d : Fin 16) :
    Host.reduceAdd (F := Ideal) Y (constant (F := Ideal) S_ .f32 0x00000000#32) reducesTo_S32x2048x64x16_S32x64x16_d1 h_S_ (ix3 b o d)
      = ∑ n : Fin 2048, Y (ix4 b n o d) := by
  rw [sumZero_apply _ (by decide)]
  exact Finset.sum_congr rfl fun n _ => congrArg Y (funext fun a => Fin.ext (by match a with | ⟨0, _⟩ => rfl | ⟨1, _⟩ => rfl | ⟨2, _⟩ => rfl | ⟨3, _⟩ => rfl))

/-- The agreement-weighted sum of the inputs plus the bias, as the program spells it from the shifted exponentials. -/
def refShifted (X : A4) (Bias : FVec Ideal S64x16 .f32) (E : A4) : FVec Ideal S32x1x64x16 .f32 :=
  addf (broadcastInDim S32x1x64x16 ![0, 2, 3] bcast_S32x64x16_S32x1x64x16_0_2_3 (Host.reduceAdd (F := Ideal) (mulf X (Host.divf (F := Ideal) E (broadcastInDim S32x2048x64x16 ![0, 1, 2, 3] bcast_S32x2048x1x16_S32x2048x64x16_0_1_2_3 (broadcastInDim S32x2048x1x16 ![0, 1, 3] bcast_S32x2048x16_S32x2048x1x16_0_1_3 (Host.reduceAdd (F := Ideal) E (constant (F := Ideal) S_ .f32 0x00000000#32) reducesTo_S32x2048x64x16_S32x2048x16_d2 h_S_))))) (constant (F := Ideal) S_ .f32 0x00000000#32) reducesTo_S32x2048x64x16_S32x64x16_d1 h_S_)) (broadcastInDim S32x1x64x16 ![0, 1, 2, 3] bcast_S1x1x64x16_S32x1x64x16_0_1_2_3 (broadcastInDim S1x1x64x16 ![2, 3] bcast_S64x16_S1x1x64x16_2_3 Bias))

/-- Read at (b, 0, o, d), when the exponentials are a 3-D array e repeated along d: Σ_n x · (e / Σ_o' e) + bias. -/
theorem refShifted_apply (X : A4) (Bias : FVec Ideal S64x16 .f32) (E : A4) (e : Fin 32 → Fin 2048 → Fin 64 → EReal)
    (hE : ∀ b n o d, E (ix4 b n o d) = e b n o) (b : Fin 32) (o : Fin 64) (d : Fin 16) :
    refShifted X Bias E (ix4 b (0 : Fin 1) o d)
      = (∑ n : Fin 2048, X (ix4 b n o d) * Ideal.div (e b n o) (∑ o' : Fin 64, e b n o')) + Bias (ix2 o d) := by
  unfold refShifted
  rw [addf_apply]
  refine congrArg₂ (· + ·) ?_ ?_
  · rw [broadcastInDim_apply _ _ _ (ix4 b (0 : Fin 1) o d) (ix3 b o d) (fun a => by match a with | ⟨0, _⟩ => rfl | ⟨1, _⟩ => rfl | ⟨2, _⟩ => rfl)]
    rw [sumN_apply]
    refine Finset.sum_congr rfl fun n _ => ?_
    rw [mulf_apply]
    refine congrArg (X (ix4 b n o d) * ·) ?_
    show Ideal.div (E (ix4 b n o d)) _ = _
    rw [hE]
    refine congrArg (Ideal.div (e b n o)) ?_
    rw [broadcastInDim_apply _ _ _ (ix4 b n o d) (ix4 b n (0 : Fin 1) d) (fun a => by match a with | ⟨0, _⟩ => rfl | ⟨1, _⟩ => rfl | ⟨2, _⟩ => rfl | ⟨3, _⟩ => rfl)]
    rw [broadcastInDim_apply _ _ _ (ix4 b n (0 : Fin 1) d) (ix3 b n d) (fun a => by match a with | ⟨0, _⟩ => rfl | ⟨1, _⟩ => rfl | ⟨2, _⟩ => rfl)]
    rw [sumO_apply]
    exact Finset.sum_congr rfl fun o' _ => hE b n o' d
  · rw [broadcastInDim_apply _ _ _ (ix4 b (0 : Fin 1) o d) (ix4 (0 : Fin 1) (0 : Fin 1) o d) (fun a => by match a with | ⟨0, _⟩ => rfl | ⟨1, _⟩ => rfl | ⟨2, _⟩ => rfl | ⟨3, _⟩ => rfl)]
    rw [broadcastInDim_apply _ _ _ (ix4 (0 : Fin 1) (0 : Fin 1) o d) (ix2 o d) (fun a => by match a with | ⟨0, _⟩ => rfl | ⟨1, _⟩ => rfl)]

end Cert.ReferenceIdeal.RefValue

end
-- ==== Proof.RefSquash.lean ====
import proofs.«130725_j52982716563714_2_alg».proof.Proof.RefShift

noncomputable section

namespace Cert.ReferenceIdeal.RefValue

open Cert.ReferenceIdeal Cert.ReferenceIdeal.Gen Idealize.ShloMosaic Idealize.ShloMosaic.ValueIdx Cert.Routing

/-- The 4-D array type [32, 1, 64, 16] of the output capsules' vectors with their kept unit axis. -/
abbrev B4 : Type := FVec Ideal S32x1x64x16 .f32
/-- The type [32, 1, 64, 1] of the squared norms with their two kept unit axes. -/
abbrev N4 : Type := FVec Ideal S32x1x64x1 .f32

/-- The sum over the 16 components of a [32, 1, 64, 16] array, read at (b, 0, o). -/
theorem sumD1_apply (Y : B4) (b : Fin 32) (o : Fin 64) :
    Host.reduceAdd (F := Ideal) Y (constant (F := Ideal) S_ .f32 0x00000000#32) reducesTo_S32x1x64x16_S32x1x64_d3 h_S_ (ix3 b (0 : Fin 1) o)
      = ∑ d : Fin 16, Y (ix4 b (0 : Fin 1) o d) := by
  rw [sumZero_apply _ (by decide)]
  exact Finset.sum_congr rfl fun d _ => congrArg Y (funext fun a => Fin.ext (by match a with | ⟨0, _⟩ => rfl | ⟨1, _⟩ => rfl | ⟨2, _⟩ => rfl | ⟨3, _⟩ => rfl))

/-- The squared norm along the 16 components, as the program spells it. -/
def refNormSq (S : B4) : N4 :=
  broadcastInDim S32x1x64x1 ![0, 1, 2] bcast_S32x1x64_S32x1x64x1_0_1_2 (Host.reduceAdd (F := Ideal) (mulf S S) (constant (F := Ideal) S_ .f32 0x00000000#32) reducesTo_S32x1x64x16_S32x1x64_d3 h_S_)

theorem refNormSq_apply (S : B4) (b : Fin 32) (o : Fin 64) :
    refNormSq S (ix4 b (0 : Fin 1) o (0 : Fin 1)) = ∑ d : Fin 16, S (ix4 b (0 : Fin 1) o d) * S (ix4 b (0 : Fin 1) o d) := by
  unfold refNormSq
  rw [broadcastInDim_apply _ _ _ (ix4 b (0 : Fin 1) o (0 : Fin 1)) (ix3 b (0 : Fin 1) o) (fun a => by match a with | ⟨0, _⟩ => rfl | ⟨1, _⟩ => rfl | ⟨2, _⟩ => rfl)]
  rw [sumD1_apply]
  exact Finset.sum_congr rfl fun d _ => mulf_apply S S _

/-- The squashing non-linearity, as the program spells it from the shifted sums and their squared norms. -/
def refSquash (S : B4) (N : N4) : B4 :=
  Host.divf (F := Ideal) (mulf (broadcastInDim S32x1x64x16 ![0, 1, 2, 3] bcast_S32x1x64x1_S32x1x64x16_0_1_2_3 (Host.divf (F := Ideal) N (addf (broadcastInDim S32x1x64x1 ![] bcast_S_S32x1x64x1 (constant (F := Ideal) S_ .f32 0x3F800000#32)) N))) S) (broadcastInDim S32x1x64x16 ![0, 1, 2, 3] bcast_S32x1x64x1_S32x1x64x16_0_1_2_3 (Host.sqrt (F := Ideal) (addf N (broadcastInDim S32x1x64x1 ![] bcast_S_S32x1x64x1 (constant (F := Ideal) S_ .f32 0x33D6BF95#32)))))

theorem refSquash_apply (S : B4) (N : N4) (b : Fin 32) (o : Fin 64) (d : Fin 16) :
    refSquash S N (ix4 b (0 : Fin 1) o d)
      = Ideal.div (Ideal.div (N (ix4 b (0 : Fin 1) o (0 : Fin 1))) (oneW + N (ix4 b (0 : Fin 1) o (0 : Fin 1))) * S (ix4 b (0 : Fin 1) o d))
          (Ideal.sqrt (N (ix4 b (0 : Fin 1) o (0 : Fin 1)) + epsW)) := by
  unfold refSquash
  show Ideal.div (_ * S (ix4 b (0 : Fin 1) o d)) _ = _
  rw [broadcastInDim_apply _ _ _ (ix4 b (0 : Fin 1) o d) (ix4 b (0 : Fin 1) o (0 : Fin 1)) (fun a => by match a with | ⟨0, _⟩ => rfl | ⟨1, _⟩ => rfl | ⟨2, _⟩ => rfl | ⟨3, _⟩ => rfl)]
  rw [broadcastInDim_apply _ _ _ (ix4 b (0 : Fin 1) o d) (ix4 b (0 : Fin 1) o (0 : Fin 1)) (fun a => by match a with | ⟨0, _⟩ => rfl | ⟨1, _⟩ => rfl | ⟨2, _⟩ => rfl | ⟨3, _⟩ => rfl)]
  rfl

/-- The program's last step: the sum over the kept unit axis. -/
def refOut (V : B4) : FVec Ideal S32x64x16 .f32 :=
  Host.reduceAdd (F := Ideal) V (constant (F := Ideal) S_ .f32 0x00000000#32) reducesTo_S32x1x64x16_S32x64x16_d1 h_S_

theorem refOut_apply (V : B4) (b : Fin 32) (o : Fin 64) (d : Fin 16) : refOut V (ix3 b o d) = V (ix4 b (0 : Fin 1) o d) := by
  unfold refOut
  rw [sumZero_apply _ (by decide)]
  refine (Fin.sum_univ_one _).trans ?_
  exact congrArg V (funext fun a => Fin.ext (by match a with | ⟨0, _⟩ => rfl | ⟨1, _⟩ => rfl | ⟨2, _⟩ => rfl | ⟨3, _⟩ => rfl))

end Cert.ReferenceIdeal.RefValue

end
-- ==== Proof.RefUpdate.lean ====
import proofs.«130725_j52982716563714_2_alg».proof.Proof.RefSquash

noncomputable section

namespace Cert.ReferenceIdeal.RefValue

open Cert.ReferenceIdeal Cert.ReferenceIdeal.Gen Idealize.ShloMosaic Idealize.ShloMosaic.ValueIdx Cert.Routing

/-- The sum over the 16 components of a [32, 2048, 64, 16] array, read at (b, n, o). -/
theorem sumD_apply (Y : A4) (b : Fin 32) (n : Fin 2048) (o : Fin 64) :
    Host.reduceAdd (F := Ideal) Y (constant (F := Ideal) S_ .f32 0x00000000#32) reducesTo_S32x2048x64x16_S32x2048x64_d3 h_S_ (ix3 b n o)
      = ∑ d : Fin 16, Y (ix4 b n o d) := by
  rw [sumZero_apply _ (by decide)]
  exact Finset.sum_congr rfl fun d _ => congrArg Y (funext fun a => Fin.ext (by match a with | ⟨0, _⟩ => rfl | ⟨1, _⟩ => rfl | ⟨2, _⟩ => rfl | ⟨3, _⟩ => rfl))

/-- The logits' update, as the program spells it: add the inner product over the 16 components, repeated along them. -/
def refUpdate (P4 X : A4) (V : B4) : A4 :=
  addf P4 (broadcastInDim S32x2048x64x16 ![0, 1, 2, 3] bcast_S32x2048x64x1_S32x2048x64x16_0_1_2_3 (broadcastInDim S32x2048x64x1 ![0, 1, 2] bcast_S32x2048x64_S32x2048x64x1_0_1_2 (Host.reduceAdd (F := Ideal) (mulf X (broadcastInDim S32x2048x64x16 ![0, 1, 2, 3] bcast_S32x1x64x16_S32x2048x64x16_0_1_2_3 V)) (constant (F := Ideal) S_ .f32 0x00000000#32) reducesTo_S32x2048x64x16_S32x2048x64_d3 h_S_)))

theorem refUpdate_apply (P4 X : A4) (V : B4) (b : Fin 32) (n : Fin 2048) (o : Fin 64) (d : Fin 16) :
    refUpdate P4 X V (ix4 b n o d) = P4 (ix4 b n o d) + ∑ d' : Fin 16, X (ix4 b n o d') * V (ix4 b (0 : Fin 1) o d') := by
  unfold refUpdate
  rw [addf_apply]
  refine congrArg (P4 (ix4 b n o d) + ·) ?_
  rw [broadcastInDim_apply _ _ _ (ix4 b n o d) (ix4 b n o (0 : Fin 1)) (fun a => by match a with | ⟨0, _⟩ => rfl | ⟨1, _⟩ => rfl | ⟨2, _⟩ => rfl | ⟨3, _⟩ => rfl)]
  rw [broadcastInDim_apply _ _ _ (ix4 b n o (0 : Fin 1)) (ix3 b n o) (fun a => by match a with | ⟨0, _⟩ => rfl | ⟨1, _⟩ => rfl | ⟨2, _⟩ => rfl)]
  rw [sumD_apply]
  refine Finset.sum_congr rfl fun d' _ => ?_
  rw [mulf_apply]
  refine congrArg (X (ix4 b n o d') * ·) ?_
  exact broadcastInDim_apply _ _ _ (ix4 b n o d') (ix4 b (0 : Fin 1) o d') (fun a => by match a with | ⟨0, _⟩ => rfl | ⟨1, _⟩ => rfl | ⟨2, _⟩ => rfl | ⟨3, _⟩ => rfl)

end Cert.ReferenceIdeal.RefValue

end
-- ==== Proof.RefIter.lean ====
import proofs.«130725_j52982716563714_2_alg».proof.Proof.RefUpdate

noncomputable section

namespace Cert.ReferenceIdeal.RefValue

open Cert.ReferenceIdeal Cert.ReferenceIdeal.Gen Idealize.ShloMosaic Idealize.ShloMosaic.ValueIdx Cert.Routing

/-- The bias array's type. -/
abbrev C2 : Type := FVec Ideal S64x16 .f32

/-- One iteration's output-capsule vectors, as the program computes them from the 4-D logits. -/
def refV (x : A4) (bias : C2) (P4 : A4) : B4 :=
  refSquash (refShifted x bias (refExp P4)) (refNormSq (refShifted x bias (refExp P4)))

/-- When the 4-D logits are the 3-D logits p repeated along the components, the shifted sums are the specification's … -/
theorem refShifted_eq (x : A4) (bias : C2) (P4 : A4) (p : Pri) (hP : ∀ b n o d, P4 (ix4 b n o d) = p (ix3 b n o))
    (b : Fin 32) (o : Fin 64) (d : Fin 16) :
    refShifted x bias (refExp P4) (ix4 b (0 : Fin 1) o d) = shifted (weighted x p) bias b o d := by
  rw [refShifted_apply x bias (refExp P4) (expShift p) (refExp_apply P4 p hP)]
  rfl

/-- … so are their squared norms … -/
theorem refNormSq_eq (x : A4) (bias : C2) (P4 : A4) (p : Pri) (hP : ∀ b n o d, P4 (ix4 b n o d) = p (ix3 b n o))
    (b : Fin 32) (o : Fin 64) :
    refNormSq (refShifted x bias (refExp P4)) (ix4 b (0 : Fin 1) o (0 : Fin 1)) = normSq (weighted x p) bias b o := by
  rw [refNormSq_apply]
  unfold normSq
  exact Finset.sum_congr rfl fun d _ => by rw [refShifted_eq x bias P4 p hP]

/-- … and the output-capsule vectors are the specification's squash of the weighted sums. -/
theorem refV_eq (x : A4) (bias : C2) (P4 : A4) (p : Pri) (hP : ∀ b n o d, P4 (ix4 b n o d) = p (ix3 b n o))
    (b : Fin 32) (o : Fin 64) (d : Fin 16) :
    refV x bias P4 (ix4 b (0 : Fin 1) o d) = squash (weighted x p) bias (ix3 b o d) := by
  unfold refV
  rw [refSquash_apply, refNormSq_eq x bias P4 p hP, refShifted_eq x bias P4 p hP]
  rfl

/-- The updated 4-D logits are the specification's updated 3-D logits repeated along the components. -/
theorem refUpdate_eq (x : A4) (bias : C2) (P4 : A4) (p : Pri) (hP : ∀ b n o d, P4 (ix4 b n o d) = p (ix3 b n o))
    (b : Fin 32) (n : Fin 2048) (o : Fin 64) (d : Fin 16) :
    refUpdate P4 x (refV x bias P4) (ix4 b n o d) = update x (squash (weighted x p) bias) p (ix3 b n o) := by
  rw [refUpdate_apply, hP]
  show _ = p (ix3 b n o) + ∑ d' : Fin 16, x (ix4 b n o d') * squash (weighted x p) bias (ix3 b o d')
  exact congrArg (p (ix3 b n o) + ·) (Finset.sum_congr rfl fun d' _ => by rw [refV_eq x bias P4 p hP])

/-- The logits the program starts from: the zero word everywhere. -/
def refP0 : A4 := broadcastInDim S32x2048x64x16 ![] bcast_S_S32x2048x64x16 (constant (F := Ideal) S_ .f32 0x00000000#32)

theorem refP0_apply (b : Fin 32) (n : Fin 2048) (o : Fin 64) (d : Fin 16) : refP0 (ix4 b n o d) = p0 (ix3 b n o) := rfl

/-- The three iterations' logits, as the program computes them. -/
def refP1 (x : A4) (bias : C2) : A4 := refUpdate refP0 x (refV x bias refP0)
def refP2 (x : A4) (bias : C2) : A4 := refUpdate (refP1 x bias) x (refV x bias (refP1 x bias))

theorem refP1_apply (x : A4) (bias : C2) (b : Fin 32) (n : Fin 2048) (o : Fin 64) (d : Fin 16) :
    refP1 x bias (ix4 b n o d) = p1 x bias (ix3 b n o) :=
  refUpdate_eq x bias refP0 p0 refP0_apply b n o d

theorem refP2_apply (x : A4) (bias : C2) (b : Fin 32) (n : Fin 2048) (o : Fin 64) (d : Fin 16) :
    refP2 x bias (ix4 b n o d) = p2 x bias (ix3 b n o) :=
  refUpdate_eq x bias (refP1 x bias) (p1 x bias) (refP1_apply x bias) b n o d

/-- The program's result, as a function of the two argument arrays, is the specification's third-iteration output. -/
theorem refOut_eq (x : A4) (bias : C2) : refOut (refV x bias (refP2 x bias)) = v3 x bias := by
  funext j
  obtain ⟨b, o, d, rfl⟩ : ∃ (b : Fin 32) (o : Fin 64) (d : Fin 16), j = ix3 b o d := ⟨j 0, j 1, j 2, eq_ix3 j⟩
  rw [refOut_apply, refV_eq x bias (refP2 x bias) (p2 x bias) (refP2_apply x bias)]
  rfl

end Cert.ReferenceIdeal.RefValue

end
-- ==== Proof.RefResult.lean ====
import proofs.«130725_j52982716563714_2_alg».proof.Proof.RefIter
import proofs.«130725_j52982716563714_2_alg».proof.Proof.Gen.ReferenceIdeal.Run

noncomputable section

namespace Cert.ReferenceIdeal.RefValue

open Cert.ReferenceIdeal Cert.ReferenceIdeal.Gen Idealize.ShloMosaic Idealize.ShloMosaic.ValueIdx Cert.Routing Cert.ReferenceIdeal.Value

variable (V0 : Valuation Cert.ReferenceIdeal.τ Cert.ReferenceIdeal.sig (Elt Ideal))

/-! Each named intermediate of the program's run is one stage function of the earlier ones (the same spelling, unfolded). -/

theorem v0_eq : res_main_v0 V0 = refP0 := rfl
theorem v7_eq : res_main_v7 V0 = refExp (res_main_v0 V0) := rfl
theorem v17_eq : res_main_v17 V0 = refShifted (V0 (Proc.devRef .tc main_arg0)) (V0 (Proc.devRef .tc main_arg1)) (res_main_v7 V0) := rfl
theorem v20_eq : res_main_v20 V0 = refNormSq (res_main_v17 V0) := rfl
theorem v36_eq : res_main_v36 V0 = refUpdate (res_main_v0 V0) (V0 (Proc.devRef .tc main_arg0)) (refSquash (res_main_v17 V0) (res_main_v20 V0)) := rfl
theorem v43_eq : res_main_v43 V0 = refExp (res_main_v36 V0) := rfl
theorem v53_eq : res_main_v53 V0 = refShifted (V0 (Proc.devRef .tc main_arg0)) (V0 (Proc.devRef .tc main_arg1)) (res_main_v43 V0) := rfl
theorem v56_eq : res_main_v56 V0 = refNormSq (res_main_v53 V0) := rfl
theorem v72_eq : res_main_v72 V0 = refUpdate (res_main_v36 V0) (V0 (Proc.devRef .tc main_arg0)) (refSquash (res_main_v53 V0) (res_main_v56 V0)) := rfl
theorem v79_eq : res_main_v79 V0 = refExp (res_main_v72 V0) := rfl
theorem v89_eq : res_main_v89 V0 = refShifted (V0 (Proc.devRef .tc main_arg0)) (V0 (Proc.devRef .tc main_arg1)) (res_main_v79 V0) := rfl
theorem v92_eq : res_main_v92 V0 = refNormSq (res_main_v89 V0) := rfl

/-- The logits after the first and second iterations, as functions of the two argument arrays. -/
theorem v36_eq' : res_main_v36 V0 = refP1 (V0 (Proc.devRef .tc main_arg0)) (V0 (Proc.devRef .tc main_arg1)) := by
  rw [v36_eq, v20_eq, v17_eq, v7_eq, v0_eq]; rfl
theorem v72_eq' : res_main_v72 V0 = refP2 (V0 (Proc.devRef .tc main_arg0)) (V0 (Proc.devRef .tc main_arg1)) := by
  rw [v72_eq, v56_eq, v53_eq, v43_eq, v36_eq']; rfl

/-- The program's result term is the specification's third-iteration output of the two argument arrays. -/
theorem ref_result :
    (Host.reduceAdd (F := Ideal) (Host.divf (mulf (broadcastInDim S32x1x64x16 ![0, 1, 2, 3] bcast_S32x1x64x1_S32x1x64x16_0_1_2_3 (Host.divf (res_main_v92 V0) (addf (broadcastInDim S32x1x64x1 ![] bcast_S_S32x1x64x1 (constant S_ .f32 0x3F800000#32)) (res_main_v92 V0)))) (res_main_v89 V0)) (broadcastInDim S32x1x64x16 ![0, 1, 2, 3] bcast_S32x1x64x1_S32x1x64x16_0_1_2_3 (Host.sqrt (addf (res_main_v92 V0) (broadcastInDim S32x1x64x1 ![] bcast_S_S32x1x64x1 (constant S_ .f32 0x33D6BF95#32)))))) (constant S_ .f32 0x00000000#32) reducesTo_S32x1x64x16_S32x64x16_d1 h_S_)
      = Cert.Routing.v3 (V0 (Proc.devRef .tc main_arg0)) (V0 (Proc.devRef .tc main_arg1)) := by
  refine Eq.trans (b := refOut (refSquash (res_main_v89 V0) (res_main_v92 V0))) rfl ?_
  rw [v92_eq, v89_eq, v79_eq, v72_eq']
  exact refOut_eq _ _

end Cert.ReferenceIdeal.RefValue

end
-- ==== Proof.RefClaims.lean ====
import proofs.«130725_j52982716563714_2_alg».proof.Defs
import proofs.«130725_j52982716563714_2_alg».proof.Proof.Gen.Pre_finite_inputs
import proofs.«130725_j52982716563714_2_alg».proof.Proof.RefResult

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.Value

/-- The reference leaves its two argument arrays as it found them: the run's last two conjuncts. -/
theorem frame_ri : Cert.frame_ReferenceIdeal := fun m ρ _ =>
  (θ_run Cert.ReferenceIdeal.defs _ _).mono (fun _ h c => (h c).2) (Cert.ReferenceIdeal.Value.run (F := Ideal) m ρ)

/-- Every weakly fair execution of the reference ends with its result array at the specification's third-iteration
    output of the two argument arrays as they were at the start, and those arrays unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v103)
            = Cert.Routing.v3 (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => ⟨(h c).1.trans (ref_result (launchContents m c)), (h c).2⟩)
    (Cert.ReferenceIdeal.Value.run (F := Ideal) m ρ)

end Cert.ReferenceIdeal.RefValue

end
-- ==== Proof.lean ====
/-
  Capsule dynamic routing, three iterations, on a TPU: the kernel program (five pallas_calls — three agreement-weighted sums
  over the 2048 input capsules, accumulated over a 4 × 64 grid in a scratch buffer, and two logit updates — with the squash
  between them on the host) against the jnp reference.

  Both idealized programs compute, of the inputs x and the bias, the specification's third iterate `Cert.Routing.v3 x bias`
  (Proof/Spec.lean) on the extended reals:
  * the reference carries the routing logits as a [32,2048,64,16] array that is constant along its last axis (it starts at
    zero and only ever grows by a sum over that axis broadcast back along it), and takes its softmax over axis 2; read index
    by index its three iterations are the specification's (Proof/Ref*.lean);
  * the kernel program carries the logits as [32,2048,64]; each weighted-sum region adds, grid step by grid step, the partial
    sums over blocks of 32 input capsules into its scratch, which is the sum over all 2048 (addition of extended reals is
    commutative and associative: no finiteness is used); each update region adds the inner products blockwise; the host
    operations between them are the squash (Proof/KI/*.lean).
  The frames — every weakly fair execution terminates, faults nowhere, leaves the arguments unchanged — come with the runs:
  the kernel programs' from their nine segments' run (Proof/KI/Run.lean at the extended reals, Proof/K/Run.lean at the words),
  the reference's from its operations' run.  The idealization rewrote no operation, so `preserves` is trivial.
-/
import proofs.«130725_j52982716563714_2_alg».proof.Defs
import proofs.«130725_j52982716563714_2_alg».proof.Proof.Gen.Kernel
import proofs.«130725_j52982716563714_2_alg».proof.Proof.Gen.KernelIdeal
import proofs.«130725_j52982716563714_2_alg».proof.Proof.Gen.ReferenceIdeal
import proofs.«130725_j52982716563714_2_alg».proof.Proof.Gen.Pre_finite_inputs
import proofs.«130725_j52982716563714_2_alg».proof.Proof.K.Claims
import proofs.«130725_j52982716563714_2_alg».proof.Proof.KI.Claims
import proofs.«130725_j52982716563714_2_alg».proof.Proof.RefClaims

noncomputable section

namespace Cert.Proof

open Idealize.ShloMosaic Idealize.SL.Sem

/-- From memories agreeing on the arguments both idealized programs end with the result at the specification's third iterate
    of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Routing.v3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.kernel_run m ρ, ?_⟩
  refine (θ_run (Cert.ReferenceIdeal.defs (F := Ideal)) _ _).mono (fun r h c => ⟨?_, (h c).2⟩)
    (Cert.ReferenceIdeal.RefValue.ref_run m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    Cert.Kernel.Hand.frame_p, Cert.KernelIdeal.Hand.frame_pi, Cert.ReferenceIdeal.RefValue.frame_ri, trivial, algebraic⟩

end Cert.Proof

end
